-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x1024 : Shape := ⟨3, ![16, 4096, 1024]⟩
abbrev S16x1024 : Shape := ⟨2, ![16, 1024]⟩
abbrev S16 : Shape := ⟨1, ![16]⟩
abbrev S_ : Shape := ⟨0, ![]⟩

class Facts : Prop where
  bcast_S_S16x4096x1024 : S_.BroadcastsInDim S16x4096x1024 (![] : Fin 0 → Fin S16x4096x1024.rank)
  reducesTo_S16x4096x1024_S_d0_1_2 : S16x4096x1024.ReducesTo [0, 1, 2] S_
  h_S_ : 0 < S_.numel
  bcast_S_S16x1024 : S_.BroadcastsInDim S16x1024 (![] : Fin 0 → Fin S16x1024.rank)
  reducesTo_S16x1024_S_d0_1 : S16x1024.ReducesTo [0, 1] S_
  bcast_S_S16 : S_.BroadcastsInDim S16 (![] : Fin 0 → Fin S16.rank)
  reducesTo_S16_S_d0 : S16.ReducesTo [0] S_

variable [Facts]

def fn {F : FTy → Type} [FloatOps F] (main_arg0 : FVec F S16x4096x1024 .f32) (main_arg1 : FVec F S16x1024 .f32) (main_arg2 : FVec F S16 .f32) : IVec S_ 1 :=
  let main_v0 : FVec F S16x4096x1024 .f32 := Host.absf main_arg0
  let main_cst : FVec F S_ .f32 := constant S_ .f32 0x7F800000#32
  let main_v1 : FVec F S16x4096x1024 .f32 := broadcastInDim S16x4096x1024 ![] bcast_S_S16x4096x1024 main_cst
  let main_v2 : IVec S16x4096x1024 1 := cmpf .olt main_v0 main_v1
  let main_c : IVec S_ 1 := constantI S_ 1 1#1
  let main_v3 : IVec S_ 1 := (fun x v => Host.reduce IntOp.andi x v reducesTo_S16x4096x1024_S_d0_1_2 h_S_) main_v2 main_c
  let main_v4 : FVec F S16x1024 .f32 := Host.absf main_arg1
  let main_cst_0 : FVec F S_ .f32 := constant S_ .f32 0x7F800000#32
  let main_v5 : FVec F S16x1024 .f32 := broadcastInDim S16x1024 ![] bcast_S_S16x1024 main_cst_0
  let main_v6 : IVec S16x1024 1 := cmpf .olt main_v4 main_v5
  let main_c_1 : IVec S_ 1 := constantI S_ 1 1#1
  let main_v7 : IVec S_ 1 := (fun x v => Host.reduce IntOp.andi x v reducesTo_S16x1024_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  main_v13
-- ==== Kernel.lean ====
abbrev S16x4096x1024 : Shape := ⟨3, ![16, 4096, 1024]⟩
abbrev S16x1024 : Shape := ⟨2, ![16, 1024]⟩
abbrev S16 : Shape := ⟨1, ![16]⟩
abbrev S16x1 : Shape := ⟨2, ![16, 1]⟩
abbrev S16x16x1024 : Shape := ⟨3, ![16, 16, 1024]⟩
abbrev S16x16x4096 : Shape := ⟨3, ![16, 16, 4096]⟩
abbrev S1x2048x1024 : Shape := ⟨3, ![1, 2048, 1024]⟩
abbrev S1x16x1024 : Shape := ⟨3, ![1, 16, 1024]⟩
abbrev S1x16x4096 : Shape := ⟨3, ![1, 16, 4096]⟩
abbrev S2048x1024 : Shape := ⟨2, ![2048, 1024]⟩
abbrev S16x2048 : Shape := ⟨2, ![16, 2048]⟩
abbrev S1x16x2048 : Shape := ⟨3, ![1, 16, 2048]⟩
abbrev S16x4096 : Shape := ⟨2, ![16, 4096]⟩

abbrev nBuf : Space → Nat
  | .hbm => 6
  | .vmem => 11
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16, .f32⟩
  | .hbm, ⟨3, _⟩ => ⟨S16x1, .f32⟩
  | .hbm, ⟨4, _⟩ => ⟨S16x16x1024, .f32⟩
  | .hbm, ⟨5, _⟩ => ⟨S16x16x4096, .f32⟩
  | .local _ .vmem, ⟨0, _⟩ => ⟨S1x2048x1024, .f32⟩
  | .local _ .vmem, ⟨1, _⟩ => ⟨S1x2048x1024, .f32⟩
  | .local _ .vmem, ⟨2, _⟩ => ⟨S16x1024, .f32⟩
  | .local _ .vmem, ⟨3, _⟩ => ⟨S16x1, .f32⟩
  | .local _ .vmem, ⟨4, _⟩ => ⟨S1x16x1024, .f32⟩
  | .local _ .vmem, ⟨5, _⟩ => ⟨S1x16x1024, .f32⟩
  | .local _ .vmem, ⟨6, _⟩ => ⟨S1x16x4096, .f32⟩
  | .local _ .vmem, ⟨7, _⟩ => ⟨S1x16x4096, .f32⟩
  | .local _ .vmem, ⟨8, _⟩ => ⟨S16x1, .f32⟩
  | .local _ .vmem, ⟨9, _⟩ => ⟨S16x1, .f32⟩
  | .local _ .vmem, ⟨10, _⟩ => ⟨S16x1024, .f32⟩
  | _, _ => ⟨S16x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 2], ![false, false]⟩

def k0_mult1 (i : grid0.Coords) : BitVec 32 :=
  let arg1 : BitVec 32 := BitVec.ofNat 32 (i 1).val
  let c2048_i32 : BitVec 32 := 2048#32
  let v13 : BitVec 32 := Scalar.muli arg1 c2048_i32
  v13
def k0_off1 (i : grid0.Coords) : Fin 3 → Nat :=
  let c0_7 : Index := 0#32
  let c0_8 : Index := 0#32
  let arg1 : BitVec 32 := BitVec.ofNat 32 (i 1).val
  let c2048_i32 : BitVec 32 := 2048#32
  let v13 : BitVec 32 := Scalar.muli arg1 c2048_i32
  let v14 : BitVec 32 := v13
  let v15 : Index := Scalar.indexCast v14
  ![0, 0, v15.toNat]
def k0_cond2 (i : grid0.Coords) : BitVec 1 :=
  let arg1 : BitVec 32 := BitVec.ofNat 32 (i 1).val
  let c1_i32 : BitVec 32 := 1#32
  let v48 : BitVec 1 := Scalar.cmpi .eq arg1 c1_i32
  let v49 : BitVec 32 := Scalar.extui v48
  let c0_i32_24 : BitVec 32 := 0#32
  let v50 : BitVec 1 := Scalar.cmpi .ne v49 c0_i32_24
  v50

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S16_S16x1 : S16.ShapeCasts S16x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  broadcasts_S16x1_S16x2048 : S16x1.Broadcasts S16x2048
  h_S1x16x2048 : 0 < S1x16x2048.numel
  shapeCasts_S1x16x2048_S16x2048 : S1x16x2048.ShapeCasts S16x2048
  shapeCasts_S16x2048_S1x16x2048 : S16x2048.ShapeCasts S1x16x2048
  reduces_S16x2048_S16 : S16x2048.Reduces [1] S16
  broadcasts_S16x1_S16x1024 : S16x1.Broadcasts S16x1024
  inb_S1x16x1024_S1x16x1024_0_0_0 : ∀ a, (![0, 0, 0] : Fin 3 → Nat) a + S1x16x1024.size a ≤ S1x16x1024.size a
  h_S1x16x1024 : 0 < S1x16x1024.numel
  shapeCasts_S1x16x1024_S16x1024 : S1x16x1024.ShapeCasts S16x1024
  shapeCasts_S16x1024_S1x16x1024 : S16x1024.ShapeCasts S1x16x1024
  inb_S1x16x4096_S1x16x4096_0_0_0 : ∀ a, (![0, 0, 0] : Fin 3 → Nat) a + S1x16x4096.size a ≤ S1x16x4096.size a
  h_S1x16x4096 : 0 < S1x16x4096.numel
  shapeCasts_S1x16x4096_S16x4096 : S1x16x4096.ShapeCasts S16x4096
  broadcasts_S16x1_S16x4096 : S16x1.Broadcasts S16x4096
  shapeCasts_S16x4096_S1x16x4096 : S16x4096.ShapeCasts S1x16x4096
  dot_S16x1024_S2048x1024_S16x2048_1_1_0_0_n_n_wf : DotDims.WF S16x1024 S2048x1024 S16x2048 [1] [1] [0] [0] [] []
  dot_S16x2048_S2048x1024_S16x1024_1_0_0_1_n_n_wf : DotDims.WF S16x2048 S2048x1024 S16x1024 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S1x16x2048.size a ≤ S1x16x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S16x4096x1024.size a
  hwx0_0 : ∀ i : grid0.Coords, EltTy.bits .f32 = 32 ∨ (Rect.block (s := S16x4096x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x1024.size a ≤ S16x1024.size a
  hwx0_1 : ∀ i : grid0.Coords, EltTy.bits .f32 = 32 ∨ (Rect.block (s := S16x1024) S16x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S16x1.size a
  hwx0_2 : ∀ i : grid0.Coords, EltTy.bits .f32 = 32 ∨ (Rect.block (s := S16x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x1024.size a ≤ S16x16x1024.size a
  hwx0_3 : ∀ i : grid0.Coords, EltTy.bits .f32 = 32 ∨ (Rect.block (s := S16x16x1024) S1x16x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x4096.size a ≤ S16x16x4096.size a
  hwx0_4 : ∀ i : grid0.Coords, EltTy.bits .f32 = 32 ∨ (Rect.block (s := S16x16x4096) S1x16x4096.size (cc0_transform_4 i) (hinb0_4 i)).WholeWords (EltTy.packing .f32)

variable [Facts₀]

def dot_S16x1024_S2048x1024_S16x2048_1_1_0_0_n_n : DotDims S16x1024 S2048x1024 S16x2048 where
  lhsContracting := [1]
  rhsContracting := [1]
  lhsNonContracting := [0]
  rhsNonContracting := [0]
  lhsBatch := []
  rhsBatch := []
  wf := dot_S16x1024_S2048x1024_S16x2048_1_1_0_0_n_n_wf
def dot_S16x2048_S2048x1024_S16x1024_1_0_0_1_n_n : DotDims S16x2048 S2048x1024 S16x1024 where
  lhsContracting := [1]
  rhsContracting := [0]
  lhsNonContracting := [0]
  rhsNonContracting := [1]
  lhsBatch := []
  rhsBatch := []
  wf := dot_S16x2048_S2048x1024_S16x1024_1_0_0_1_n_n_wf

abbrev win0_0 : Pipeline.Window sig grid0 :=
  Pipeline.Window.ofSpec (Memref.whole main_arg0) S1x2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S16x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1x16x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1x16x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun _ => false | ⟨_ + 5, h⟩ => absurd h (Nat.not_lt.2 (Nat.le_add_left _ _))

class Facts : Prop extends Facts₀ where

variable [Facts]
-- ==== ReferenceIdeal.lean ====
abbrev S16x4096x1024 : Shape := ⟨3, ![16, 4096, 1024]⟩
abbrev S16x1024 : Shape := ⟨2, ![16, 1024]⟩
abbrev S16 : Shape := ⟨1, ![16]⟩
abbrev S16x4096x16 : Shape := ⟨3, ![16, 4096, 16]⟩
abbrev S1x1x16 : Shape := ⟨3, ![1, 1, 16]⟩
abbrev S_ : Shape := ⟨0, ![]⟩
abbrev S16x16 : Shape := ⟨2, ![16, 16]⟩
abbrev S16x1x16 : Shape := ⟨3, ![16, 1, 16]⟩
abbrev S16x16x1024 : Shape := ⟨3, ![16, 16, 1024]⟩
abbrev S16x16x4096 : Shape := ⟨3, ![16, 16, 4096]⟩

abbrev nBuf : Space → Nat
  | .hbm => 23
  | .vmem => 0
  | .smem => 0
  | _ => 0

abbrev bufTy : (tb : Table) → Fin (tcTables nBuf tb) → BufTy
  | .hbm, ⟨0, _⟩ => ⟨S16x4096x1024, .f32⟩
  | .hbm, ⟨1, _⟩ => ⟨S16x1024, .f32⟩
  | .hbm, ⟨2, _⟩ => ⟨S16, .f32⟩
  | .hbm, ⟨3, _⟩ => ⟨S16x4096x16, .f32⟩
  | .hbm, ⟨4, _⟩ => ⟨S1x1x16, .f32⟩
  | .hbm, ⟨5, _⟩ => ⟨S16x4096x16, .f32⟩
  | .hbm, ⟨6, _⟩ => ⟨S16x4096x16, .f32⟩
  | .hbm, ⟨7, _⟩ => ⟨S_, .f32⟩
  | .hbm, ⟨8, _⟩ => ⟨S16x16, .f32⟩
  | .hbm, ⟨9, _⟩ => ⟨S_, .f32⟩
  | .hbm, ⟨10, _⟩ => ⟨S16x16, .f32⟩
  | .hbm, ⟨11, _⟩ => ⟨S16x16, .f32⟩
  | .hbm, ⟨12, _⟩ => ⟨S16x1x16, .f32⟩
  | .hbm, ⟨13, _⟩ => ⟨S16x4096x16, .f32⟩
  | .hbm, ⟨14, _⟩ => ⟨S16x4096x16, .f32⟩
  | .hbm, ⟨15, _⟩ => ⟨S16x4096x16, .f32⟩
  | .hbm, ⟨16, _⟩ => ⟨S_, .f32⟩
  | .hbm, ⟨17, _⟩ => ⟨S16x16, .f32⟩
  | .hbm, ⟨18, _⟩ => ⟨S16x1x16, .f32⟩
  | .hbm, ⟨19, _⟩ => ⟨S16x4096x16, .f32⟩
  | .hbm, ⟨20, _⟩ => ⟨S16x4096x16, .f32⟩
  | .hbm, ⟨21, _⟩ => ⟨S16x16x1024, .f32⟩
  | .hbm, ⟨22, _⟩ => ⟨S16x16x4096, .f32⟩
  | _, _ => ⟨S16x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  bcast_S16_S1x1x16_2 : S16.BroadcastsInDim S1x1x16 (![2] : Fin 1 → Fin S1x1x16.rank)
  bcast_S1x1x16_S16x4096x16_0_1_2 : S1x1x16.BroadcastsInDim S16x4096x16 (![0, 1, 2] : Fin 3 → Fin S16x4096x16.rank)
  reducesTo_S16x4096x16_S16x16_d1 : S16x4096x16.ReducesTo [1] S16x16
  h_S_ : 0 < S_.numel
  bcast_S_S16x16 : S_.BroadcastsInDim S16x16 (![] : Fin 0 → Fin S16x16.rank)
  bcast_S16x16_S16x1x16_0_2 : S16x16.BroadcastsInDim S16x1x16 (![0, 2] : Fin 2 → Fin S16x1x16.rank)
  bcast_S16x1x16_S16x4096x16_0_1_2 : S16x1x16.BroadcastsInDim S16x4096x16 (![0, 1, 2] : Fin 3 → Fin S16x4096x16.rank)
  transposes_S16x4096x16_S16x16x4096_0_2_1 : S16x4096x16.Transposes [0, 2, 1] S16x16x4096
  dot_S16x4096x1024_S16x1024_S16x4096x16_2_1_01_0_n_n_wf : DotDims.WF S16x4096x1024 S16x1024 S16x4096x16 [2] [1] [0, 1] [0] [] []
  dot_S16x4096x16_S16x4096x1024_S16x16x1024_1_1_2_2_0_0_wf : DotDims.WF S16x4096x16 S16x4096x1024 S16x16x1024 [1] [1] [2] [2] [0] [0]

variable [Facts₀]

def dot_S16x4096x1024_S16x1024_S16x4096x16_2_1_01_0_n_n : DotDims S16x4096x1024 S16x1024 S16x4096x16 where
  lhsContracting := [2]
  rhsContracting := [1]
  lhsNonContracting := [0, 1]
  rhsNonContracting := [0]
  lhsBatch := []
  rhsBatch := []
  wf := dot_S16x4096x1024_S16x1024_S16x4096x16_2_1_01_0_n_n_wf
def dot_S16x4096x16_S16x4096x1024_S16x16x1024_1_1_2_2_0_0 : DotDims S16x4096x16 S16x4096x1024 S16x16x1024 where
  lhsContracting := [1]
  rhsContracting := [1]
  lhsNonContracting := [2]
  rhsNonContracting := [2]
  lhsBatch := [0]
  rhsBatch := [0]
  wf := dot_S16x4096x16_S16x4096x1024_S16x16x1024_1_1_2_2_0_0_wf

class Facts : Prop extends Facts₀ where

variable [Facts]
-- ==== Proof.BitsTiles.lean ====
/-
  The softmax axis is cut in two tiles per batch row, so a grid point is the FIRST tile of its batch row
  (even position: the running maximum, the running sum and the running weighted sum are reset) or the LAST
  (odd position: the two outputs are normalised and written). This module fixes that vocabulary: the two
  branch conditions of the body decided over the grid, the staging and scratch buffers the body is called on,
  and the region invariant with the three scratch buffers spelled out.
-/
import proofs.«102923_j5901285065163_2_alg».proof.Proof.Gen.Kernel.Launch
import proofs.«102923_j5901285065163_2_alg».proof.Proof.Gen.Kernel.Skeleton
import proofs.«102923_j5901285065163_2_alg».proof.Proof.Gen.Kernel.Points
import proofs.«102923_j5901285065163_2_alg».proof.Proof.Gen.Kernel.Frame
import Idealize.ShloMosaic.Lib.Pipeline.FrameBody
import Idealize.ShloMosaic.Lib.Ring
import Idealize.ShloMosaic.Lib.Tactic

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

/-- The body's first branch: this point is the first tile of its batch row (tile coordinate 0). -/
abbrev isFirst (i : grid0.Coords) : Prop := (Scalar.cmpi .ne (Scalar.extui (Scalar.cmpi .eq (BitVec.ofNat 32 (i 1).val) 0#32)) 0#32) = 1#1
/-- The first tiles are the even positions of the row-major grid. -/
theorem isFirst_iff : ∀ t : Fin cfg0.N, isFirst (grid0.coords t) ↔ t.val % 2 = 0 :=
  (by decide +kernel : ∀ t : Fin grid0.N, isFirst (grid0.coords t) ↔ t.val % 2 = 0)

/-- The body's second branch: this point is the last tile of its batch row (tile coordinate 1). -/
abbrev isLast (i : grid0.Coords) : Prop := k0_cond2 i = 1#1
/-- The last tiles are the odd positions. -/
theorem isLast_iff : ∀ t : Fin cfg0.N, isLast (grid0.coords t) ↔ t.val % 2 = 1 :=
  (by decide +kernel : ∀ t : Fin grid0.N, isLast (grid0.coords t) ↔ t.val % 2 = 1)

/-- Each window's current staging buffer at a point, as the pipeline passes it to the body. -/
abbrev stg0 (t : Fin cfg0.N) : Memref sig .tc .vmem S1x2048x1024 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S16x1024 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S16x1 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x16x1024 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x16x4096 .f32 := win0_4.stage (cfg0.slots t 4)
abbrev hstg4 (t : Fin cfg0.N) : (stg4 t).IsWhole := hstage0_4 ((cfg0.slots t 4).cast nbuf0_4)

/-- The three scratch buffers: the running maximum, the running sum, the running weighted sum. -/
abbrev scrMax : Memref sig .tc .vmem S16x1 .f32 := Memref.whole cc0_scratch0
abbrev scrSum : Memref sig .tc .vmem S16x1 .f32 := Memref.whole cc0_scratch1
abbrev scrAcc : Memref sig .tc .vmem S16x1024 .f32 := Memref.whole cc0_scratch2

/-- The region invariant of the launch, with the three scratch buffers owned at some contents and the
    generator register at some state. -/
theorem regionInv_eq (c : Dev nD) :
    (Pipeline.ΦA spec0 c : sProp 𝕄)
      = iprop(iprop((∃ d, owns (c : Thread nD τ) scrMax fullShare d) ∗ (∃ d, owns (c : Thread nD τ) scrSum fullShare d) ∗ (∃ d, owns (c : Thread nD τ) scrAcc fullShare d)) ∗ (∃ r, prngReg c r)) := by
  unfold Pipeline.ΦA; rw [scopedRest0_eq]; simp only [scrMax, scrSum, scrAcc, owns_whole]; try rfl

end Cert.Kernel.Tiles

end
-- ==== Proof.BitsFirstTile.lean ====
/-
  The body at a FIRST tile, run once on arbitrary whole staging buffers. The three scratch buffers are reset and then
  overwritten with this tile's running maximum, running sum and running weighted sum; the logits of the tile are stored
  into the half of the attention slab that the tile's offset selects, the rest of the slab left as found; the pooled
  output's buffer is not touched. What each buffer ends with is recorded as the list of stores made into it, last first.
-/
import proofs.«102923_j5901285065163_2_alg».proof.Proof.BitsTiles

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The stores a first tile makes into the slab and the scratch buffers, with the proof that from the inputs' buffers at
    `x0 x1 x2`, the slab's at `x4` and the others at anything, the body runs to a state holding them. -/
noncomputable def runFirst (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i)
    (x0 : Vec F S1x2048x1024 .f32) (x1 : Vec F S16x1024 .f32) (x2 : Vec F S16x1 .f32) (x4 : Vec F S1x16x4096 .f32) :
    Σ' (L4 : List (View.Piece (Elt F) S1x16x4096 .f32)), Σ' (LS0 : List (View.Piece (Elt F) S16x1 .f32)), Σ' (LS1 : List (View.Piece (Elt F) S16x1 .f32)), { LS2 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg6.eq_unread hf4
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]; · iexact H4
    isplitl [HS0]; · iexists _; iexact HS0
    isplitl [HS1]; · iexists _; iexact HS1
    iexists _; iexact HS2

end Cert.Kernel.Tiles

end
-- ==== Proof.BitsLastTile.lean ====
/-
  The body at a LAST tile, run once on arbitrary whole staging buffers. The scratch buffers are found at what the first
  tile of the batch row left and are overwritten with the updated running maximum, sum and weighted sum; the tile's logits
  go into its half of the attention slab, found at `x4`; then the pooled output's buffer is stored whole (the weighted sum
  over the sum) and the slab is read back whole and stored whole, normalised. What each buffer ends with is recorded as the
  list of stores made into it, last first.
-/
import proofs.«102923_j5901285065163_2_alg».proof.Proof.BitsFirstTile

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

set_option maxHeartbeats 1000000 in
/-- The stores a last tile makes into the two outputs' buffers and the scratch buffers, with the proof that from the inputs'
    buffers at `x0 x1 x2`, the slab's at `x4`, the scratch at `s0 s1 s2` and the pooled output's at anything, the body runs
    to a state holding them. -/
noncomputable def runLast (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i)
    (x0 : Vec F S1x2048x1024 .f32) (x1 : Vec F S16x1024 .f32) (x2 : Vec F S16x1 .f32) (x4 : Vec F S1x16x4096 .f32)
    (s0 : Vec F S16x1 .f32) (s1 : Vec F S16x1 .f32) (s2 : Vec F S16x1024 .f32) :
    Σ' (L3 : List (View.Piece (Elt F) S1x16x1024 .f32)), Σ' (L4 : List (View.Piece (Elt F) S1x16x4096 .f32)), Σ' (LS0 : List (View.Piece (Elt F) S16x1 .f32)), Σ' (LS1 : List (View.Piece (Elt F) S16x1 .f32)), { LS2 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare s0 ∗ owns (c : Thread nD τ) arg8 fullShare s1 ∗ owns (c : Thread nD τ) arg9 fullShare s2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hf4
    obtain rfl := harg7.eq_unread hfs0; obtain rfl := harg8.eq_unread hfs1; obtain rfl := harg9.eq_unread hfs2
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexact H4
    isplitl [HS0]; · iexists _; iexact HS0
    isplitl [HS1]; · iexists _; iexact HS1
    iexists _; iexact HS2

end Cert.Kernel.Tiles

end
-- ==== Proof.BitsPieces.lean ====
/-
  What the stores of a tile are, and what each buffer reads back to after them. A first tile: the logits of the tile into
  its half of the slab; the reset values and then the tile's maximum, sum and weighted sum into the three scratch buffers,
  each computed from the reset values. A last tile: its logits into its half of the slab and then, over the whole slab, the
  normalised weights computed from the slab read back after that store; the updated maximum, sum and weighted sum into the
  scratch, computed from what the scratch held; the weighted sum over the sum into the pooled output's buffer. A buffer whose
  last store is whole reads back to that store's value, whatever it held before.
-/
import proofs.«102923_j5901285065163_2_alg».proof.Proof.BitsLastTile
import Idealize.ShloMosaic.Lib.Pipeline.Value

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

theorem zero3 : (![0, 0, 0] : Fin 3 → Nat) = fun _ => 0 := by funext a; fin_cases a <;> rfl
theorem zero2 : (![0, 0] : Fin 2 → Nat) = fun _ => 0 := by funext a; fin_cases a <;> rfl

/-- The half of the slab a tile's logits go to. -/
abbrev halfRect (i : grid0.Coords) : Rect S1x16x4096 := Rect.unit (s := S1x16x4096) (k0_off1 i) S1x16x2048.size (k0_off1_inb i)

/-! ## A first tile -/

theorem first_slab (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i) (x0 : Vec F S1x2048x1024 .f32) (x1 : Vec F S16x1024 .f32) (x2 : Vec F S16x1 .f32) (x4 : Vec F S1x16x4096 .f32) :
    (runFirst c i arg2 harg2 arg3 harg3 arg4 harg4 arg5 harg5 arg6 harg6 arg7 harg7 arg8 harg8 arg9 harg9 hF hL x0 x1 x2 x4).1 = [⟨halfRect i, k0_pay12 x0 x1 x2⟩] := by
  unfold runFirst; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem first_max (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i) (x0 : Vec F S1x2048x1024 .f32) (x1 : Vec F S16x1024 .f32) (x2 : Vec F S16x1 .f32) (x4 : Vec F S1x16x4096 .f32) :
    (runFirst c i arg2 harg2 arg3 harg3 arg4 harg4 arg5 harg5 arg6 harg6 arg7 harg7 arg8 harg8 arg9 harg9 hF hL x0 x1 x2 x4).2.1 = [⟨Rect.unit (s := S16x1) ![0, 0] S16x1.size inb_S16x1_S16x1_0_0, k0_pay2 (k0_pay13 x0 x1 x2 k0_pay7)⟩, ⟨Rect.unit (s := S16x1) ![0, 0] S16x1.size inb_S16x1_S16x1_0_0, k0_pay7⟩] := by
  unfold runFirst; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem first_sum (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i) (x0 : Vec F S1x2048x1024 .f32) (x1 : Vec F S16x1024 .f32) (x2 : Vec F S16x1 .f32) (x4 : Vec F S1x16x4096 .f32) :
    (runFirst c i arg2 harg2 arg3 harg3 arg4 harg4 arg5 harg5 arg6 harg6 arg7 harg7 arg8 harg8 arg9 harg9 hF hL x0 x1 x2 x4).2.2.1 = [⟨Rect.unit (s := S16x1) ![0, 0] S16x1.size inb_S16x1_S16x1_0_0, k0_pay3 (k0_pay16 x0 x1 x2 k0_pay7 k0_pay8)⟩, ⟨Rect.unit (s := S16x1) ![0, 0] S16x1.size inb_S16x1_S16x1_0_0, k0_pay8⟩] := by
  unfold runFirst; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem first_acc (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i) (x0 : Vec F S1x2048x1024 .f32) (x1 : Vec F S16x1024 .f32) (x2 : Vec F S16x1 .f32) (x4 : Vec F S1x16x4096 .f32) :
    (runFirst c i arg2 harg2 arg3 harg3 arg4 harg4 arg5 harg5 arg6 harg6 arg7 harg7 arg8 harg8 arg9 harg9 hF hL x0 x1 x2 x4).2.2.2.1 = [⟨Rect.unit (s := S16x1024) ![0, 0] S16x1024.size inb_S16x1024_S16x1024_0_0, k0_pay4 (k0_pay10 x0) k0_pay9 (k0_pay14 x0 x1 x2 k0_pay7) (k0_pay17 x0 x1 x2 k0_pay7)⟩, ⟨Rect.unit (s := S16x1024) ![0, 0] S16x1024.size inb_S16x1024_S16x1024_0_0, k0_pay9⟩] := by
  unfold runFirst; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

/-! ## A last tile -/

theorem last_pooled (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).1 = [⟨Rect.unit (s := S1x16x1024) ![0, 0, 0] S1x16x1024.size inb_S1x16x1024_S1x16x1024_0_0_0, k0_pay5 (k0_pay10 x0) s2 (k0_pay14 x0 x1 x2 s0) (k0_pay16 x0 x1 x2 s0 s1) (k0_pay17 x0 x1 x2 s0)⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem last_slab (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).2.1 = [⟨Rect.unit (s := S1x16x4096) ![0, 0, 0] S1x16x4096.size inb_S1x16x4096_S1x16x4096_0_0_0,
        k0_pay6 (k0_pay13 x0 x1 x2 s0) (k0_pay16 x0 x1 x2 s0 s1) (arg6.view.read (Elt F) (arg6.view.writes (Elt F) (harg6.unread x4) [⟨halfRect i, k0_pay12 x0 x1 x2⟩]))⟩,
      ⟨halfRect i, k0_pay12 x0 x1 x2⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem last_max (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).2.2.1 = [⟨Rect.unit (s := S16x1) ![0, 0] S16x1.size inb_S16x1_S16x1_0_0, k0_pay2 (k0_pay13 x0 x1 x2 s0)⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem last_sum (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).2.2.2.1 = [⟨Rect.unit (s := S16x1) ![0, 0] S16x1.size inb_S16x1_S16x1_0_0, k0_pay3 (k0_pay16 x0 x1 x2 s0 s1)⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem last_acc (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).2.2.2.2.1 = [⟨Rect.unit (s := S16x1024) ![0, 0] S16x1024.size inb_S16x1024_S16x1024_0_0, k0_pay4 (k0_pay10 x0) s2 (k0_pay14 x0 x1 x2 s0) (k0_pay17 x0 x1 x2 s0)⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

/-! ## Reading back after a last whole store -/

/-- A buffer whose LAST store is whole reads back to that store's value. -/
theorem read_after_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

end Cert.Kernel.Tiles

end
-- ==== Proof.BitsCarry.lean ====
/-
  What the kernel carries from one grid point to the next, and what it leaves in its two outputs' buffers, as values.
  After a first tile the three scratch buffers hold the tile's maximum (taken against −∞), its sum and its weighted sum (each
  added to the reset value rescaled); after a last tile, the same updated from what the first tile of the batch row left.
  The pooled output's buffer is written only at a last tile: the weighted sum over the sum. The attention slab is written in
  two steps: every tile stores its logits into its half, the rest left as found; a last tile then overwrites the whole slab,
  normalised, from what it reads back — so what a last tile leaves depends on what the first tile left, and is stated as a
  RELATION between the slab as found and as left.
-/
import proofs.«102923_j5901285065163_2_alg».proof.Proof.BitsPieces

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before. -/
def prevPt (t : Fin cfg0.N) : Fin cfg0.N := ⟨t.val - 1, Nat.lt_of_le_of_lt (Nat.sub_le _ _) t.isLt⟩

theorem prev_even (t : Fin cfg0.N) (h1 : t.val % 2 = 1) : (prevPt t).val % 2 = 0 := by
  show (t.val - 1) % 2 = 0; omega

/-- The first-tile run at point `t`, on the point's staging buffers and input blocks, the slab found at `x4`. -/
abbrev firstAt (c : Dev nD) (t : Fin cfg0.N) (h0 : t.val % 2 = 0) (x4 : Vec F S1x16x4096 .f32) :=
  runFirst (F := F) c (grid0.coords t) (stg0 t) (hstg0 t) (stg1 t) (hstg1 t) (stg2 t) (hstg2 t) (stg3 t) (hstg3 t) (stg4 t) (hstg4 t) scrMax (Memref.isWhole_whole _) scrSum (Memref.isWhole_whole _) scrAcc (Memref.isWhole_whole _)
    ((isFirst_iff t).mpr h0) (fun h => by have := (isLast_iff t).mp h; omega) (iblk m c 0 t) (iblk m c 1 t) (iblk m c 2 t) x4

/-- The last-tile run at point `t`, the slab found at `x4` and the scratch at `s0 s1 s2`. -/
abbrev lastAt (c : Dev nD) (t : Fin cfg0.N) (h1 : t.val % 2 = 1) (x4 : Vec F S1x16x4096 .f32)
    (s0 : Vec F S16x1 .f32) (s1 : Vec F S16x1 .f32) (s2 : Vec F S16x1024 .f32) :=
  runLast (F := F) c (grid0.coords t) (stg0 t) (hstg0 t) (stg1 t) (hstg1 t) (stg2 t) (hstg2 t) (stg3 t) (hstg3 t) (stg4 t) (hstg4 t) scrMax (Memref.isWhole_whole _) scrSum (Memref.isWhole_whole _) scrAcc (Memref.isWhole_whole _)
    (fun h => by have := (isFirst_iff t).mp h; omega) ((isLast_iff t).mpr h1) (iblk m c 0 t) (iblk m c 1 t) (iblk m c 2 t) x4 s0 s1 s2

/-- The running maximum, sum and weighted sum a tile at point `t` leaves, from the ones `s0 s1 s2` before it. -/
def carryFrom (c : Dev nD) (t : Fin cfg0.N) (s0 : Vec F S16x1 .f32) (s1 : Vec F S16x1 .f32) (s2 : Vec F S16x1024 .f32) :
    Vec F S16x1 .f32 × Vec F S16x1 .f32 × Vec F S16x1024 .f32 :=
  (k0_pay2 (k0_pay13 (iblk m c 0 t) (iblk m c 1 t) (iblk m c 2 t) s0),
   k0_pay3 (k0_pay16 (iblk m c 0 t) (iblk m c 1 t) (iblk m c 2 t) s0 s1),
   k0_pay4 (k0_pay10 (iblk m c 0 t)) s2 (k0_pay14 (iblk m c 0 t) (iblk m c 1 t) (iblk m c 2 t) s0) (k0_pay17 (iblk m c 0 t) (iblk m c 1 t) (iblk m c 2 t) s0))

/-- What a first tile leaves in the scratch: from the reset values. -/
def carryFirst (c : Dev nD) (t : Fin cfg0.N) : Vec F S16x1 .f32 × Vec F S16x1 .f32 × Vec F S16x1024 .f32 :=
  carryFrom m c t k0_pay7 k0_pay8 k0_pay9

/-- What a last tile leaves in the scratch: from what the first tile of the batch row left. -/
def carryLast (c : Dev nD) (t : Fin cfg0.N) : Vec F S16x1 .f32 × Vec F S16x1 .f32 × Vec F S16x1024 .f32 :=
  carryFrom m c t (carryFirst m c (prevPt t)).1 (carryFirst m c (prevPt t)).2.1 (carryFirst m c (prevPt t)).2.2

/-- What the scratch buffers hold after the point at position `n`. -/
def carryAt (c : Dev nD) (n : ℕ) (hn : n < cfg0.N) : Vec F S16x1 .f32 × Vec F S16x1 .f32 × Vec F S16x1024 .f32 :=
  if n % 2 = 0 then carryFirst m c ⟨n, hn⟩ else carryLast m c ⟨n, hn⟩

theorem carryAt_even (c : Dev nD) (t : Fin cfg0.N) (h0 : t.val % 2 = 0) : carryAt m c t.val t.isLt = carryFirst m c t := by
  unfold carryAt; rw [if_pos h0]
theorem carryAt_odd (c : Dev nD) (t : Fin cfg0.N) (h1 : t.val % 2 = 1) : carryAt m c t.val t.isLt = carryLast m c t := by
  unfold carryAt; rw [if_neg (by omega)]

/-- The region invariant between points: before the first point the launch's own (the scratch at anything); after the
    point at position `n` the scratch at what that point left. -/
def carried (c : Dev nD) : (n : ℕ) → n ≤ cfg0.N → sProp 𝕄
  | 0, _ => Pipeline.ΦA spec0 c
  | n + 1, hn => iprop(iprop(owns (c : Thread nD τ) scrMax fullShare ((carryAt m c n hn).1) ∗ owns (c : Thread nD τ) scrSum fullShare ((carryAt m c n hn).2.1) ∗ owns (c : Thread nD τ) scrAcc fullShare ((carryAt m c n hn).2.2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scrMax fullShare ((carryAt m c n hn).1) ∗ owns (c : Thread nD τ) scrSum fullShare ((carryAt m c n hn).2.1) ∗ owns (c : Thread nD τ) scrAcc fullShare ((carryAt m c n hn).2.2)) ∗ (∃ r, prngReg c r)) := rfl

theorem carried_pos (c : Dev nD) (n : ℕ) (h : n ≤ cfg0.N) (hz : n ≠ 0) :
    carried m c n h = iprop(iprop(owns (c : Thread nD τ) scrMax fullShare ((carryAt m c (n - 1) (by omega)).1) ∗ owns (c : Thread nD τ) scrSum fullShare ((carryAt m c (n - 1) (by omega)).2.1) ∗ owns (c : Thread nD τ) scrAcc fullShare ((carryAt m c (n - 1) (by omega)).2.2)) ∗ (∃ r, prngReg c r)) := by
  cases n with
  | zero => exact absurd rfl hz
  | succ n => rfl

/-! ## The proof data -/

/-- The exact part of the proof data: the arrays as the region finds them; each input's buffer at its block after every
    point; the invariant `carried`; nothing owed, full shares. (The two outputs' entries are placeholders: their windows
    are described by the relations below.) -/
def exact (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ t := carried m c t.val (Nat.le_of_lt_succ t.isLt)
  q _ := fullShare
  owed _ := 0

theorem exact_A (c : Dev nD) (w : Fin cfg0.W) : (exact m c).A w = V m c (Pipeline.arrRef spec0 w) := by
  dsimp only [exact]
theorem exact_after0 (c : Dev nD) (t : Fin cfg0.N) : (exact m c).after 0 t = iblk m c 0 t := by dsimp only [exact]
theorem exact_after1 (c : Dev nD) (t : Fin cfg0.N) : (exact m c).after 1 t = iblk m c 1 t := by dsimp only [exact]
theorem exact_after2 (c : Dev nD) (t : Fin cfg0.N) : (exact m c).after 2 t = iblk m c 2 t := by dsimp only [exact]

/-- What a last tile leaves in the pooled output's buffer: the updated weighted sum over the updated sum. -/
def pooledLeft (c : Dev nD) (t : Fin cfg0.N) : Vec F S1x16x1024 .f32 :=
  k0_pay5 (k0_pay10 (iblk m c 0 t)) (carryFirst m c (prevPt t)).2.2
    (k0_pay14 (iblk m c 0 t) (iblk m c 1 t) (iblk m c 2 t) (carryFirst m c (prevPt t)).1)
    (k0_pay16 (iblk m c 0 t) (iblk m c 1 t) (iblk m c 2 t) (carryFirst m c (prevPt t)).1 (carryFirst m c (prevPt t)).2.1)
    (k0_pay17 (iblk m c 0 t) (iblk m c 1 t) (iblk m c 2 t) (carryFirst m c (prevPt t)).1)

/-- The pooled output's buffer: at a last tile left at `pooledLeft`; at a first tile nothing is said. -/
def pooledRel (c : Dev nD) (t : Fin cfg0.N) (Y X : Vec F S1x16x1024 .f32) : Prop :=
  t.val % 2 = 1 → X = pooledLeft m c t

/-- The slab found at `Y` after the tile at point `t` has stored its logits into its half. -/
def withLogits (c : Dev nD) (t : Fin cfg0.N) (Y : Vec F S1x16x4096 .f32) : Vec F S1x16x4096 .f32 :=
  (stg4 t).view.read (Elt F) ((stg4 t).view.writes (Elt F) ((hstg4 t).unread Y)
    [⟨halfRect (grid0.coords t), k0_pay12 (iblk m c 0 t) (iblk m c 1 t) (iblk m c 2 t)⟩])

/-- What a point leaves in the slab's buffer found at `Y`: a first tile its logits over `Y`; a last tile the weights
    normalised with the updated maximum and sum, computed from its logits over `Y`. -/
def slabLeft (c : Dev nD) (t : Fin cfg0.N) (Y : Vec F S1x16x4096 .f32) : Vec F S1x16x4096 .f32 :=
  if t.val % 2 = 0 then withLogits m c t Y
  else k0_pay6 (k0_pay13 (iblk m c 0 t) (iblk m c 1 t) (iblk m c 2 t) (carryFirst m c (prevPt t)).1)
    (k0_pay16 (iblk m c 0 t) (iblk m c 1 t) (iblk m c 2 t) (carryFirst m c (prevPt t)).1 (carryFirst m c (prevPt t)).2.1)
    (withLogits m c t Y)

/-- The slab's buffer: left at `slabLeft` of what was found. -/
def slabRel (c : Dev nD) (t : Fin cfg0.N) (Y X : Vec F S1x16x4096 .f32) : Prop := X = slabLeft m c t Y

/-- The relations that replace the two outputs' entries. -/
def outRel (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (pooledRel m c)
  | ⟨4, _⟩ => some (slabRel m c)

/-- THE PROOF DATA: the exact data read relationally, the two outputs' windows described by `pooledRel` and `slabRel`. -/
def relational (c : Dev nD) : RDat τ (Elt F) Unit ℕ (UR sig nD τ) ℕ cfg0 c := (exact m c).toR.override (outRel m c)

theorem relational_A (c : Dev nD) (w : Fin cfg0.W) : (relational m c).A w = V m c (Pipeline.arrRef spec0 w) := exact_A m c w

end Cert.Kernel.Tiles

end
-- ==== Proof.BitsObligation.lean ====
/-
  The body obligation at a grid point, for the proof data of the two-tile running softmax: the inputs are found at their
  blocks; a first tile turns any scratch into the tile's maximum, sum and weighted sum and writes its logits into the slab
  over what was found; a last tile turns the first tile's scratch into the row's and leaves the pooled buffer and the slab
  at what it stores. A buffer whose last store is whole reads back to that store's value.
-/
import proofs.«102923_j5901285065163_2_alg».proof.Proof.BitsCarry

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs' windows are never idle. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl

/-- An input's buffer is found at its block, at every point. -/
theorem found0 (c : Dev nD) (t : Fin cfg0.N) (Y) (h : (relational m c).Finds 0 t Y) : Y = iblk m c 0 t := by
  obtain ⟨d, hd⟩ := (exact m c).toR_finds 0 t Y ((RDat.override_finds (rd := (exact m c).toR) (ovr := outRel m c) (w := 0) rfl t Y).mp h)
  exact hd.trans (before0_0_of m (exact m c) (exact_A m c 0) (exact_after0 m c) t d)
theorem found1 (c : Dev nD) (t : Fin cfg0.N) (Y) (h : (relational m c).Finds 1 t Y) : Y = iblk m c 1 t := by
  obtain ⟨d, hd⟩ := (exact m c).toR_finds 1 t Y ((RDat.override_finds (rd := (exact m c).toR) (ovr := outRel m c) (w := 1) rfl t Y).mp h)
  exact hd.trans (before0_1_of m (exact m c) (exact_A m c 1) (exact_after1 m c) t d)
theorem found2 (c : Dev nD) (t : Fin cfg0.N) (Y) (h : (relational m c).Finds 2 t Y) : Y = iblk m c 2 t := by
  obtain ⟨d, hd⟩ := (exact m c).toR_finds 2 t Y ((RDat.override_finds (rd := (exact m c).toR) (ovr := outRel m c) (w := 2) rfl t Y).mp h)
  exact hd.trans (before0_2_of m (exact m c) (exact_A m c 2) (exact_after2 m c) t d)

/-- An input's buffer may be left at its block. -/
theorem left0 (c : Dev nD) (t : Fin cfg0.N) (Y) : (relational m c).after 0 t Y (iblk m c 0 t) := by
  show (exact m c).Leaves 0 t (iblk m c 0 t)
  exact (Pipeline.Dat.Leaves.live_iff (exact m c) (.inl (live0 t))).mpr (exact_after0 m c t).symm
theorem left1 (c : Dev nD) (t : Fin cfg0.N) (Y) : (relational m c).after 1 t Y (iblk m c 1 t) := by
  show (exact m c).Leaves 1 t (iblk m c 1 t)
  exact (Pipeline.Dat.Leaves.live_iff (exact m c) (.inl (live1 t))).mpr (exact_after1 m c t).symm
theorem left2 (c : Dev nD) (t : Fin cfg0.N) (Y) : (relational m c).after 2 t Y (iblk m c 2 t) := by
  show (exact m c).Leaves 2 t (iblk m c 2 t)
  exact (Pipeline.Dat.Leaves.live_iff (exact m c) (.inl (live2 t))).mpr (exact_after2 m c t).symm

/-- The scratch before a last tile is what the first tile of the row left. -/
theorem carryAt_prev (c : Dev nD) (t : Fin cfg0.N) (h1 : t.val % 2 = 1) (hlt : t.val - 1 < cfg0.N) :
    carryAt m c (t.val - 1) hlt = carryFirst m c (prevPt t) :=
  carryAt_even m c (prevPt t) (prev_even t h1)

/-- Before a first tile the invariant hands over the scratch at some contents. -/
theorem carried_any (c : Dev nD) (t : Fin cfg0.N) :
    (carried m c t.val (Nat.le_of_lt t.isLt) : sProp 𝕄)
      ⊢ iprop(iprop((∃ d, owns (c : Thread nD τ) scrMax fullShare d) ∗ (∃ d, owns (c : Thread nD τ) scrSum fullShare d) ∗ (∃ d, owns (c : Thread nD τ) scrAcc fullShare d)) ∗ (∃ r, prngReg c r)) := by
  by_cases hz : t.val = 0
  · rw [carried_zero m c _ _ hz, regionInv_eq]
  · rw [carried_pos m c _ _ hz]
    iintro ⟨⟨HS0, HS1, HS2⟩, Hg⟩
    isplitl [HS0 HS1 HS2]
    · isplitl [HS0]; · iexists _; iexact HS0
      isplitl [HS1]; · iexists _; iexact HS1
      iexists _; iexact HS2
    iexact Hg

set_option maxHeartbeats 6400000 in
/-- The body at any point. -/
theorem sound_at (c : Dev nD) (t : Fin cfg0.N) (Y : (w : Fin cfg0.W) → (cfg0.win w).block.Idx → Elt F (cfg0.win w).elt)
    (hY : ∀ w, (relational m c).Finds w t (Y w)) :
    iprop((relational m c).Φ t.castSucc ∗ (relational m c).owesAt () t.castSucc
        ∗ owns (c : Thread nD τ) (stg0 t) fullShare (Y 0) ∗ owns (c : Thread nD τ) (stg1 t) fullShare (Y 1) ∗ owns (c : Thread nD τ) (stg2 t) fullShare (Y 2)
        ∗ owns (c : Thread nD τ) (stg3 t) fullShare (Y 3) ∗ owns (c : Thread nD τ) (stg4 t) fullShare (Y 4))
      ⊢ wp frame (wpE (defs₀ (F := F)) Variants.none c none) Set.univ (bodyAt0 t) (fun _ =>
          iprop((relational m c).Φ t.succ ∗ (relational m c).owesAt () t.succ
            ∗ (∃ X, ⌜(relational m c).after 0 t (Y 0) X⌝ ∗ owns (c : Thread nD τ) (stg0 t) fullShare X)
            ∗ (∃ X, ⌜(relational m c).after 1 t (Y 1) X⌝ ∗ owns (c : Thread nD τ) (stg1 t) fullShare X)
            ∗ (∃ X, ⌜(relational m c).after 2 t (Y 2) X⌝ ∗ owns (c : Thread nD τ) (stg2 t) fullShare X)
            ∗ (∃ X, ⌜(relational m c).after 3 t (Y 3) X⌝ ∗ owns (c : Thread nD τ) (stg3 t) fullShare X)
            ∗ (∃ X, ⌜(relational m c).after 4 t (Y 4) X⌝ ∗ owns (c : Thread nD τ) (stg4 t) fullShare X))) := by
  have e0 := found0 m c t (Y 0) (hY 0)
  have e1 := found1 m c t (Y 1) (hY 1)
  have e2 := found2 m c t (Y 2) (hY 2)
  rw [show (relational m c).Φ t.castSucc = carried m c t.val (Nat.le_of_lt t.isLt) from rfl]
  rw [show (relational m c).Φ t.succ = carried m c (t.val + 1) t.isLt from rfl, carried_succ]
  rw [show (relational m c).owesAt () t.succ = (relational m c).owesAt () t.castSucc from rfl]
  rw [e0, e1, e2]
  unfold bodyAt0
  by_cases h0 : t.val % 2 = 0
  · rw [carryAt_even m c t h0]
    unfold carryFirst carryFrom; dsimp only
    iintro ⟨HΦ, Ho, H0, H1, H2, H3, H4⟩
    ihave HΦ' := (carried_any m c t) $$ HΦ
    icases HΦ' with ⟨⟨HS0, HS1, HS2⟩, Hg⟩
    iapply ((firstAt m c t h0 (Y 4)).2.2.2.2 Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; rw [first_max]; exact read_after_whole _ _ zero2 _ _ _
        isplitl [HS1]
        · unfold owns; iexists _; isplitr
          swap; · iexact HS1
          ipureintro; rw [first_sum]; exact read_after_whole _ _ zero2 _ _ _
        unfold owns; iexists _; isplitr
        swap; · iexact HS2
        ipureintro; rw [first_acc]; exact read_after_whole _ _ zero2 _ _ _
      iexact Hg
    isplitl [Ho]; · iexact Ho
    isplitl [H0]
    · iexists _; isplitr; · ipureintro; exact left0 m c t _
      iexact H0
    isplitl [H1]
    · iexists _; isplitr; · ipureintro; exact left1 m c t _
      iexact H1
    isplitl [H2]
    · iexists _; isplitr; · ipureintro; exact left2 m c t _
      iexact H2
    isplitl [H3]
    · icases H3 with ⟨%d3, H3⟩
      iexists d3; isplitr
      · ipureintro
        show pooledRel m c t (Y 3) d3
        intro h1; omega
      iexact H3
    iexists (slabLeft m c t (Y 4)); isplitr
    · ipureintro; show slabRel m c t (Y 4) (slabLeft m c t (Y 4)); rfl
    unfold owns; iexists _; isplitr
    swap; · iexact H4
    ipureintro; rw [first_slab]; unfold slabLeft withLogits; rw [if_pos h0]
  · have h1 : t.val % 2 = 1 := by omega
    have hz : t.val ≠ 0 := by omega
    rw [carryAt_odd m c t h1]
    unfold carryLast carryFrom; dsimp only
    rw [carried_pos m c _ _ hz, carryAt_prev m c t h1]
    iintro ⟨⟨⟨HS0, HS1, HS2⟩, Hg⟩, Ho, H0, H1, H2, H3, H4⟩
    iapply ((lastAt m c t h1 (Y 4) (carryFirst m c (prevPt t)).1 (carryFirst m c (prevPt t)).2.1 (carryFirst m c (prevPt t)).2.2).2.2.2.2.2 Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    isplitl [HS2]; · iexact HS2
    iintro ⟨H0, H1, H2, ⟨%f3, H3⟩, H4, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; rw [last_max]; exact read_after_whole _ _ zero2 _ _ _
        isplitl [HS1]
        · unfold owns; iexists _; isplitr
          swap; · iexact HS1
          ipureintro; rw [last_sum]; exact read_after_whole _ _ zero2 _ _ _
        unfold owns; iexists _; isplitr
        swap; · iexact HS2
        ipureintro; rw [last_acc]; exact read_after_whole _ _ zero2 _ _ _
      iexact Hg
    isplitl [Ho]; · iexact Ho
    isplitl [H0]
    · iexists _; isplitr; · ipureintro; exact left0 m c t _
      iexact H0
    isplitl [H1]
    · iexists _; isplitr; · ipureintro; exact left1 m c t _
      iexact H1
    isplitl [H2]
    · iexists _; isplitr; · ipureintro; exact left2 m c t _
      iexact H2
    isplitl [H3]
    · iexists (pooledLeft m c t); isplitr
      · ipureintro; show pooledRel m c t (Y 3) (pooledLeft m c t); intro _; rfl
      unfold owns; iexists _; isplitr
      swap; · iexact H3
      ipureintro; rw [last_pooled]; unfold pooledLeft; exact read_after_whole _ _ zero3 _ _ _
    iexists (slabLeft m c t (Y 4)); isplitr
    · ipureintro; show slabRel m c t (Y 4) (slabLeft m c t (Y 4)); rfl
    unfold owns; iexists _; isplitr
    swap; · iexact H4
    ipureintro; rw [last_slab, read_after_whole _ _ zero3]; unfold slabLeft withLogits; rw [if_neg h0]

/-- The library's body obligation, at every point. -/
theorem body_obligation (c : Dev nD) : (relational (F := F) m c).BodyObligation (defs₀ (F := F)) Variants.none () Set.univ := fun t Y hY => by
  rw [bigSep_W0, bigSep_W0]
  exact sound_at m c t Y hY

/-- What the launch hands the region is the invariant before the first point. -/
theorem inv_in (c : Dev nD) : Pipeline.ΦA spec0 c ⊢ (relational m c).Φ 0 := by
  rw [show (relational m c).Φ 0 = carried m c 0 (Nat.zero_le _) from rfl, carried_zero m c 0 _ rfl]
  try exact Idealize.SL.BI.Entails.refl _

/-- After the last point the invariant gives the launch's own back: what the scratch holds is forgotten. -/
theorem inv_out (c : Dev nD) : (relational m c).Φ (Fin.last cfg0.N) ⊢ Pipeline.ΦA spec0 c := by
  rw [show (relational m c).Φ (Fin.last cfg0.N) = carried m c (Fin.last cfg0.N).val (Nat.le_of_lt_succ (Fin.last cfg0.N).isLt) from rfl,
    carried_pos m c _ _ (by rw [Fin.val_last]; have : cfg0.N = 32 := N_0; omega), regionInv_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

end Cert.Kernel.Tiles

end
-- ==== Proof.BitsRun.lean ====
/-
  The run of the launch over the proof data of the two-tile running softmax, and the frame: every weakly fair execution
  terminates without a fault; each input array, never written back, ends as launched; each output array ends at contents it
  may hold after the write-backs, which the relations of the two outputs' windows constrain.
-/
import proofs.«102923_j5901285065163_2_alg».proof.Proof.BitsObligation

set_option maxRecDepth 16384

noncomputable section

namespace Cert.Kernel.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: from any memory with zero counters every weakly fair execution of @main terminates, every array of the launch
    at contents it may hold after every write-back and every other unscoped buffer at its region-entry contents. -/
theorem run_main : θ_run defs (onTc (τ := τ) (main (F := F))) (s₀ m ρ) (Pipeline.RDat.FramePost (cfgs 0) (fun c => relational m c) (V m)) :=
  Pipeline.RDat.θ_run_frame_track cfgs (0 : Fin 1) launch0 defs₀ Variants.none (fun c => relational m c) m ρ main
    (hbody := fun c => body_obligation m c) (hshare := fun c => (relational m c).share_full fun _ => rfl)
    (howed := fun _ _ => rfl) (V := V m) (hmain := hmain m Variants.none) (hA := relational_A m) (hin := inv_in m) (hout := inv_out m)

/-- An input array is never written back: it ends at its region-entry contents. -/
theorem input_kept (c : Dev nD) (w : Fin cfg0.W) (hw : (cfg0.win w).isOut = false) (F' : Buf (Elt F) ((cfg0.win w).arr.view.loc (c.tc : Thread nD τ)))
    (h : (relational m c).ArrAt w cfg0.N F') : F' = V m c (Pipeline.arrRef spec0 w) :=
  (Eq.mp (congrFun ((relational m c).ArrAt_in w hw _) _) h).trans (relational_A m c w)

/-- THE FRAME: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(input_kept m c 0 rfl _ ((h c).1 0)).trans (V_main_arg0 m c),
      (input_kept m c 1 rfl _ ((h c).1 1)).trans (V_main_arg1 m c),
      ((h c).2 main_arg2 (Pipeline.mem_restRefs_of main_arg2 (by decide) (by decide))).trans (V_main_arg2 m c)⟩) (run_main m ρ)

end Cert.Kernel.Tiles

end
-- ==== Proof.IdealTiles.lean ====
/-
  The softmax axis is cut in two tiles per batch row, so a grid point is the FIRST tile of its batch row
  (even position: the running maximum, the running sum and the running weighted sum are reset) or the LAST
  (odd position: the two outputs are normalised and written). This module fixes that vocabulary: the two
  branch conditions of the body decided over the grid, the staging and scratch buffers the body is called on,
  and the region invariant with the three scratch buffers spelled out.
-/
import proofs.«102923_j5901285065163_2_alg».proof.Proof.Gen.KernelIdeal.Launch
import proofs.«102923_j5901285065163_2_alg».proof.Proof.Gen.KernelIdeal.Skeleton
import proofs.«102923_j5901285065163_2_alg».proof.Proof.Gen.KernelIdeal.Points
import proofs.«102923_j5901285065163_2_alg».proof.Proof.Gen.KernelIdeal.Frame
import Idealize.ShloMosaic.Lib.Pipeline.FrameBody
import Idealize.ShloMosaic.Lib.Ring
import Idealize.ShloMosaic.Lib.Tactic

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

/-- The body's first branch: this point is the first tile of its batch row (tile coordinate 0). -/
abbrev isFirst (i : grid0.Coords) : Prop := (Scalar.cmpi .ne (Scalar.extui (Scalar.cmpi .eq (BitVec.ofNat 32 (i 1).val) 0#32)) 0#32) = 1#1
/-- The first tiles are the even positions of the row-major grid. -/
theorem isFirst_iff : ∀ t : Fin cfg0.N, isFirst (grid0.coords t) ↔ t.val % 2 = 0 :=
  (by decide +kernel : ∀ t : Fin grid0.N, isFirst (grid0.coords t) ↔ t.val % 2 = 0)

/-- The body's second branch: this point is the last tile of its batch row (tile coordinate 1). -/
abbrev isLast (i : grid0.Coords) : Prop := k0_cond2 i = 1#1
/-- The last tiles are the odd positions. -/
theorem isLast_iff : ∀ t : Fin cfg0.N, isLast (grid0.coords t) ↔ t.val % 2 = 1 :=
  (by decide +kernel : ∀ t : Fin grid0.N, isLast (grid0.coords t) ↔ t.val % 2 = 1)

/-- Each window's current staging buffer at a point, as the pipeline passes it to the body. -/
abbrev stg0 (t : Fin cfg0.N) : Memref sig .tc .vmem S1x2048x1024 .f32 := win0_0.stage (cfg0.slots t 0)
abbrev hstg0 (t : Fin cfg0.N) : (stg0 t).IsWhole := hstage0_0 ((cfg0.slots t 0).cast nbuf0_0)
abbrev stg1 (t : Fin cfg0.N) : Memref sig .tc .vmem S16x1024 .f32 := win0_1.stage (cfg0.slots t 1)
abbrev hstg1 (t : Fin cfg0.N) : (stg1 t).IsWhole := hstage0_1 ((cfg0.slots t 1).cast nbuf0_1)
abbrev stg2 (t : Fin cfg0.N) : Memref sig .tc .vmem S16x1 .f32 := win0_2.stage (cfg0.slots t 2)
abbrev hstg2 (t : Fin cfg0.N) : (stg2 t).IsWhole := hstage0_2 ((cfg0.slots t 2).cast nbuf0_2)
abbrev stg3 (t : Fin cfg0.N) : Memref sig .tc .vmem S1x16x1024 .f32 := win0_3.stage (cfg0.slots t 3)
abbrev hstg3 (t : Fin cfg0.N) : (stg3 t).IsWhole := hstage0_3 ((cfg0.slots t 3).cast nbuf0_3)
abbrev stg4 (t : Fin cfg0.N) : Memref sig .tc .vmem S1x16x4096 .f32 := win0_4.stage (cfg0.slots t 4)
abbrev hstg4 (t : Fin cfg0.N) : (stg4 t).IsWhole := hstage0_4 ((cfg0.slots t 4).cast nbuf0_4)

/-- The three scratch buffers: the running maximum, the running sum, the running weighted sum. -/
abbrev scrMax : Memref sig .tc .vmem S16x1 .f32 := Memref.whole cc0_scratch0
abbrev scrSum : Memref sig .tc .vmem S16x1 .f32 := Memref.whole cc0_scratch1
abbrev scrAcc : Memref sig .tc .vmem S16x1024 .f32 := Memref.whole cc0_scratch2

/-- The region invariant of the launch, with the three scratch buffers owned at some contents and the
    generator register at some state. -/
theorem regionInv_eq (c : Dev nD) :
    (Pipeline.ΦA spec0 c : sProp 𝕄)
      = iprop(iprop((∃ d, owns (c : Thread nD τ) scrMax fullShare d) ∗ (∃ d, owns (c : Thread nD τ) scrSum fullShare d) ∗ (∃ d, owns (c : Thread nD τ) scrAcc fullShare d)) ∗ (∃ r, prngReg c r)) := by
  unfold Pipeline.ΦA; rw [scopedRest0_eq]; simp only [scrMax, scrSum, scrAcc, owns_whole]; try rfl

end Cert.KernelIdeal.Tiles

end
-- ==== Proof.IdealFirstTile.lean ====
/-
  The body at a FIRST tile, run once on arbitrary whole staging buffers. The three scratch buffers are reset and then
  overwritten with this tile's running maximum, running sum and running weighted sum; the logits of the tile are stored
  into the half of the attention slab that the tile's offset selects, the rest of the slab left as found; the pooled
  output's buffer is not touched. What each buffer ends with is recorded as the list of stores made into it, last first.
-/
import proofs.«102923_j5901285065163_2_alg».proof.Proof.IdealTiles

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a first tile makes into the slab and the scratch buffers, with the proof that from the inputs' buffers at
    `x0 x1 x2`, the slab's at `x4` and the others at anything, the body runs to a state holding them. -/
noncomputable def runFirst (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i)
    (x0 : Vec F S1x2048x1024 .f32) (x1 : Vec F S16x1024 .f32) (x2 : Vec F S16x1 .f32) (x4 : Vec F S1x16x4096 .f32) :
    Σ' (L4 : List (View.Piece (Elt F) S1x16x4096 .f32)), Σ' (LS0 : List (View.Piece (Elt F) S16x1 .f32)), Σ' (LS1 : List (View.Piece (Elt F) S16x1 .f32)), { LS2 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ (∃ d, owns (c : Thread nD τ) arg5 fullShare d) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg6.eq_unread hf4
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _, _; isplitr; swap; · iexact H3
      ipureintro; rfl
    isplitl [H4]; · iexact H4
    isplitl [HS0]; · iexists _; iexact HS0
    isplitl [HS1]; · iexists _; iexact HS1
    iexists _; iexact HS2

end Cert.KernelIdeal.Tiles

end
-- ==== Proof.IdealLastTile.lean ====
/-
  The body at a LAST tile, run once on arbitrary whole staging buffers. The scratch buffers are found at what the first
  tile of the batch row left and are overwritten with the updated running maximum, sum and weighted sum; the tile's logits
  go into its half of the attention slab, found at `x4`; then the pooled output's buffer is stored whole (the weighted sum
  over the sum) and the slab is read back whole and stored whole, normalised. What each buffer ends with is recorded as the
  list of stores made into it, last first.
-/
import proofs.«102923_j5901285065163_2_alg».proof.Proof.IdealFirstTile

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

set_option maxHeartbeats 1000000 in
/-- The stores a last tile makes into the two outputs' buffers and the scratch buffers, with the proof that from the inputs'
    buffers at `x0 x1 x2`, the slab's at `x4`, the scratch at `s0 s1 s2` and the pooled output's at anything, the body runs
    to a state holding them. -/
noncomputable def runLast (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i)
    (x0 : Vec F S1x2048x1024 .f32) (x1 : Vec F S16x1024 .f32) (x2 : Vec F S16x1 .f32) (x4 : Vec F S1x16x4096 .f32)
    (s0 : Vec F S16x1 .f32) (s1 : Vec F S16x1 .f32) (s2 : Vec F S16x1024 .f32) :
    Σ' (L3 : List (View.Piece (Elt F) S1x16x1024 .f32)), Σ' (L4 : List (View.Piece (Elt F) S1x16x4096 .f32)), Σ' (LS0 : List (View.Piece (Elt F) S16x1 .f32)), Σ' (LS1 : List (View.Piece (Elt F) S16x1 .f32)), { LS2 : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare x4 ∗ owns (c : Thread nD τ) arg7 fullShare s0 ∗ owns (c : Thread nD τ) arg8 fullShare s1 ∗ owns (c : Thread nD τ) arg9 fullShare s2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (arg6.view.loc (c : Thread nD τ) ↦[arg6.view.set]{fullShare} arg6.view.writes (Elt F) (harg6.unread x4) L4) ∗ (∃ f, arg7.view.loc (c : Thread nD τ) ↦[arg7.view.set]{fullShare} arg7.view.writes (Elt F) f LS0) ∗ (∃ f, arg8.view.loc (c : Thread nD τ) ↦[arg8.view.set]{fullShare} arg8.view.writes (Elt F) f LS1) ∗ (∃ f, arg9.view.loc (c : Thread nD τ) ↦[arg9.view.set]{fullShare} arg9.view.writes (Elt F) f LS2)) -∗ K ⟨⟩))
          ⊢ wp frame (wpE (defs₀ (F := F)) Variants.none c none) E (cc0__fused_kernel i arg2 harg2 arg3 harg3 arg4 harg4 arg5 harg5 arg6 harg6 arg7 harg7 arg8 harg8 arg9 harg9) K } := by
  refine ⟨?_, ?_, ?_, ?_, ?_, fun E K => ?run⟩
  case run =>
    simp only [cc0__fused_kernel_eq_skeleton]; unfold cc0__fused_kernel_skel
    simp only [k0_part1_eq_skeleton]
    unfold owns
    iintro ⟨⟨%f0, %hf0, H0⟩, ⟨%f1, %hf1, H1⟩, ⟨%f2, %hf2, H2⟩, ⟨%d3, %f3, -, H3⟩, ⟨%f4, %hf4, H4⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg6.eq_unread hf4
    obtain rfl := harg7.eq_unread hfs0; obtain rfl := harg8.eq_unread hfs1; obtain rfl := harg9.eq_unread hfs2
    sl_exec (disch := first | exact hF | exact hL)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexact H4
    isplitl [HS0]; · iexists _; iexact HS0
    isplitl [HS1]; · iexists _; iexact HS1
    iexists _; iexact HS2

end Cert.KernelIdeal.Tiles

end
-- ==== Proof.IdealPieces.lean ====
/-
  What the stores of a tile are, and what each buffer reads back to after them. A first tile: the logits of the tile into
  its half of the slab; the reset values and then the tile's maximum, sum and weighted sum into the three scratch buffers,
  each computed from the reset values. A last tile: its logits into its half of the slab and then, over the whole slab, the
  normalised weights computed from the slab read back after that store; the updated maximum, sum and weighted sum into the
  scratch, computed from what the scratch held; the weighted sum over the sum into the pooled output's buffer. A buffer whose
  last store is whole reads back to that store's value, whatever it held before.
-/
import proofs.«102923_j5901285065163_2_alg».proof.Proof.IdealLastTile
import Idealize.ShloMosaic.Lib.Pipeline.Value

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

theorem zero3 : (![0, 0, 0] : Fin 3 → Nat) = fun _ => 0 := by funext a; fin_cases a <;> rfl
theorem zero2 : (![0, 0] : Fin 2 → Nat) = fun _ => 0 := by funext a; fin_cases a <;> rfl

/-- The half of the slab a tile's logits go to. -/
abbrev halfRect (i : grid0.Coords) : Rect S1x16x4096 := Rect.unit (s := S1x16x4096) (k0_off1 i) S1x16x2048.size (k0_off1_inb i)

/-! ## A first tile -/

theorem first_slab (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i) (x0 : Vec F S1x2048x1024 .f32) (x1 : Vec F S16x1024 .f32) (x2 : Vec F S16x1 .f32) (x4 : Vec F S1x16x4096 .f32) :
    (runFirst c i arg2 harg2 arg3 harg3 arg4 harg4 arg5 harg5 arg6 harg6 arg7 harg7 arg8 harg8 arg9 harg9 hF hL x0 x1 x2 x4).1 = [⟨halfRect i, k0_pay12 x0 x1 x2⟩] := by
  unfold runFirst; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem first_max (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i) (x0 : Vec F S1x2048x1024 .f32) (x1 : Vec F S16x1024 .f32) (x2 : Vec F S16x1 .f32) (x4 : Vec F S1x16x4096 .f32) :
    (runFirst c i arg2 harg2 arg3 harg3 arg4 harg4 arg5 harg5 arg6 harg6 arg7 harg7 arg8 harg8 arg9 harg9 hF hL x0 x1 x2 x4).2.1 = [⟨Rect.unit (s := S16x1) ![0, 0] S16x1.size inb_S16x1_S16x1_0_0, k0_pay2 (k0_pay13 x0 x1 x2 k0_pay7)⟩, ⟨Rect.unit (s := S16x1) ![0, 0] S16x1.size inb_S16x1_S16x1_0_0, k0_pay7⟩] := by
  unfold runFirst; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem first_sum (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i) (x0 : Vec F S1x2048x1024 .f32) (x1 : Vec F S16x1024 .f32) (x2 : Vec F S16x1 .f32) (x4 : Vec F S1x16x4096 .f32) :
    (runFirst c i arg2 harg2 arg3 harg3 arg4 harg4 arg5 harg5 arg6 harg6 arg7 harg7 arg8 harg8 arg9 harg9 hF hL x0 x1 x2 x4).2.2.1 = [⟨Rect.unit (s := S16x1) ![0, 0] S16x1.size inb_S16x1_S16x1_0_0, k0_pay3 (k0_pay16 x0 x1 x2 k0_pay7 k0_pay8)⟩, ⟨Rect.unit (s := S16x1) ![0, 0] S16x1.size inb_S16x1_S16x1_0_0, k0_pay8⟩] := by
  unfold runFirst; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem first_acc (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : isFirst i) (hL : ¬isLast i) (x0 : Vec F S1x2048x1024 .f32) (x1 : Vec F S16x1024 .f32) (x2 : Vec F S16x1 .f32) (x4 : Vec F S1x16x4096 .f32) :
    (runFirst c i arg2 harg2 arg3 harg3 arg4 harg4 arg5 harg5 arg6 harg6 arg7 harg7 arg8 harg8 arg9 harg9 hF hL x0 x1 x2 x4).2.2.2.1 = [⟨Rect.unit (s := S16x1024) ![0, 0] S16x1024.size inb_S16x1024_S16x1024_0_0, k0_pay4 (k0_pay10 x0) k0_pay9 (k0_pay14 x0 x1 x2 k0_pay7) (k0_pay17 x0 x1 x2 k0_pay7)⟩, ⟨Rect.unit (s := S16x1024) ![0, 0] S16x1024.size inb_S16x1024_S16x1024_0_0, k0_pay9⟩] := by
  unfold runFirst; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

/-! ## A last tile -/

theorem last_pooled (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).1 = [⟨Rect.unit (s := S1x16x1024) ![0, 0, 0] S1x16x1024.size inb_S1x16x1024_S1x16x1024_0_0_0, k0_pay5 (k0_pay10 x0) s2 (k0_pay14 x0 x1 x2 s0) (k0_pay16 x0 x1 x2 s0 s1) (k0_pay17 x0 x1 x2 s0)⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem last_slab (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).2.1 = [⟨Rect.unit (s := S1x16x4096) ![0, 0, 0] S1x16x4096.size inb_S1x16x4096_S1x16x4096_0_0_0,
        k0_pay6 (k0_pay13 x0 x1 x2 s0) (k0_pay16 x0 x1 x2 s0 s1) (arg6.view.read (Elt F) (arg6.view.writes (Elt F) (harg6.unread x4) [⟨halfRect i, k0_pay12 x0 x1 x2⟩]))⟩,
      ⟨halfRect i, k0_pay12 x0 x1 x2⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem last_max (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).2.2.1 = [⟨Rect.unit (s := S16x1) ![0, 0] S16x1.size inb_S16x1_S16x1_0_0, k0_pay2 (k0_pay13 x0 x1 x2 s0)⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem last_sum (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).2.2.2.1 = [⟨Rect.unit (s := S16x1) ![0, 0] S16x1.size inb_S16x1_S16x1_0_0, k0_pay3 (k0_pay16 x0 x1 x2 s0 s1)⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

theorem last_acc (c : Dev nD) (i : grid0.Coords) (arg2 : Memref sig .tc .vmem S1x2048x1024 .f32) (harg2 : arg2.IsWhole) (arg3 : Memref sig .tc .vmem S16x1024 .f32) (harg3 : arg3.IsWhole) (arg4 : Memref sig .tc .vmem S16x1 .f32) (harg4 : arg4.IsWhole) (arg5 : Memref sig .tc .vmem S1x16x1024 .f32) (harg5 : arg5.IsWhole) (arg6 : Memref sig .tc .vmem S1x16x4096 .f32) (harg6 : arg6.IsWhole) (arg7 : Memref sig .tc .vmem S16x1 .f32) (harg7 : arg7.IsWhole) (arg8 : Memref sig .tc .vmem S16x1 .f32) (harg8 : arg8.IsWhole) (arg9 : Memref sig .tc .vmem S16x1024 .f32) (harg9 : arg9.IsWhole) (hF : ¬isFirst i) (hL : isLast i) (x0 : Vec F S1x2048x1024 .f32) (x1 : Vec F S16x1024 .f32) (x2 : Vec F S16x1 .f32) (x4 : Vec F S1x16x4096 .f32) (s0 : Vec F S16x1 .f32) (s1 : Vec F S16x1 .f32) (s2 : Vec F S16x1024 .f32) :
    (runLast c i arg2 harg2 arg3 harg3 arg4 harg4 arg5 harg5 arg6 harg6 arg7 harg7 arg8 harg8 arg9 harg9 hF hL x0 x1 x2 x4 s0 s1 s2).2.2.2.2.1 = [⟨Rect.unit (s := S16x1024) ![0, 0] S16x1024.size inb_S16x1024_S16x1024_0_0, k0_pay4 (k0_pay10 x0) s2 (k0_pay14 x0 x1 x2 s0) (k0_pay17 x0 x1 x2 s0)⟩] := by
  unfold runLast; dsimp only; sl_unfold_words
  simp only [View.readAt_eq_ld, harg2.read_unread, harg3.read_unread, harg4.read_unread, harg7.read_unread, harg8.read_unread, harg9.read_unread,
    View.readCov_unit_zero (S := S16x1) _ zero2, View.readCov_unit_zero (S := S16x1024) _ zero2,
    View.ld_unit_zero (S := S1x2048x1024) zero3, View.ld_unit_zero (S := S16x1024) zero2, View.ld_unit_zero (S := S16x1) zero2, View.ld_unit_zero (S := S1x16x4096) zero3]
  try rfl

/-! ## Reading back after a last whole store -/

/-- A buffer whose LAST store is whole reads back to that store's value. -/
theorem read_after_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h]

end Cert.KernelIdeal.Tiles

end
-- ==== Proof.IdealCarry.lean ====
/-
  What the kernel carries from one grid point to the next, and what it leaves in its two outputs' buffers, as values.
  After a first tile the three scratch buffers hold the tile's maximum (taken against −∞), its sum and its weighted sum (each
  added to the reset value rescaled); after a last tile, the same updated from what the first tile of the batch row left.
  The pooled output's buffer is written only at a last tile: the weighted sum over the sum. The attention slab is written in
  two steps: every tile stores its logits into its half, the rest left as found; a last tile then overwrites the whole slab,
  normalised, from what it reads back — so what a last tile leaves depends on what the first tile left, and is stated as a
  RELATION between the slab as found and as left.
-/
import proofs.«102923_j5901285065163_2_alg».proof.Proof.IdealPieces

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The point before. -/
def prevPt (t : Fin cfg0.N) : Fin cfg0.N := ⟨t.val - 1, Nat.lt_of_le_of_lt (Nat.sub_le _ _) t.isLt⟩

theorem prev_even (t : Fin cfg0.N) (h1 : t.val % 2 = 1) : (prevPt t).val % 2 = 0 := by
  show (t.val - 1) % 2 = 0; omega

/-- The first-tile run at point `t`, on the point's staging buffers and input blocks, the slab found at `x4`. -/
abbrev firstAt (c : Dev nD) (t : Fin cfg0.N) (h0 : t.val % 2 = 0) (x4 : Vec F S1x16x4096 .f32) :=
  runFirst (F := F) c (grid0.coords t) (stg0 t) (hstg0 t) (stg1 t) (hstg1 t) (stg2 t) (hstg2 t) (stg3 t) (hstg3 t) (stg4 t) (hstg4 t) scrMax (Memref.isWhole_whole _) scrSum (Memref.isWhole_whole _) scrAcc (Memref.isWhole_whole _)
    ((isFirst_iff t).mpr h0) (fun h => by have := (isLast_iff t).mp h; omega) (iblk m c 0 t) (iblk m c 1 t) (iblk m c 2 t) x4

/-- The last-tile run at point `t`, the slab found at `x4` and the scratch at `s0 s1 s2`. -/
abbrev lastAt (c : Dev nD) (t : Fin cfg0.N) (h1 : t.val % 2 = 1) (x4 : Vec F S1x16x4096 .f32)
    (s0 : Vec F S16x1 .f32) (s1 : Vec F S16x1 .f32) (s2 : Vec F S16x1024 .f32) :=
  runLast (F := F) c (grid0.coords t) (stg0 t) (hstg0 t) (stg1 t) (hstg1 t) (stg2 t) (hstg2 t) (stg3 t) (hstg3 t) (stg4 t) (hstg4 t) scrMax (Memref.isWhole_whole _) scrSum (Memref.isWhole_whole _) scrAcc (Memref.isWhole_whole _)
    (fun h => by have := (isFirst_iff t).mp h; omega) ((isLast_iff t).mpr h1) (iblk m c 0 t) (iblk m c 1 t) (iblk m c 2 t) x4 s0 s1 s2

/-- The running maximum, sum and weighted sum a tile at point `t` leaves, from the ones `s0 s1 s2` before it. -/
def carryFrom (c : Dev nD) (t : Fin cfg0.N) (s0 : Vec F S16x1 .f32) (s1 : Vec F S16x1 .f32) (s2 : Vec F S16x1024 .f32) :
    Vec F S16x1 .f32 × Vec F S16x1 .f32 × Vec F S16x1024 .f32 :=
  (k0_pay2 (k0_pay13 (iblk m c 0 t) (iblk m c 1 t) (iblk m c 2 t) s0),
   k0_pay3 (k0_pay16 (iblk m c 0 t) (iblk m c 1 t) (iblk m c 2 t) s0 s1),
   k0_pay4 (k0_pay10 (iblk m c 0 t)) s2 (k0_pay14 (iblk m c 0 t) (iblk m c 1 t) (iblk m c 2 t) s0) (k0_pay17 (iblk m c 0 t) (iblk m c 1 t) (iblk m c 2 t) s0))

/-- What a first tile leaves in the scratch: from the reset values. -/
def carryFirst (c : Dev nD) (t : Fin cfg0.N) : Vec F S16x1 .f32 × Vec F S16x1 .f32 × Vec F S16x1024 .f32 :=
  carryFrom m c t k0_pay7 k0_pay8 k0_pay9

/-- What a last tile leaves in the scratch: from what the first tile of the batch row left. -/
def carryLast (c : Dev nD) (t : Fin cfg0.N) : Vec F S16x1 .f32 × Vec F S16x1 .f32 × Vec F S16x1024 .f32 :=
  carryFrom m c t (carryFirst m c (prevPt t)).1 (carryFirst m c (prevPt t)).2.1 (carryFirst m c (prevPt t)).2.2

/-- What the scratch buffers hold after the point at position `n`. -/
def carryAt (c : Dev nD) (n : ℕ) (hn : n < cfg0.N) : Vec F S16x1 .f32 × Vec F S16x1 .f32 × Vec F S16x1024 .f32 :=
  if n % 2 = 0 then carryFirst m c ⟨n, hn⟩ else carryLast m c ⟨n, hn⟩

theorem carryAt_even (c : Dev nD) (t : Fin cfg0.N) (h0 : t.val % 2 = 0) : carryAt m c t.val t.isLt = carryFirst m c t := by
  unfold carryAt; rw [if_pos h0]
theorem carryAt_odd (c : Dev nD) (t : Fin cfg0.N) (h1 : t.val % 2 = 1) : carryAt m c t.val t.isLt = carryLast m c t := by
  unfold carryAt; rw [if_neg (by omega)]

/-- The region invariant between points: before the first point the launch's own (the scratch at anything); after the
    point at position `n` the scratch at what that point left. -/
def carried (c : Dev nD) : (n : ℕ) → n ≤ cfg0.N → sProp 𝕄
  | 0, _ => Pipeline.ΦA spec0 c
  | n + 1, hn => iprop(iprop(owns (c : Thread nD τ) scrMax fullShare ((carryAt m c n hn).1) ∗ owns (c : Thread nD τ) scrSum fullShare ((carryAt m c n hn).2.1) ∗ owns (c : Thread nD τ) scrAcc fullShare ((carryAt m c n hn).2.2)) ∗ (∃ r, prngReg c r))

theorem carried_zero (c : Dev nD) (n : ℕ) (h : n ≤ cfg0.N) (hz : n = 0) : carried m c n h = Pipeline.ΦA spec0 c := by
  subst hz; rfl

theorem carried_succ (c : Dev nD) (n : ℕ) (hn : n < cfg0.N) :
    carried m c (n + 1) hn = iprop(iprop(owns (c : Thread nD τ) scrMax fullShare ((carryAt m c n hn).1) ∗ owns (c : Thread nD τ) scrSum fullShare ((carryAt m c n hn).2.1) ∗ owns (c : Thread nD τ) scrAcc fullShare ((carryAt m c n hn).2.2)) ∗ (∃ r, prngReg c r)) := rfl

theorem carried_pos (c : Dev nD) (n : ℕ) (h : n ≤ cfg0.N) (hz : n ≠ 0) :
    carried m c n h = iprop(iprop(owns (c : Thread nD τ) scrMax fullShare ((carryAt m c (n - 1) (by omega)).1) ∗ owns (c : Thread nD τ) scrSum fullShare ((carryAt m c (n - 1) (by omega)).2.1) ∗ owns (c : Thread nD τ) scrAcc fullShare ((carryAt m c (n - 1) (by omega)).2.2)) ∗ (∃ r, prngReg c r)) := by
  cases n with
  | zero => exact absurd rfl hz
  | succ n => rfl

/-! ## The proof data -/

/-- The exact part of the proof data: the arrays as the region finds them; each input's buffer at its block after every
    point; the invariant `carried`; nothing owed, full shares. (The two outputs' entries are placeholders: their windows
    are described by the relations below.) -/
def exact (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
    | ⟨4, h⟩ => Pipeline.Dat.unnamed (cfg := cfg0) ⟨4, h⟩ t
  Φ t := carried m c t.val (Nat.le_of_lt_succ t.isLt)
  q _ := fullShare
  owed _ := 0

theorem exact_A (c : Dev nD) (w : Fin cfg0.W) : (exact m c).A w = V m c (Pipeline.arrRef spec0 w) := by
  dsimp only [exact]
theorem exact_after0 (c : Dev nD) (t : Fin cfg0.N) : (exact m c).after 0 t = iblk m c 0 t := by dsimp only [exact]
theorem exact_after1 (c : Dev nD) (t : Fin cfg0.N) : (exact m c).after 1 t = iblk m c 1 t := by dsimp only [exact]
theorem exact_after2 (c : Dev nD) (t : Fin cfg0.N) : (exact m c).after 2 t = iblk m c 2 t := by dsimp only [exact]

/-- What a last tile leaves in the pooled output's buffer: the updated weighted sum over the updated sum. -/
def pooledLeft (c : Dev nD) (t : Fin cfg0.N) : Vec F S1x16x1024 .f32 :=
  k0_pay5 (k0_pay10 (iblk m c 0 t)) (carryFirst m c (prevPt t)).2.2
    (k0_pay14 (iblk m c 0 t) (iblk m c 1 t) (iblk m c 2 t) (carryFirst m c (prevPt t)).1)
    (k0_pay16 (iblk m c 0 t) (iblk m c 1 t) (iblk m c 2 t) (carryFirst m c (prevPt t)).1 (carryFirst m c (prevPt t)).2.1)
    (k0_pay17 (iblk m c 0 t) (iblk m c 1 t) (iblk m c 2 t) (carryFirst m c (prevPt t)).1)

/-- The pooled output's buffer: at a last tile left at `pooledLeft`; at a first tile nothing is said. -/
def pooledRel (c : Dev nD) (t : Fin cfg0.N) (Y X : Vec F S1x16x1024 .f32) : Prop :=
  t.val % 2 = 1 → X = pooledLeft m c t

/-- The slab found at `Y` after the tile at point `t` has stored its logits into its half. -/
def withLogits (c : Dev nD) (t : Fin cfg0.N) (Y : Vec F S1x16x4096 .f32) : Vec F S1x16x4096 .f32 :=
  (stg4 t).view.read (Elt F) ((stg4 t).view.writes (Elt F) ((hstg4 t).unread Y)
    [⟨halfRect (grid0.coords t), k0_pay12 (iblk m c 0 t) (iblk m c 1 t) (iblk m c 2 t)⟩])

/-- What a point leaves in the slab's buffer found at `Y`: a first tile its logits over `Y`; a last tile the weights
    normalised with the updated maximum and sum, computed from its logits over `Y`. -/
def slabLeft (c : Dev nD) (t : Fin cfg0.N) (Y : Vec F S1x16x4096 .f32) : Vec F S1x16x4096 .f32 :=
  if t.val % 2 = 0 then withLogits m c t Y
  else k0_pay6 (k0_pay13 (iblk m c 0 t) (iblk m c 1 t) (iblk m c 2 t) (carryFirst m c (prevPt t)).1)
    (k0_pay16 (iblk m c 0 t) (iblk m c 1 t) (iblk m c 2 t) (carryFirst m c (prevPt t)).1 (carryFirst m c (prevPt t)).2.1)
    (withLogits m c t Y)

/-- The slab's buffer: left at `slabLeft` of what was found. -/
def slabRel (c : Dev nD) (t : Fin cfg0.N) (Y X : Vec F S1x16x4096 .f32) : Prop := X = slabLeft m c t Y

/-- The relations that replace the two outputs' entries. -/
def outRel (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => none
  | ⟨3, _⟩ => some (pooledRel m c)
  | ⟨4, _⟩ => some (slabRel m c)

/-- THE PROOF DATA: the exact data read relationally, the two outputs' windows described by `pooledRel` and `slabRel`. -/
def relational (c : Dev nD) : RDat τ (Elt F) Unit ℕ (UR sig nD τ) ℕ cfg0 c := (exact m c).toR.override (outRel m c)

theorem relational_A (c : Dev nD) (w : Fin cfg0.W) : (relational m c).A w = V m c (Pipeline.arrRef spec0 w) := exact_A m c w

end Cert.KernelIdeal.Tiles

end
-- ==== Proof.IdealObligation.lean ====
/-
  The body obligation at a grid point, for the proof data of the two-tile running softmax: the inputs are found at their
  blocks; a first tile turns any scratch into the tile's maximum, sum and weighted sum and writes its logits into the slab
  over what was found; a last tile turns the first tile's scratch into the row's and leaves the pooled buffer and the slab
  at what it stores. A buffer whose last store is whole reads back to that store's value.
-/
import proofs.«102923_j5901285065163_2_alg».proof.Proof.IdealCarry

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The inputs' windows are never idle. -/
theorem live0 (t : Fin cfg0.N) : cfg0.idle 0 (grid0.coords t) = false := rfl
theorem live1 (t : Fin cfg0.N) : cfg0.idle 1 (grid0.coords t) = false := rfl
theorem live2 (t : Fin cfg0.N) : cfg0.idle 2 (grid0.coords t) = false := rfl

/-- An input's buffer is found at its block, at every point. -/
theorem found0 (c : Dev nD) (t : Fin cfg0.N) (Y) (h : (relational m c).Finds 0 t Y) : Y = iblk m c 0 t := by
  obtain ⟨d, hd⟩ := (exact m c).toR_finds 0 t Y ((RDat.override_finds (rd := (exact m c).toR) (ovr := outRel m c) (w := 0) rfl t Y).mp h)
  exact hd.trans (before0_0_of m (exact m c) (exact_A m c 0) (exact_after0 m c) t d)
theorem found1 (c : Dev nD) (t : Fin cfg0.N) (Y) (h : (relational m c).Finds 1 t Y) : Y = iblk m c 1 t := by
  obtain ⟨d, hd⟩ := (exact m c).toR_finds 1 t Y ((RDat.override_finds (rd := (exact m c).toR) (ovr := outRel m c) (w := 1) rfl t Y).mp h)
  exact hd.trans (before0_1_of m (exact m c) (exact_A m c 1) (exact_after1 m c) t d)
theorem found2 (c : Dev nD) (t : Fin cfg0.N) (Y) (h : (relational m c).Finds 2 t Y) : Y = iblk m c 2 t := by
  obtain ⟨d, hd⟩ := (exact m c).toR_finds 2 t Y ((RDat.override_finds (rd := (exact m c).toR) (ovr := outRel m c) (w := 2) rfl t Y).mp h)
  exact hd.trans (before0_2_of m (exact m c) (exact_A m c 2) (exact_after2 m c) t d)

/-- An input's buffer may be left at its block. -/
theorem left0 (c : Dev nD) (t : Fin cfg0.N) (Y) : (relational m c).after 0 t Y (iblk m c 0 t) := by
  show (exact m c).Leaves 0 t (iblk m c 0 t)
  exact (Pipeline.Dat.Leaves.live_iff (exact m c) (.inl (live0 t))).mpr (exact_after0 m c t).symm
theorem left1 (c : Dev nD) (t : Fin cfg0.N) (Y) : (relational m c).after 1 t Y (iblk m c 1 t) := by
  show (exact m c).Leaves 1 t (iblk m c 1 t)
  exact (Pipeline.Dat.Leaves.live_iff (exact m c) (.inl (live1 t))).mpr (exact_after1 m c t).symm
theorem left2 (c : Dev nD) (t : Fin cfg0.N) (Y) : (relational m c).after 2 t Y (iblk m c 2 t) := by
  show (exact m c).Leaves 2 t (iblk m c 2 t)
  exact (Pipeline.Dat.Leaves.live_iff (exact m c) (.inl (live2 t))).mpr (exact_after2 m c t).symm

/-- The scratch before a last tile is what the first tile of the row left. -/
theorem carryAt_prev (c : Dev nD) (t : Fin cfg0.N) (h1 : t.val % 2 = 1) (hlt : t.val - 1 < cfg0.N) :
    carryAt m c (t.val - 1) hlt = carryFirst m c (prevPt t) :=
  carryAt_even m c (prevPt t) (prev_even t h1)

/-- Before a first tile the invariant hands over the scratch at some contents. -/
theorem carried_any (c : Dev nD) (t : Fin cfg0.N) :
    (carried m c t.val (Nat.le_of_lt t.isLt) : sProp 𝕄)
      ⊢ iprop(iprop((∃ d, owns (c : Thread nD τ) scrMax fullShare d) ∗ (∃ d, owns (c : Thread nD τ) scrSum fullShare d) ∗ (∃ d, owns (c : Thread nD τ) scrAcc fullShare d)) ∗ (∃ r, prngReg c r)) := by
  by_cases hz : t.val = 0
  · rw [carried_zero m c _ _ hz, regionInv_eq]
  · rw [carried_pos m c _ _ hz]
    iintro ⟨⟨HS0, HS1, HS2⟩, Hg⟩
    isplitl [HS0 HS1 HS2]
    · isplitl [HS0]; · iexists _; iexact HS0
      isplitl [HS1]; · iexists _; iexact HS1
      iexists _; iexact HS2
    iexact Hg

set_option maxHeartbeats 6400000 in
/-- The body at any point. -/
theorem sound_at (c : Dev nD) (t : Fin cfg0.N) (Y : (w : Fin cfg0.W) → (cfg0.win w).block.Idx → Elt F (cfg0.win w).elt)
    (hY : ∀ w, (relational m c).Finds w t (Y w)) :
    iprop((relational m c).Φ t.castSucc ∗ (relational m c).owesAt () t.castSucc
        ∗ owns (c : Thread nD τ) (stg0 t) fullShare (Y 0) ∗ owns (c : Thread nD τ) (stg1 t) fullShare (Y 1) ∗ owns (c : Thread nD τ) (stg2 t) fullShare (Y 2)
        ∗ owns (c : Thread nD τ) (stg3 t) fullShare (Y 3) ∗ owns (c : Thread nD τ) (stg4 t) fullShare (Y 4))
      ⊢ wp frame (wpE (defs₀ (F := F)) Variants.none c none) Set.univ (bodyAt0 t) (fun _ =>
          iprop((relational m c).Φ t.succ ∗ (relational m c).owesAt () t.succ
            ∗ (∃ X, ⌜(relational m c).after 0 t (Y 0) X⌝ ∗ owns (c : Thread nD τ) (stg0 t) fullShare X)
            ∗ (∃ X, ⌜(relational m c).after 1 t (Y 1) X⌝ ∗ owns (c : Thread nD τ) (stg1 t) fullShare X)
            ∗ (∃ X, ⌜(relational m c).after 2 t (Y 2) X⌝ ∗ owns (c : Thread nD τ) (stg2 t) fullShare X)
            ∗ (∃ X, ⌜(relational m c).after 3 t (Y 3) X⌝ ∗ owns (c : Thread nD τ) (stg3 t) fullShare X)
            ∗ (∃ X, ⌜(relational m c).after 4 t (Y 4) X⌝ ∗ owns (c : Thread nD τ) (stg4 t) fullShare X))) := by
  have e0 := found0 m c t (Y 0) (hY 0)
  have e1 := found1 m c t (Y 1) (hY 1)
  have e2 := found2 m c t (Y 2) (hY 2)
  rw [show (relational m c).Φ t.castSucc = carried m c t.val (Nat.le_of_lt t.isLt) from rfl]
  rw [show (relational m c).Φ t.succ = carried m c (t.val + 1) t.isLt from rfl, carried_succ]
  rw [show (relational m c).owesAt () t.succ = (relational m c).owesAt () t.castSucc from rfl]
  rw [e0, e1, e2]
  unfold bodyAt0
  by_cases h0 : t.val % 2 = 0
  · rw [carryAt_even m c t h0]
    unfold carryFirst carryFrom; dsimp only
    iintro ⟨HΦ, Ho, H0, H1, H2, H3, H4⟩
    ihave HΦ' := (carried_any m c t) $$ HΦ
    icases HΦ' with ⟨⟨HS0, HS1, HS2⟩, Hg⟩
    iapply ((firstAt m c t h0 (Y 4)).2.2.2.2 Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    isplitl [HS2]; · iexact HS2
    iintro ⟨H0, H1, H2, H3, H4, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; rw [first_max]; exact read_after_whole _ _ zero2 _ _ _
        isplitl [HS1]
        · unfold owns; iexists _; isplitr
          swap; · iexact HS1
          ipureintro; rw [first_sum]; exact read_after_whole _ _ zero2 _ _ _
        unfold owns; iexists _; isplitr
        swap; · iexact HS2
        ipureintro; rw [first_acc]; exact read_after_whole _ _ zero2 _ _ _
      iexact Hg
    isplitl [Ho]; · iexact Ho
    isplitl [H0]
    · iexists _; isplitr; · ipureintro; exact left0 m c t _
      iexact H0
    isplitl [H1]
    · iexists _; isplitr; · ipureintro; exact left1 m c t _
      iexact H1
    isplitl [H2]
    · iexists _; isplitr; · ipureintro; exact left2 m c t _
      iexact H2
    isplitl [H3]
    · icases H3 with ⟨%d3, H3⟩
      iexists d3; isplitr
      · ipureintro
        show pooledRel m c t (Y 3) d3
        intro h1; omega
      iexact H3
    iexists (slabLeft m c t (Y 4)); isplitr
    · ipureintro; show slabRel m c t (Y 4) (slabLeft m c t (Y 4)); rfl
    unfold owns; iexists _; isplitr
    swap; · iexact H4
    ipureintro; rw [first_slab]; unfold slabLeft withLogits; rw [if_pos h0]
  · have h1 : t.val % 2 = 1 := by omega
    have hz : t.val ≠ 0 := by omega
    rw [carryAt_odd m c t h1]
    unfold carryLast carryFrom; dsimp only
    rw [carried_pos m c _ _ hz, carryAt_prev m c t h1]
    iintro ⟨⟨⟨HS0, HS1, HS2⟩, Hg⟩, Ho, H0, H1, H2, H3, H4⟩
    iapply ((lastAt m c t h1 (Y 4) (carryFirst m c (prevPt t)).1 (carryFirst m c (prevPt t)).2.1 (carryFirst m c (prevPt t)).2.2).2.2.2.2.2 Set.univ _)
    isplitl [H0]; · iexact H0
    isplitl [H1]; · iexact H1
    isplitl [H2]; · iexact H2
    isplitl [H3]; · iexists _; iexact H3
    isplitl [H4]; · iexact H4
    isplitl [HS0]; · iexact HS0
    isplitl [HS1]; · iexact HS1
    isplitl [HS2]; · iexact HS2
    iintro ⟨H0, H1, H2, ⟨%f3, H3⟩, H4, ⟨%es0, HS0⟩, ⟨%es1, HS1⟩, ⟨%es2, HS2⟩⟩
    isplitl [HS0 HS1 HS2 Hg]
    · isplitl [HS0 HS1 HS2]
      · isplitl [HS0]
        · unfold owns; iexists _; isplitr
          swap; · iexact HS0
          ipureintro; rw [last_max]; exact read_after_whole _ _ zero2 _ _ _
        isplitl [HS1]
        · unfold owns; iexists _; isplitr
          swap; · iexact HS1
          ipureintro; rw [last_sum]; exact read_after_whole _ _ zero2 _ _ _
        unfold owns; iexists _; isplitr
        swap; · iexact HS2
        ipureintro; rw [last_acc]; exact read_after_whole _ _ zero2 _ _ _
      iexact Hg
    isplitl [Ho]; · iexact Ho
    isplitl [H0]
    · iexists _; isplitr; · ipureintro; exact left0 m c t _
      iexact H0
    isplitl [H1]
    · iexists _; isplitr; · ipureintro; exact left1 m c t _
      iexact H1
    isplitl [H2]
    · iexists _; isplitr; · ipureintro; exact left2 m c t _
      iexact H2
    isplitl [H3]
    · iexists (pooledLeft m c t); isplitr
      · ipureintro; show pooledRel m c t (Y 3) (pooledLeft m c t); intro _; rfl
      unfold owns; iexists _; isplitr
      swap; · iexact H3
      ipureintro; rw [last_pooled]; unfold pooledLeft; exact read_after_whole _ _ zero3 _ _ _
    iexists (slabLeft m c t (Y 4)); isplitr
    · ipureintro; show slabRel m c t (Y 4) (slabLeft m c t (Y 4)); rfl
    unfold owns; iexists _; isplitr
    swap; · iexact H4
    ipureintro; rw [last_slab, read_after_whole _ _ zero3]; unfold slabLeft withLogits; rw [if_neg h0]

/-- The library's body obligation, at every point. -/
theorem body_obligation (c : Dev nD) : (relational (F := F) m c).BodyObligation (defs₀ (F := F)) Variants.none () Set.univ := fun t Y hY => by
  rw [bigSep_W0, bigSep_W0]
  exact sound_at m c t Y hY

/-- What the launch hands the region is the invariant before the first point. -/
theorem inv_in (c : Dev nD) : Pipeline.ΦA spec0 c ⊢ (relational m c).Φ 0 := by
  rw [show (relational m c).Φ 0 = carried m c 0 (Nat.zero_le _) from rfl, carried_zero m c 0 _ rfl]
  try exact Idealize.SL.BI.Entails.refl _

/-- After the last point the invariant gives the launch's own back: what the scratch holds is forgotten. -/
theorem inv_out (c : Dev nD) : (relational m c).Φ (Fin.last cfg0.N) ⊢ Pipeline.ΦA spec0 c := by
  rw [show (relational m c).Φ (Fin.last cfg0.N) = carried m c (Fin.last cfg0.N).val (Nat.le_of_lt_succ (Fin.last cfg0.N).isLt) from rfl,
    carried_pos m c _ _ (by rw [Fin.val_last]; have : cfg0.N = 32 := N_0; omega), regionInv_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

end Cert.KernelIdeal.Tiles

end
-- ==== Proof.IdealRun.lean ====
/-
  The run of the launch over the proof data of the two-tile running softmax, and the frame: every weakly fair execution
  terminates without a fault; each input array, never written back, ends as launched; each output array ends at contents it
  may hold after the write-backs, which the relations of the two outputs' windows constrain.
-/
import proofs.«102923_j5901285065163_2_alg».proof.Proof.IdealObligation

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: from any memory with zero counters every weakly fair execution of @main terminates, every array of the launch
    at contents it may hold after every write-back and every other unscoped buffer at its region-entry contents. -/
theorem run_main : θ_run defs (onTc (τ := τ) (main (F := F))) (s₀ m ρ) (Pipeline.RDat.FramePost (cfgs 0) (fun c => relational m c) (V m)) :=
  Pipeline.RDat.θ_run_frame_track cfgs (0 : Fin 1) launch0 defs₀ Variants.none (fun c => relational m c) m ρ main
    (hbody := fun c => body_obligation m c) (hshare := fun c => (relational m c).share_full fun _ => rfl)
    (howed := fun _ _ => rfl) (V := V m) (hmain := hmain m Variants.none) (hA := relational_A m) (hin := inv_in m) (hout := inv_out m)

/-- An input array is never written back: it ends at its region-entry contents. -/
theorem input_kept (c : Dev nD) (w : Fin cfg0.W) (hw : (cfg0.win w).isOut = false) (F' : Buf (Elt F) ((cfg0.win w).arr.view.loc (c.tc : Thread nD τ)))
    (h : (relational m c).ArrAt w cfg0.N F') : F' = V m c (Pipeline.arrRef spec0 w) :=
  (Eq.mp (congrFun ((relational m c).ArrAt_in w hw _) _) h).trans (relational_A m c w)

/-- THE FRAME: the argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(input_kept m c 0 rfl _ ((h c).1 0)).trans (V_main_arg0 m c),
      (input_kept m c 1 rfl _ ((h c).1 1)).trans (V_main_arg1 m c),
      ((h c).2 main_arg2 (Pipeline.mem_restRefs_of main_arg2 (by decide) (by decide))).trans (V_main_arg2 m c)⟩) (run_main m ρ)

end Cert.KernelIdeal.Tiles

end
-- ==== Proof.IdealBlocks.lean ====
/-
  Where the blocks sit. The grid is sixteen batch rows by two tiles, row-major: point `t` is tile `t % 2` of batch row
  `t / 2`. The token features' block at a point is rows `[2048·tile, 2048·tile + 2048)` of the batch row; the probe weights and
  the biases (a column) are whole; each output's block is its batch row whole, written back after the last tile, so the
  written-back blocks are disjoint and cover the arrays. A tile's logits go into columns `[2048·tile, 2048·tile + 2048)`
  of the slab, the other columns left as found.
-/
import proofs.«102923_j5901285065163_2_alg».proof.Proof.IdealRun
import Idealize.ShloMosaic.Lib.ValueIdx
import Idealize.ShloMosaic.Lib.WritesUnit

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

open Idealize.ShloMosaic.ValueIdx
variable (m : (ℓ : Loc nD τ sig) → Buf (Elt F) ℓ)

/-- The tile of a point. -/
theorem gridTile : ∀ t : Fin cfg0.N, (grid0.coords t 1).val = t.val % 2 :=
  (by decide +kernel : ∀ t : Fin grid0.N, (grid0.coords t 1).val = t.val % 2)

/-- The block indices of the five windows at a point. -/
theorem blockIdx0 : ∀ t : Fin cfg0.N, win0_0.index t (0 : Fin 3) = t.val / 2 ∧ win0_0.index t (1 : Fin 3) = t.val % 2 ∧ win0_0.index t (2 : Fin 3) = 0 :=
  (by decide +kernel : ∀ t : Fin grid0.N, win0_0.index t (0 : Fin 3) = t.val / 2 ∧ win0_0.index t (1 : Fin 3) = t.val % 2 ∧ win0_0.index t (2 : Fin 3) = 0)
theorem blockIdx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem blockIdx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem blockIdx3 : ∀ t : Fin cfg0.N, win0_3.index t (0 : Fin 3) = t.val / 2 ∧ win0_3.index t (1 : Fin 3) = 0 ∧ win0_3.index t (2 : Fin 3) = 0 :=
  (by decide +kernel : ∀ t : Fin grid0.N, win0_3.index t (0 : Fin 3) = t.val / 2 ∧ win0_3.index t (1 : Fin 3) = 0 ∧ win0_3.index t (2 : Fin 3) = 0)
theorem blockIdx4 : ∀ t : Fin cfg0.N, win0_4.index t (0 : Fin 3) = t.val / 2 ∧ win0_4.index t (1 : Fin 3) = 0 ∧ win0_4.index t (2 : Fin 3) = 0 :=
  (by decide +kernel : ∀ t : Fin grid0.N, win0_4.index t (0 : Fin 3) = t.val / 2 ∧ win0_4.index t (1 : Fin 3) = 0 ∧ win0_4.index t (2 : Fin 3) = 0)

/-- The token features' block at a point: token `j` of the tile is token `2048·tile + j` of the batch row. -/
theorem xBlock (c : Dev nD) (t : Fin cfg0.N) (j : Fin 2048) (k : Fin 1024) (bi : Fin 16) (tt : Fin 4096)
    (hb : bi.val = t.val / 2) (ht : tt.val = t.val % 2 * 2048 + j.val) :
    iblk m c 0 t (ix3 0 j k) = m ((c.tc : Thread nD τ).loc main_arg0) (ix3 bi tt k) := by
  show V m c main_arg0 (((cfg0.win 0).blk t).view.emb (ix3 0 j k)) = _
  rw [V_main_arg0]
  refine congrArg _ (funext fun a => Fin.ext ?_)
  match a with
  | ⟨0, _⟩ => show win0_0.index t (0 : Fin 3) * 1 + 1 * (0 : ℕ) = bi.val; rw [(blockIdx0 t).1]; omega
  | ⟨1, _⟩ => show win0_0.index t (1 : Fin 3) * 2048 + 1 * j.val = tt.val; rw [(blockIdx0 t).2.1]; omega
  | ⟨2, _⟩ => show win0_0.index t (2 : Fin 3) * 1024 + 1 * k.val = k.val; rw [(blockIdx0 t).2.2]; omega

/-- The probe weights' block is the whole array. -/
theorem wBlock (c : Dev nD) (t : Fin cfg0.N) (p : Fin 16) (k : Fin 1024) :
    iblk m c 1 t (ix2 p k) = m ((c.tc : Thread nD τ).loc main_arg1) (ix2 p k) := by
  show V m c main_arg1 (((cfg0.win 1).blk t).view.emb (ix2 p k)) = _
  rw [V_main_arg1]
  refine congrArg _ (funext fun a => Fin.ext ?_)
  match a with
  | ⟨0, _⟩ => show win0_1.index t (0 : Fin 2) * 16 + 1 * p.val = p.val; rw [(blockIdx1 t).1]; omega
  | ⟨1, _⟩ => show win0_1.index t (1 : Fin 2) * 1024 + 1 * k.val = k.val; rw [(blockIdx1 t).2]; omega

/-- The bias column's block is the whole column. -/
theorem bBlock (c : Dev nD) (t : Fin cfg0.N) (p : Fin 16) :
    iblk m c 2 t (ix2 p 0) = V m c main_v0 (ix2 p 0) := by
  show V m c main_v0 (((cfg0.win 2).blk t).view.emb (ix2 p 0)) = _
  refine congrArg _ (funext fun a => Fin.ext ?_)
  match a with
  | ⟨0, _⟩ => show win0_2.index t (0 : Fin 2) * 16 + 1 * p.val = p.val; rw [(blockIdx2 t).1]; omega
  | ⟨1, _⟩ => show win0_2.index t (1 : Fin 2) * 1 + 1 * (0 : ℕ) = 0; rw [(blockIdx2 t).2]

/-- An element of the pooled output's block at a point is that element of the point's batch row. -/
theorem pooledEmb (t : Fin cfg0.N) (p : Fin 16) (d : Fin 1024) (bi : Fin 16) (hb : bi.val = t.val / 2) :
    ((cfg0.win 3).blk t).view.emb (ix3 0 p d) = ix3 bi p d := by
  refine funext fun a => Fin.ext ?_
  match a with
  | ⟨0, _⟩ => show win0_3.index t (0 : Fin 3) * 1 + 1 * (0 : ℕ) = bi.val; rw [(blockIdx3 t).1]; omega
  | ⟨1, _⟩ => show win0_3.index t (1 : Fin 3) * 16 + 1 * p.val = p.val; rw [(blockIdx3 t).2.1]; omega
  | ⟨2, _⟩ => show win0_3.index t (2 : Fin 3) * 1024 + 1 * d.val = d.val; rw [(blockIdx3 t).2.2]; omega

/-- An element of the slab's block at a point is that element of the point's batch row. -/
theorem slabEmb (t : Fin cfg0.N) (p : Fin 16) (tt : Fin 4096) (bi : Fin 16) (hb : bi.val = t.val / 2) :
    ((cfg0.win 4).blk t).view.emb (ix3 0 p tt) = ix3 bi p tt := by
  refine funext fun a => Fin.ext ?_
  match a with
  | ⟨0, _⟩ => show win0_4.index t (0 : Fin 3) * 1 + 1 * (0 : ℕ) = bi.val; rw [(blockIdx4 t).1]; omega
  | ⟨1, _⟩ => show win0_4.index t (1 : Fin 3) * 16 + 1 * p.val = p.val; rw [(blockIdx4 t).2.1]; omega
  | ⟨2, _⟩ => show win0_4.index t (2 : Fin 3) * 4096 + 1 * tt.val = tt.val; rw [(blockIdx4 t).2.2]; omega

/-- A tile's logits are found in its columns of the slab after its store. -/
theorem withLogits_in (c : Dev nD) (t : Fin cfg0.N) (Y : Vec F S1x16x4096 .f32) (p : Fin 16) (j : Fin 2048) (tt : Fin 4096)
    (h : tt.val = 2048 * (t.val % 2) + j.val) :
    withLogits m c t Y (ix3 0 p tt) = k0_pay12 (iblk m c 0 t) (iblk m c 1 t) (iblk m c 2 t) (ix3 0 p j) :=
  View.read_writes_cons_unit_of_mem (stg4 t).view _ (k0_off1_inb (grid0.coords t)) _ [] (ix3 0 p tt) (ix3 0 p j)
    (k0_off1_eq (grid0.coords t)) (fun a => by
      match a with
      | ⟨0, _⟩ => rfl
      | ⟨1, _⟩ => show p.val = 0 + p.val; omega
      | ⟨2, _⟩ => show tt.val = 2048 * (grid0.coords t 1).val + j.val; rw [gridTile t]; exact h)

/-- The other columns of the slab are as found. -/
theorem withLogits_out (c : Dev nD) (t : Fin cfg0.N) (Y : Vec F S1x16x4096 .f32) (p : Fin 16) (tt : Fin 4096)
    (h : tt.val < 2048 * (t.val % 2) ∨ 2048 * (t.val % 2) + 2048 ≤ tt.val) :
    withLogits m c t Y (ix3 0 p tt) = Y (ix3 0 p tt) := by
  refine (View.read_writes_cons_unit_of_not_mem (stg4 t).view _ (k0_off1_inb (grid0.coords t)) _ [] (ix3 0 p tt)
    (k0_off1_eq (grid0.coords t)) (2 : Fin 3) ?_).trans ?_
  · show tt.val < 2048 * (grid0.coords t 1).val ∨ 2048 * (grid0.coords t 1).val + 2048 ≤ tt.val
    rw [gridTile t]; exact h
  · show (stg4 t).view.read (Elt F) ((hstg4 t).unread Y) (ix3 0 p tt) = _
    rw [(hstg4 t).read_unread]

end Cert.KernelIdeal.Tiles

end
-- ==== Proof.IdealLeaves.lean ====
/-
  What the proof data let the body leave in the two outputs' buffers at a last tile. The pooled output's buffer is left at
  the weighted sum over the sum. The slab's buffer is never fetched into and is not written back after a first tile, so at a
  last tile it is found as the first tile of the batch row left it — its logits over whatever was there — and is left at the
  normalised weights computed from that.
-/
import proofs.«102923_j5901285065163_2_alg».proof.Proof.IdealBlocks

set_option maxRecDepth 16384

noncomputable section

namespace Cert.KernelIdeal.Tiles

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- At a last tile the pooled output's buffer is left at `pooledLeft`. -/
theorem leaves_pooled (c : Dev nD) (t : Fin cfg0.N) (h1 : t.val % 2 = 1) (X : Vec F S1x16x1024 .f32)
    (h : (relational m c).Leaves 3 t X) : X = pooledLeft m c t := by
  obtain ⟨Y, -, hrel⟩ := h
  have e : (relational m c).after 3 = pooledRel m c :=
    RDat.override_after_of_eq_some (rd := (exact m c).toR) (ovr := outRel m c) (w := 3) (R := pooledRel m c) rfl
  rw [e] at hrel
  exact hrel h1

/-- At any point the slab's buffer is left at `slabLeft` of something it may have been found at. -/
theorem leaves_slab_step (c : Dev nD) (t : Fin cfg0.N) (X : Vec F S1x16x4096 .f32)
    (h : (relational m c).Leaves 4 t X) : ∃ Y, (relational m c).Finds 4 t Y ∧ X = slabLeft m c t Y := by
  obtain ⟨Y, hY, hrel⟩ := h
  have e : (relational m c).after 4 = slabRel m c :=
    RDat.override_after_of_eq_some (rd := (exact m c).toR) (ovr := outRel m c) (w := 4) (R := slabRel m c) rfl
  rw [e] at hrel
  exact ⟨Y, hY, hrel⟩

/-- At a last tile the slab's buffer is left at the weights normalised from the two tiles' logits over whatever the
    buffer held before the batch row. -/
theorem leaves_slab (c : Dev nD) (t : Fin cfg0.N) (h1 : t.val % 2 = 1) (X : Vec F S1x16x4096 .f32)
    (h : (relational m c).Leaves 4 t X) : ∃ Y', X = slabLeft m c t (slabLeft m c (prevPt t) Y') := by
  obtain ⟨Y, hY, rfl⟩ := leaves_slab_step m c t X h
  have hf : (cfg0.win 4).fetch t = false := rfl
  rcases ((relational m c).finds_of_pos hf (by omega) Y).mp hY with hfl | hL
  · exfalso
    have := (flush0_4 (prevPt t)).mp hfl
    have hp := prev_even t h1
    omega
  · obtain ⟨Y', -, rfl⟩ := leaves_slab_step m c (prevPt t) Y hL
    exact ⟨Y', rfl⟩

end Cert.KernelIdeal.Tiles

end
-- ==== Proof.IdealPayloadsA.lean ====
/-
  The two matrix products of the kernel's body, read at an index over the extended reals. The logits of a tile are the
  probe weights contracted with the tile's token features over the feature axis, plus the probe's bias (a column broadcast
  along the tokens); the increment of the weighted sum is the tile's softmax weights contracted with the token features over
  the token axis, added to the old weighted sum rescaled by a column broadcast along the features. A change of float format
  and a reshape that only drops or adds a unit axis do not change an entry.
-/
import proofs.«102923_j5901285065163_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadsA

open Idealize.ShloMosaic Idealize.ShloMosaic.ValueIdx Cert.KernelIdeal Cert.KernelIdeal.Gen
open scoped BigOperators

/-! ## The operand indices of the two products -/

/-- In the logits' product the left operand's row is the result's row. -/
theorem logitsDot_lhs_0 (i : S16x2048.Idx) (q : dot_S16x1024_S2048x1024_S16x2048_1_1_0_0_n_n.contr.Idx) :
    (dot_S16x1024_S2048x1024_S16x2048_1_1_0_0_n_n.lhsIdx i q 0).val = (i 0).val := by
  unfold DotDims.lhsIdx
  rw [dif_neg (show ¬(0 : Fin S16x1024.rank) ∈ dot_S16x1024_S2048x1024_S16x2048_1_1_0_0_n_n.lhsBatch by decide), dif_pos (show (0 : Fin S16x1024.rank) ∈ dot_S16x1024_S2048x1024_S16x2048_1_1_0_0_n_n.lhsNonContracting by decide)]
  rfl
/-- Its column is the contraction position. -/
theorem logitsDot_lhs_1 (i : S16x2048.Idx) (q : dot_S16x1024_S2048x1024_S16x2048_1_1_0_0_n_n.contr.Idx) :
    (dot_S16x1024_S2048x1024_S16x2048_1_1_0_0_n_n.lhsIdx i q 1).val = (q ⟨0, by decide⟩).val :=
  dot_S16x1024_S2048x1024_S16x2048_1_1_0_0_n_n.lhsIdx_val_of_single rfl i q
/-- The right operand's row is the result's column. -/
theorem logitsDot_rhs_0 (i : S16x2048.Idx) (q : dot_S16x1024_S2048x1024_S16x2048_1_1_0_0_n_n.contr.Idx) :
    (dot_S16x1024_S2048x1024_S16x2048_1_1_0_0_n_n.rhsIdx i q 0).val = (i 1).val := by
  unfold DotDims.rhsIdx
  rw [dif_neg (show ¬(0 : Fin S2048x1024.rank) ∈ dot_S16x1024_S2048x1024_S16x2048_1_1_0_0_n_n.rhsBatch by decide), dif_pos (show (0 : Fin S2048x1024.rank) ∈ dot_S16x1024_S2048x1024_S16x2048_1_1_0_0_n_n.rhsNonContracting by decide)]
  rfl
/-- Its column is the contraction position. -/
theorem logitsDot_rhs_1 (i : S16x2048.Idx) (q : dot_S16x1024_S2048x1024_S16x2048_1_1_0_0_n_n.contr.Idx) :
    (dot_S16x1024_S2048x1024_S16x2048_1_1_0_0_n_n.rhsIdx i q 1).val = (q ⟨0, by decide⟩).val :=
  dot_S16x1024_S2048x1024_S16x2048_1_1_0_0_n_n.rhsIdx_val_of_single rfl i q

/-- In the weighted sum's product the left operand's row is the result's row. -/
theorem accDot_lhs_0 (i : S16x1024.Idx) (q : dot_S16x2048_S2048x1024_S16x1024_1_0_0_1_n_n.contr.Idx) :
    (dot_S16x2048_S2048x1024_S16x1024_1_0_0_1_n_n.lhsIdx i q 0).val = (i 0).val := by
  unfold DotDims.lhsIdx
  rw [dif_neg (show ¬(0 : Fin S16x2048.rank) ∈ dot_S16x2048_S2048x1024_S16x1024_1_0_0_1_n_n.lhsBatch by decide), dif_pos (show (0 : Fin S16x2048.rank) ∈ dot_S16x2048_S2048x1024_S16x1024_1_0_0_1_n_n.lhsNonContracting by decide)]
  rfl
/-- Its column is the contraction position. -/
theorem accDot_lhs_1 (i : S16x1024.Idx) (q : dot_S16x2048_S2048x1024_S16x1024_1_0_0_1_n_n.contr.Idx) :
    (dot_S16x2048_S2048x1024_S16x1024_1_0_0_1_n_n.lhsIdx i q 1).val = (q ⟨0, by decide⟩).val :=
  dot_S16x2048_S2048x1024_S16x1024_1_0_0_1_n_n.lhsIdx_val_of_single rfl i q
/-- The right operand's row is the contraction position. -/
theorem accDot_rhs_0 (i : S16x1024.Idx) (q : dot_S16x2048_S2048x1024_S16x1024_1_0_0_1_n_n.contr.Idx) :
    (dot_S16x2048_S2048x1024_S16x1024_1_0_0_1_n_n.rhsIdx i q 0).val = (q ⟨0, by decide⟩).val :=
  dot_S16x2048_S2048x1024_S16x1024_1_0_0_1_n_n.rhsIdx_val_of_single rfl i q
/-- Its column is the result's column. -/
theorem accDot_rhs_1 (i : S16x1024.Idx) (q : dot_S16x2048_S2048x1024_S16x1024_1_0_0_1_n_n.contr.Idx) :
    (dot_S16x2048_S2048x1024_S16x1024_1_0_0_1_n_n.rhsIdx i q 1).val = (i 1).val := by
  unfold DotDims.rhsIdx
  rw [dif_neg (show ¬(1 : Fin S2048x1024.rank) ∈ dot_S16x2048_S2048x1024_S16x1024_1_0_0_1_n_n.rhsBatch by decide), dif_pos (show (1 : Fin S2048x1024.rank) ∈ dot_S16x2048_S2048x1024_S16x1024_1_0_0_1_n_n.rhsNonContracting by decide)]
  rfl

/-! ## The two products read at an index -/

/-- The logits' product into the zero accumulator: row `p` of the left operand against row `j` of the right one. -/
theorem logitsDot_apply (a : FVec Ideal S16x1024 .bf16) (b : FVec Ideal S2048x1024 .bf16) (p : Fin 16) (j : Fin 2048) :
    matmul (F := Ideal) dot_S16x1024_S2048x1024_S16x2048_1_1_0_0_n_n none a b (constant (F := Ideal) S16x2048 .f32 0x00000000#32) (ix2 p j)
      = ∑ k : Fin 1024, a (ix2 p k) * b (ix2 j k) := by
  simp only [matmul]
  rw [Ideal.matmul_constant_zero_apply, ← Equiv.sum_comp (contrEquiv1 dot_S16x1024_S2048x1024_S16x2048_1_1_0_0_n_n 1024 rfl rfl).symm]
  refine Finset.sum_congr rfl fun k _ => ?_
  have hk := contrEquiv1_symm_val dot_S16x1024_S2048x1024_S16x2048_1_1_0_0_n_n 1024 rfl rfl k
  have el : dot_S16x1024_S2048x1024_S16x2048_1_1_0_0_n_n.lhsIdx (ix2 p j) ((contrEquiv1 dot_S16x1024_S2048x1024_S16x2048_1_1_0_0_n_n 1024 rfl rfl).symm k) = ix2 p k := funext fun c => Fin.ext (by
    match c with
    | ⟨0, _⟩ => exact logitsDot_lhs_0 _ _
    | ⟨1, _⟩ => exact (logitsDot_lhs_1 _ _).trans hk)
  have er : dot_S16x1024_S2048x1024_S16x2048_1_1_0_0_n_n.rhsIdx (ix2 p j) ((contrEquiv1 dot_S16x1024_S2048x1024_S16x2048_1_1_0_0_n_n 1024 rfl rfl).symm k) = ix2 j k := funext fun c => Fin.ext (by
    match c with
    | ⟨0, _⟩ => exact logitsDot_rhs_0 _ _
    | ⟨1, _⟩ => exact (logitsDot_rhs_1 _ _).trans hk)
  rw [el, er]

/-- The weighted sum's product into the zero accumulator: row `p` of the left operand against column `d` of the right one. -/
theorem accDot_apply (a : FVec Ideal S16x2048 .bf16) (b : FVec Ideal S2048x1024 .bf16) (p : Fin 16) (d : Fin 1024) :
    matmul (F := Ideal) dot_S16x2048_S2048x1024_S16x1024_1_0_0_1_n_n none a b (constant (F := Ideal) S16x1024 .f32 0x00000000#32) (ix2 p d)
      = ∑ k : Fin 2048, a (ix2 p k) * b (ix2 k d) := by
  simp only [matmul]
  rw [Ideal.matmul_constant_zero_apply, ← Equiv.sum_comp (contrEquiv1 dot_S16x2048_S2048x1024_S16x1024_1_0_0_1_n_n 2048 rfl rfl).symm]
  refine Finset.sum_congr rfl fun k _ => ?_
  have hk := contrEquiv1_symm_val dot_S16x2048_S2048x1024_S16x1024_1_0_0_1_n_n 2048 rfl rfl k
  have el : dot_S16x2048_S2048x1024_S16x1024_1_0_0_1_n_n.lhsIdx (ix2 p d) ((contrEquiv1 dot_S16x2048_S2048x1024_S16x1024_1_0_0_1_n_n 2048 rfl rfl).symm k) = ix2 p k := funext fun c => Fin.ext (by
    match c with
    | ⟨0, _⟩ => exact accDot_lhs_0 _ _
    | ⟨1, _⟩ => exact (accDot_lhs_1 _ _).trans hk)
  have er : dot_S16x2048_S2048x1024_S16x1024_1_0_0_1_n_n.rhsIdx (ix2 p d) ((contrEquiv1 dot_S16x2048_S2048x1024_S16x1024_1_0_0_1_n_n 2048 rfl rfl).symm k) = ix2 k d := funext fun c => Fin.ext (by
    match c with
    | ⟨0, _⟩ => exact (accDot_rhs_0 _ _).trans hk
    | ⟨1, _⟩ => exact accDot_rhs_1 _ _)
  rw [el, er]

/-! ## A column broadcast along the rows' entries -/

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The kernel's payloads -/

variable (x0 : Vec Ideal S1x2048x1024 .f32) (x1 : Vec Ideal S16x1024 .f32) (x2 : Vec Ideal S16x1 .f32)

/-- The token features of the tile as a matrix: entry (token, feature). -/
theorem features_apply (j : Fin 2048) (d : Fin 1024) : k0_pay10 x0 (ix2 j d) = x0 (ix3 0 j d) := by
  unfold k0_pay10
  exact shapeCast_1ab_ab_apply x0 _ j d

/-- A tile's logit for probe `p` and token `j`. -/
theorem logits_apply (p : Fin 16) (j : Fin 2048) :
    k0_pay11 x0 x1 x2 (ix2 p j) = (∑ k : Fin 1024, x1 (ix2 p k) * x0 (ix3 0 j k)) + x2 (ix2 p 0) := by
  have h1 : matmul (F := Ideal) dot_S16x1024_S2048x1024_S16x2048_1_1_0_0_n_n none (truncf .bf16 x1 Facts₀.bitsLt_bf16_f32) (k0_pay10 x0)
      (constant (F := Ideal) S16x2048 .f32 0x00000000#32) (ix2 p j) = ∑ k : Fin 1024, x1 (ix2 p k) * x0 (ix3 0 j k) := by
    refine (logitsDot_apply _ _ p j).trans (Finset.sum_congr rfl fun k _ => ?_)
    exact congrArg (x1 (ix2 p k) * ·) (features_apply x0 j k)
  have h2 : broadcastTo S16x2048 (shapeCast S16x1 x2 Facts₀.shapeCasts_S16x1_S16x1) Facts₀.broadcasts_S16x1_S16x2048 (ix2 p j) = x2 (ix2 p 0) := by
    refine (broadcastTo_a1_ab_apply _ _ p j).trans ?_
    rw [shapeCast_self]
  unfold k0_pay11
  exact congrArg₂ (· + ·) h1 h2

/-- The logits as stored into the slab: the same entries under a leading unit axis. -/
theorem stored_logits_apply (p : Fin 16) (j : Fin 2048) :
    k0_pay12 x0 x1 x2 (ix3 0 p j) = k0_pay11 x0 x1 x2 (ix2 p j) := by
  unfold k0_pay12
  exact shapeCast_ab_1ab_apply (k0_pay11 x0 x1 x2) _ 0 p j

/-- The updated weighted sum: the old one rescaled, plus the weights contracted with the features over the tokens. -/
theorem newAcc_apply (v5 : FVec Ideal S2048x1024 .bf16) (v21 : Vec Ideal S16x1024 .f32) (v26 : FVec Ideal S16x1 .f32)
    (v34 : FVec Ideal S16x2048 .bf16) (p : Fin 16) (d : Fin 1024) :
    k0_pay1 v5 v21 v26 v34 (ix2 p d) = v26 (ix2 p 0) * v21 (ix2 p d) + ∑ j : Fin 2048, v34 (ix2 p j) * v5 (ix2 j d) := by
  have h1 := accDot_apply v34 v5 p d
  have h2 : broadcastTo S16x1024 v26 Facts₀.broadcasts_S16x1_S16x1024 (ix2 p d) = v26 (ix2 p 0) :=
    broadcastTo_a1_ab_apply v26 _ p d
  unfold k0_pay1
  exact congrArg₂ (· + ·) (congrArg (· * v21 (ix2 p d)) h2) h1

end Cert.KernelIdeal.PayloadsA

end
-- ==== Proof.IdealPayloadsB.lean ====
/-
  The pointwise and row-wise operations of the kernel's body, read at an index over the extended reals: the running maximum
  (the old maximum against the largest logit of the tile, itself a maximum taken from −∞), the rescaling factor and the
  softmax weights (exponentials of differences, the maximum a column broadcast along the tokens), the running sum (the old
  sum rescaled plus the weights summed over the tokens), the two normalised results (quotients by the sum, a column
  broadcast), and the reset values −∞, 0 and 0. A change of float format and a reshape to the same shape, or one that only
  adds or drops a unit axis, do not change an entry.
-/
import proofs.«102923_j5901285065163_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadsB

open Idealize.ShloMosaic Idealize.ShloMosaic.ValueIdx Cert.KernelIdeal Cert.KernelIdeal.Gen
open scoped BigOperators

/-! ## Layout operations on a column: a trailing unit axis -/

section Column
variable {α : Type}

/-- A vector `[a]` cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two lane reductions of a `[16, 2048]` tile -/

/-- The word `0xFF800000` is −∞. -/
theorem ofBits_negInf_f32 : Ideal.ofBits .f32 0xFF800000#32 = ⊥ := by simp [Ideal.ofBits, Ideal.ieee]

/-- The largest entry of a row, from −∞. -/
theorem rowMax_apply (src : FVec Ideal S16x2048 .f32) (h : S16x2048.Reduces [1] S16) (hφ : FKind.Formats .f32)
    (hacc : (0xFF800000#32 : BitVec 32) = 0xFF800000#32) (p : Fin 16) :
    multiReduction (F := Ideal) .maximumf [1] S16 src 0xFF800000#32 h hφ hacc (ix1 p)
      = (Finset.univ : Finset (Fin 2048)).fold max ⊥ (fun j => src (ix2 p j)) := by
  refine (Ideal.multiReduction_maximumf_single src 0xFF800000#32 h hφ hacc (ix1 p)).trans ?_
  have e1 : FloatOps.ofBits (F := Ideal) .f32 0xFF800000#32 = (⊥ : EReal) := ofBits_negInf_f32
  have e2 : (src ∘ h.lift (ix1 p) : Fin 2048 → EReal) = fun j : Fin 2048 => src (ix2 p j) := by
    funext k
    refine congrArg src (funext fun ax => Fin.ext ?_)
    match ax with
    | ⟨0, _⟩ => rfl
    | ⟨1, _⟩ => rfl
  exact congrArg₂ (fun (b : EReal) (f : Fin 2048 → EReal) => (Finset.univ : Finset (Fin 2048)).fold max b f) e1 e2

/-- The sum of a row's entries. -/
theorem rowSum_apply (src : FVec Ideal S16x2048 .f32) (h : S16x2048.Reduces [1] S16) (hφ : FKind.Formats .f32)
    (hacc : (0x00000000#32 : BitVec 32) = 0x00000000#32) (p : Fin 16) :
    multiReduction (F := Ideal) .add [1] S16 src 0x00000000#32 h hφ hacc (ix1 p) = ∑ j : Fin 2048, src (ix2 p j) := by
  refine (Ideal.multiReduction_add_single src 0x00000000#32 h hφ hacc (ix1 p)).trans ?_
  show (∑ k : Fin 2048, src (h.lift (ix1 p) k)) = _
  refine Finset.sum_congr rfl fun k _ => congrArg src (funext fun ax => Fin.ext ?_)
  match ax with
  | ⟨0, _⟩ => rfl
  | ⟨1, _⟩ => rfl

/-! ## The payloads -/

variable (x0 : Vec Ideal S1x2048x1024 .f32) (x1 : Vec Ideal S16x1024 .f32) (x2 : Vec Ideal S16x1 .f32)
  (s0 s1 : Vec Ideal S16x1 .f32)

/-- The running maximum after the tile. -/
theorem newMax_apply (p : Fin 16) :
    k0_pay13 x0 x1 x2 s0 (ix2 p 0)
      = max (s0 (ix2 p 0)) ((Finset.univ : Finset (Fin 2048)).fold max ⊥ (fun j => k0_pay11 x0 x1 x2 (ix2 p j))) := by
  show max (s0 (ix2 p 0)) (shapeCast S16x1 (multiReduction (F := Ideal) .maximumf [1] S16 (k0_pay11 x0 x1 x2)
    0xFF800000#32 _ _ _) _ (ix2 p 0)) = _
  refine congrArg (max (s0 (ix2 p 0))) ?_
  exact (shapeCast_a_a1_apply _ _ p 0).trans (rowMax_apply _ _ _ _ p)

/-- The factor that rescales the old sum and weighted sum. -/
theorem rescale_apply (p : Fin 16) :
    k0_pay14 x0 x1 x2 s0 (ix2 p 0) = Ideal.exp (s0 (ix2 p 0) - k0_pay13 x0 x1 x2 s0 (ix2 p 0)) := by
  rfl

/-- The tile's softmax weights against the running maximum. -/
theorem weights_apply (p : Fin 16) (j : Fin 2048) :
    k0_pay15 x0 x1 x2 s0 (ix2 p j) = Ideal.exp (k0_pay11 x0 x1 x2 (ix2 p j) - k0_pay13 x0 x1 x2 s0 (ix2 p 0)) := by
  show Ideal.exp (k0_pay11 x0 x1 x2 (ix2 p j) - broadcastTo S16x2048 (k0_pay13 x0 x1 x2 s0) _ (ix2 p j)) = _
  exact congrArg (fun t => Ideal.exp (k0_pay11 x0 x1 x2 (ix2 p j) - t)) (broadcastTo_a1_ab_apply _ _ p j)

/-- The weights in the matrix unit's input format: the same entries. -/
theorem weights_narrow_apply (p : Fin 16) (j : Fin 2048) :
    k0_pay17 x0 x1 x2 s0 (ix2 p j) = k0_pay15 x0 x1 x2 s0 (ix2 p j) := by
  rfl

/-- The running sum after the tile. -/
theorem newSum_apply (p : Fin 16) :
    k0_pay16 x0 x1 x2 s0 s1 (ix2 p 0)
      = k0_pay14 x0 x1 x2 s0 (ix2 p 0) * s1 (ix2 p 0) + ∑ j : Fin 2048, k0_pay15 x0 x1 x2 s0 (ix2 p j) := by
  show k0_pay14 x0 x1 x2 s0 (ix2 p 0) * s1 (ix2 p 0)
    + shapeCast S16x1 (multiReduction (F := Ideal) .add [1] S16 (k0_pay15 x0 x1 x2 s0) 0x00000000#32 _ _ _) _ (ix2 p 0) = _
  refine congrArg (k0_pay14 x0 x1 x2 s0 (ix2 p 0) * s1 (ix2 p 0) + ·) ?_
  exact (shapeCast_a_a1_apply _ _ p 0).trans (rowSum_apply _ _ _ _ p)

/-- What is stored into the three scratch buffers: the values themselves. -/
theorem storedMax_eq (v24 : FVec Ideal S16x1 .f32) : k0_pay2 v24 = v24 := by
  exact shapeCast_self v24 _
theorem storedSum_eq (v33 : FVec Ideal S16x1 .f32) : k0_pay3 v33 = v33 := by
  exact shapeCast_self v33 _
theorem storedAcc_eq (v5 : FVec Ideal S2048x1024 .bf16) (v21 : Vec Ideal S16x1024 .f32) (v26 : FVec Ideal S16x1 .f32)
    (v34 : FVec Ideal S16x2048 .bf16) : k0_pay4 v5 v21 v26 v34 = k0_pay1 v5 v21 v26 v34 := by
  exact shapeCast_self (k0_pay1 v5 v21 v26 v34) _

/-- The pooled result of a batch row: the weighted sum over the sum. -/
theorem pooled_apply (v5 : FVec Ideal S2048x1024 .bf16) (v21 : Vec Ideal S16x1024 .f32) (v26 v33 : FVec Ideal S16x1 .f32)
    (v34 : FVec Ideal S16x2048 .bf16) (p : Fin 16) (d : Fin 1024) :
    k0_pay5 v5 v21 v26 v33 v34 (ix3 0 p d) = Ideal.div (k0_pay1 v5 v21 v26 v34 (ix2 p d)) (v33 (ix2 p 0)) := by
  show shapeCast S1x16x1024 (divf (k0_pay1 v5 v21 v26 v34) (broadcastTo S16x1024 v33 _)) _ (ix3 0 p d) = _
  refine (shapeCast_ab_1ab_apply _ _ 0 p d).trans ?_
  show Ideal.div (k0_pay1 v5 v21 v26 v34 (ix2 p d)) (broadcastTo S16x1024 v33 _ (ix2 p d)) = _
  exact congrArg (Ideal.div (k0_pay1 v5 v21 v26 v34 (ix2 p d))) (broadcastTo_a1_ab_apply _ _ p d)

/-- The normalised attention weights of a batch row, from the logits read back. -/
theorem normalised_apply (v24 v33 : FVec Ideal S16x1 .f32) (v56 : Vec Ideal S1x16x4096 .f32) (p : Fin 16) (tt : Fin 4096) :
    k0_pay6 v24 v33 v56 (ix3 0 p tt) = Ideal.div (Ideal.exp (v56 (ix3 0 p tt) - v24 (ix2 p 0))) (v33 (ix2 p 0)) := by
  show shapeCast S1x16x4096 (divf (exp (subf (shapeCast S16x4096 v56 _) (broadcastTo S16x4096 v24 _)))
    (broadcastTo S16x4096 v33 _)) _ (ix3 0 p tt) = _
  refine (shapeCast_ab_1ab_apply _ _ 0 p tt).trans ?_
  show Ideal.div (Ideal.exp (shapeCast S16x4096 v56 _ (ix2 p tt) - broadcastTo S16x4096 v24 _ (ix2 p tt)))
    (broadcastTo S16x4096 v33 _ (ix2 p tt)) = _
  rw [shapeCast_1ab_ab_apply, broadcastTo_a1_ab_apply, broadcastTo_a1_ab_apply]

/-- The reset values: −∞ for the maximum, zero for the sum and the weighted sum. -/
theorem resetMax_apply (i : S16x1.Idx) : k0_pay7 (F := Ideal) i = ⊥ := by
  show shapeCast S16x1 (broadcast S16x1 (Ideal.ofBits .f32 0xFF800000#32)) _ i = ⊥
  rw [shapeCast_self]
  exact ofBits_negInf_f32
theorem resetSum_apply (i : S16x1.Idx) : k0_pay8 (F := Ideal) i = 0 := by
  show shapeCast S16x1 (broadcast S16x1 (Ideal.ofBits .f32 0x00000000#32)) _ i = 0
  rw [shapeCast_self]
  exact Ideal.ofBits_zero_f32
theorem resetAcc_apply (i : S16x1024.Idx) : k0_pay9 (F := Ideal) i = 0 := by
  show shapeCast S16x1024 (broadcast S16x1024 (Ideal.ofBits .f32 0x00000000#32)) _ i = 0
  rw [shapeCast_self]
  exact Ideal.ofBits_zero_f32

end Cert.KernelIdeal.PayloadsB

end
-- ==== Proof.OnlineSoftmax.lean ====
/-
  The softmax of a row taken in two tiles with a running maximum equals the softmax taken in one pass, on finite logits.
  The row's logits are real numbers `s t`, `t < n + n`; the first tile is `t < n`, the second `n ≤ t`. The running
  computation starts from maximum −∞, sum 0 and weighted sum 0; at each tile it takes the new maximum `m'`, rescales the old
  sum and weighted sum by `exp (m − m')` and adds the tile's `Σ exp (s − m')` and `Σ exp (s − m') · x`. After the second tile
  the maximum is the row's maximum, the sum is the one-pass denominator `Σ exp (s − M)`, and the weighted sum over the sum is
  `Σ (exp (s − M) / denominator) · x`: because `exp (m − M) · exp (s − m) = exp (s − M)` for real numbers, and a finite sum
  of real numbers divided by a nonzero real is the sum of the quotients.

  Route of the proof. With at least one logit per tile, every running maximum is the coercion of a real number (a supremum
  of finitely many coerced reals is attained), so after the first rescale `exp (−∞ − m) · 0 = 0 · 0 = 0` everything is
  arithmetic of coerced reals; the coercion is pushed outward through differences, products and finite sums, and what is
  left is the real identity `exp (m − M) · Σ_A exp (s − m) · x + Σ_B exp (s − M) · x = Σ exp (s − M) · x`.
-/
import Idealize.ShloMosaic.PureOps.Ideal

noncomputable section

namespace Cert.Online

open Idealize.ShloMosaic
open scoped BigOperators

variable {n : ℕ}

/-- The running maximum after a tile with logits `s`, from the maximum `m` before it. -/
def tileMax (m : EReal) (s : Fin n → ℝ) : EReal :=
  max m ((Finset.univ : Finset (Fin n)).fold max ⊥ (fun j => (s j : EReal)))

/-- A tile's weights summed, against the maximum `m'`. -/
def tileSum (m' : EReal) (s : Fin n → ℝ) : EReal := ∑ j : Fin n, Ideal.exp ((s j : EReal) - m')

/-- A tile's weights times the features, summed, against the maximum `m'`. -/
def tileAcc (m' : EReal) (s x : Fin n → ℝ) : EReal := ∑ j : Fin n, Ideal.exp ((s j : EReal) - m') * (x j : EReal)

/-- The running maximum, sum and weighted sum after the first tile (from −∞, 0, 0). -/
def max1 (sA : Fin n → ℝ) : EReal := tileMax ⊥ sA
def sum1 (sA : Fin n → ℝ) : EReal := Ideal.exp (⊥ - max1 sA) * 0 + tileSum (max1 sA) sA
def acc1 (sA xA : Fin n → ℝ) : EReal := Ideal.exp (⊥ - max1 sA) * 0 + tileAcc (max1 sA) sA xA

/-- The running maximum, sum and weighted sum after the second tile. -/
def max2 (sA sB : Fin n → ℝ) : EReal := tileMax (max1 sA) sB
def sum2 (sA sB : Fin n → ℝ) : EReal := Ideal.exp (max1 sA - max2 sA sB) * sum1 sA + tileSum (max2 sA sB) sB
def acc2 (sA sB xA xB : Fin n → ℝ) : EReal :=
  Ideal.exp (max1 sA - max2 sA sB) * acc1 sA xA + tileAcc (max2 sA sB) sB xB

/-- The row's maximum taken in one pass, from −∞. -/
def rowMax (s : Fin (n + n) → ℝ) : EReal := max ⊥ ((Finset.univ : Finset (Fin (n + n))).fold max ⊥ (fun t => (s t : EReal)))

/-- The one-pass denominator, summed from zero. -/
def rowDenom (s : Fin (n + n) → ℝ) : EReal := 0 + ∑ t : Fin (n + n), Ideal.exp ((s t : EReal) - rowMax s)

/-! ### Coercions and suprema -/

/-- The coercion of a finite sum of real numbers is the sum of the coercions. -/
theorem coe_sum {ι : Type*} (t : Finset ι) (f : ι → ℝ) :
    ((∑ i ∈ t, f i : ℝ) : EReal) = ∑ i ∈ t, (f i : EReal) := by
  classical
  refine Finset.induction_on t (by simp) ?_
  intro a t ha ih
  rw [Finset.sum_insert ha, Finset.sum_insert ha, EReal.coe_add, ih]

/-- The fold of `max` from `⊥` is the supremum. -/
theorem fold_max_eq_sup {ι : Type*} (t : Finset ι) (f : ι → EReal) : t.fold max ⊥ f = t.sup f := rfl

/-- The supremum of finitely many, at least one, coerced real numbers is a coerced real number: it is attained. -/
theorem exists_fold_eq_coe {m : ℕ} (hm : 0 < m) (f : Fin m → ℝ) :
    ∃ r : ℝ, (Finset.univ : Finset (Fin m)).fold max ⊥ (fun j => (f j : EReal)) = (r : EReal) := by
  haveI : Nonempty (Fin m) := ⟨⟨0, hm⟩⟩
  obtain ⟨i, -, hi⟩ :=
    Finset.exists_mem_eq_sup (Finset.univ : Finset (Fin m)) Finset.univ_nonempty (fun j => (f j : EReal))
  exact ⟨f i, by rw [fold_max_eq_sup, hi]⟩

/-- The supremum over the whole row is the larger of the suprema over its two tiles. -/
theorem fold_max_add (s : Fin (n + n) → ℝ) :
    (Finset.univ : Finset (Fin (n + n))).fold max ⊥ (fun t => (s t : EReal))
      = max ((Finset.univ : Finset (Fin n)).fold max ⊥ (fun j => (s (Fin.castAdd n j) : EReal)))
          ((Finset.univ : Finset (Fin n)).fold max ⊥ (fun j => (s (Fin.natAdd n j) : EReal))) := by
  simp only [fold_max_eq_sup]
  apply le_antisymm
  · apply Finset.sup_le
    intro t _
    induction t using Fin.addCases with
    | left j =>
      exact le_max_of_le_left
        (Finset.le_sup (f := fun j => (s (Fin.castAdd n j) : EReal)) (Finset.mem_univ j))
    | right j =>
      exact le_max_of_le_right
        (Finset.le_sup (f := fun j => (s (Fin.natAdd n j) : EReal)) (Finset.mem_univ j))
  · apply max_le
    · exact Finset.sup_le fun j _ =>
        Finset.le_sup (f := fun t => (s t : EReal)) (Finset.mem_univ (Fin.castAdd n j))
    · exact Finset.sup_le fun j _ =>
        Finset.le_sup (f := fun t => (s t : EReal)) (Finset.mem_univ (Fin.natAdd n j))

/-! ### The running maxima are real -/

/-- After the first tile the running maximum is a real number. -/
theorem max1_coe (hn : 0 < n) (sA : Fin n → ℝ) : ∃ mA : ℝ, max1 sA = (mA : EReal) := by
  obtain ⟨r, hr⟩ := exists_fold_eq_coe hn sA
  exact ⟨r, by unfold max1 tileMax; rw [hr, max_bot_left]⟩

/-- After the second tile the running maximum is a real number. -/
theorem max2_coe (hn : 0 < n) (sA sB : Fin n → ℝ) : ∃ M : ℝ, max2 sA sB = (M : EReal) := by
  obtain ⟨a, ha⟩ := max1_coe hn sA
  obtain ⟨b, hb⟩ := exists_fold_eq_coe hn sB
  unfold max2 tileMax
  rw [ha, hb]
  rcases max_choice (a : EReal) (b : EReal) with h | h
  · exact ⟨a, h⟩
  · exact ⟨b, h⟩

/-- After the second tile the running maximum is the row's maximum. -/
theorem max2_eq (hn : 0 < n) (s : Fin (n + n) → ℝ) :
    max2 (fun j => s (Fin.castAdd n j)) (fun j => s (Fin.natAdd n j)) = rowMax s := by
  unfold max2 max1 tileMax rowMax
  rw [fold_max_add s, max_bot_left, max_bot_left]

/-! ### The tiles' sums as coerced real sums -/

/-- Against a real maximum a tile's weights sum to a coerced real sum. -/
theorem tileSum_coe (m : ℝ) (s : Fin n → ℝ) :
    tileSum (m : EReal) s = ((∑ j, Real.exp (s j - m) : ℝ) : EReal) := by
  unfold tileSum
  rw [coe_sum]
  refine Finset.sum_congr rfl (fun j _ => ?_)
  rw [← EReal.coe_sub, Ideal.exp_coe]

/-- Against a real maximum a tile's weighted features sum to a coerced real sum. -/
theorem tileAcc_coe (m : ℝ) (s x : Fin n → ℝ) :
    tileAcc (m : EReal) s x = ((∑ j, Real.exp (s j - m) * x j : ℝ) : EReal) := by
  unfold tileAcc
  rw [coe_sum]
  refine Finset.sum_congr rfl (fun j _ => ?_)
  rw [← EReal.coe_sub, Ideal.exp_coe, EReal.coe_mul]

/-- The first rescale is `exp (−∞) · 0 = 0`: the running sum after the first tile is the tile's sum. -/
theorem sum1_coe {sA : Fin n → ℝ} {mA : ℝ} (h : max1 sA = (mA : EReal)) :
    sum1 sA = ((∑ j, Real.exp (sA j - mA) : ℝ) : EReal) := by
  unfold sum1
  rw [h, EReal.bot_sub, Ideal.exp_bot, zero_mul, zero_add, tileSum_coe]

/-- The running weighted sum after the first tile is the tile's weighted sum. -/
theorem acc1_coe {sA : Fin n → ℝ} {mA : ℝ} (h : max1 sA = (mA : EReal)) (xA : Fin n → ℝ) :
    acc1 sA xA = ((∑ j, Real.exp (sA j - mA) * xA j : ℝ) : EReal) := by
  unfold acc1
  rw [h, EReal.bot_sub, Ideal.exp_bot, zero_mul, zero_add, tileAcc_coe]

/-- The running sum after the second tile, as a coerced real number. -/
theorem sum2_coe {sA sB : Fin n → ℝ} {mA M : ℝ} (h1 : max1 sA = (mA : EReal)) (h2 : max2 sA sB = (M : EReal)) :
    sum2 sA sB
      = ((Real.exp (mA - M) * ∑ j, Real.exp (sA j - mA) + ∑ j, Real.exp (sB j - M) : ℝ) : EReal) := by
  unfold sum2
  rw [h2, sum1_coe h1, h1, ← EReal.coe_sub, Ideal.exp_coe, tileSum_coe, ← EReal.coe_mul, ← EReal.coe_add]

/-- The running weighted sum after the second tile, as a coerced real number. -/
theorem acc2_coe {sA sB : Fin n → ℝ} {mA M : ℝ} (h1 : max1 sA = (mA : EReal)) (h2 : max2 sA sB = (M : EReal))
    (xA xB : Fin n → ℝ) :
    acc2 sA sB xA xB
      = ((Real.exp (mA - M) * ∑ j, Real.exp (sA j - mA) * xA j + ∑ j, Real.exp (sB j - M) * xB j : ℝ) : EReal) := by
  unfold acc2
  rw [h2, acc1_coe h1, h1, ← EReal.coe_sub, Ideal.exp_coe, tileAcc_coe, ← EReal.coe_mul, ← EReal.coe_add]

/-- The one-pass denominator against a real row maximum, as a coerced real sum. -/
theorem rowDenom_coe {s : Fin (n + n) → ℝ} {M : ℝ} (h : rowMax s = (M : EReal)) :
    rowDenom s = ((∑ t, Real.exp (s t - M) : ℝ) : EReal) := by
  unfold rowDenom
  rw [h, zero_add, coe_sum]
  refine Finset.sum_congr rfl (fun t _ => ?_)
  rw [← EReal.coe_sub, Ideal.exp_coe]

/-! ### The real identities -/

/-- Rescaling the first tile's weighted sum from its own maximum `mA` to `M` and adding the second tile's gives the
    whole row's weighted sum against `M`: `exp (mA − M) · exp (s − mA) = exp (s − M)`. -/
theorem real_split (mA M : ℝ) (s x : Fin (n + n) → ℝ) :
    Real.exp (mA - M) * ∑ j, Real.exp (s (Fin.castAdd n j) - mA) * x (Fin.castAdd n j)
        + ∑ j, Real.exp (s (Fin.natAdd n j) - M) * x (Fin.natAdd n j)
      = ∑ t, Real.exp (s t - M) * x t := by
  rw [Fin.sum_univ_add, Finset.mul_sum]
  congr 1
  refine Finset.sum_congr rfl (fun j _ => ?_)
  rw [← mul_assoc, ← Real.exp_add]
  congr 2
  ring

/-- The same for the plain sums of the weights. -/
theorem real_split_one (mA M : ℝ) (s : Fin (n + n) → ℝ) :
    Real.exp (mA - M) * ∑ j, Real.exp (s (Fin.castAdd n j) - mA) + ∑ j, Real.exp (s (Fin.natAdd n j) - M)
      = ∑ t, Real.exp (s t - M) := by
  simpa using real_split mA M s (fun _ => 1)

/-! ### The three statements -/

/-- After the second tile the running sum is the one-pass denominator. -/
theorem sum2_eq (hn : 0 < n) (s : Fin (n + n) → ℝ) :
    sum2 (fun j => s (Fin.castAdd n j)) (fun j => s (Fin.natAdd n j)) = rowDenom s := by
  obtain ⟨mA, hA⟩ := max1_coe hn (fun j => s (Fin.castAdd n j))
  obtain ⟨M, hM⟩ := max2_coe hn (fun j => s (Fin.castAdd n j)) (fun j => s (Fin.natAdd n j))
  have hR : rowMax s = (M : EReal) := by rw [← max2_eq hn s, hM]
  rw [sum2_coe hA hM, rowDenom_coe hR, real_split_one]

/-- The running weighted sum over the running sum is the attention-weighted sum of the features. -/
theorem acc2_div_eq (hn : 0 < n) (s x : Fin (n + n) → ℝ) :
    Ideal.div (acc2 (fun j => s (Fin.castAdd n j)) (fun j => s (Fin.natAdd n j)) (fun j => x (Fin.castAdd n j)) (fun j => x (Fin.natAdd n j)))
        (sum2 (fun j => s (Fin.castAdd n j)) (fun j => s (Fin.natAdd n j)))
      = ∑ t : Fin (n + n), Ideal.div (Ideal.exp ((s t : EReal) - rowMax s)) (rowDenom s) * (x t : EReal) := by
  obtain ⟨mA, hA⟩ := max1_coe hn (fun j => s (Fin.castAdd n j))
  obtain ⟨M, hM⟩ := max2_coe hn (fun j => s (Fin.castAdd n j)) (fun j => s (Fin.natAdd n j))
  have hR : rowMax s = (M : EReal) := by rw [← max2_eq hn s, hM]
  haveI : Nonempty (Fin (n + n)) := ⟨⟨0, by omega⟩⟩
  have hD : (∑ t, Real.exp (s t - M)) ≠ 0 :=
    ne_of_gt (Finset.sum_pos (fun t _ => Real.exp_pos _) Finset.univ_nonempty)
  rw [sum2_eq hn s, acc2_coe hA hM, real_split, rowDenom_coe hR, hR, Ideal.div_coe hD, ← EReal.coe_mul,
    Finset.sum_mul, coe_sum Finset.univ (fun t => Real.exp (s t - M) * x t * (1 / ∑ u, Real.exp (s u - M)))]
  refine Finset.sum_congr rfl (fun t _ => ?_)
  rw [← EReal.coe_sub, Ideal.exp_coe, Ideal.div_coe hD, ← EReal.coe_mul, ← EReal.coe_mul]
  congr 1
  ring

end Cert.Online

end
-- ==== Proof.IdealTileValues.lean ====
/-
  The kernel's running quantities are the running softmax's. Over a tile whose logits for a probe are the real numbers `sT`
  and whose feature column is `xT`: from the reset values (−∞, 0, 0) the body leaves the first-tile maximum, sum and weighted
  sum of the running softmax; from those of a first tile with logits `sA` and features `xA` it leaves the second-tile ones.
  Each step is the payload read at an index: the maximum against the tile's largest logit, the rescaling `exp (m − m')`, the
  weights `exp (s − m')`, their sum and their contraction with the features.
-/
import proofs.«102923_j5901285065163_2_alg».proof.Proof.IdealPayloadsA
import proofs.«102923_j5901285065163_2_alg».proof.Proof.IdealPayloadsB
import proofs.«102923_j5901285065163_2_alg».proof.Proof.OnlineSoftmax

noncomputable section

namespace Cert.KernelIdeal.Values

open Idealize.ShloMosaic Idealize.ShloMosaic.ValueIdx Cert.KernelIdeal Cert.KernelIdeal.Gen
open Cert.KernelIdeal.PayloadsA Cert.KernelIdeal.PayloadsB Cert.Online
open scoped BigOperators

variable (x0 : Vec Ideal S1x2048x1024 .f32) (x1 : Vec Ideal S16x1024 .f32) (x2 : Vec Ideal S16x1 .f32)
  (p : Fin 16) (sT : Fin 2048 → ℝ) (hlog : ∀ j : Fin 2048, k0_pay11 x0 x1 x2 (ix2 p j) = (sT j : EReal))

include hlog

/-! ## A first tile: from the reset values -/

theorem first_max_val : k0_pay13 x0 x1 x2 (k0_pay7 (F := Ideal)) (ix2 p 0) = max1 sT := by
  rw [newMax_apply, resetMax_apply]
  unfold max1 tileMax
  simp only [hlog]

theorem first_sum_val : k0_pay16 x0 x1 x2 (k0_pay7 (F := Ideal)) (k0_pay8 (F := Ideal)) (ix2 p 0) = sum1 sT := by
  rw [newSum_apply, rescale_apply, resetMax_apply, resetSum_apply, first_max_val x0 x1 x2 p sT hlog]
  unfold sum1 tileSum
  refine congrArg (Ideal.exp (⊥ - max1 sT) * 0 + ·) (Finset.sum_congr rfl fun j _ => ?_)
  rw [weights_apply, hlog, first_max_val x0 x1 x2 p sT hlog]

theorem first_acc_val (d : Fin 1024) (xT : Fin 2048 → ℝ) (hx : ∀ j : Fin 2048, x0 (ix3 0 j d) = (xT j : EReal)) :
    k0_pay1 (k0_pay10 x0) (k0_pay9 (F := Ideal)) (k0_pay14 x0 x1 x2 (k0_pay7 (F := Ideal))) (k0_pay17 x0 x1 x2 (k0_pay7 (F := Ideal))) (ix2 p d) = acc1 sT xT := by
  rw [newAcc_apply, rescale_apply, resetMax_apply, resetAcc_apply, first_max_val x0 x1 x2 p sT hlog]
  unfold acc1 tileAcc
  refine congrArg (Ideal.exp (⊥ - max1 sT) * 0 + ·) (Finset.sum_congr rfl fun j _ => ?_)
  rw [weights_narrow_apply, weights_apply, hlog, first_max_val x0 x1 x2 p sT hlog, features_apply, hx]

/-! ## A last tile: from what the first tile left -/

variable (s0 s1 : Vec Ideal S16x1 .f32) (s2 : Vec Ideal S16x1024 .f32) (sA : Fin 2048 → ℝ)
  (h0 : s0 (ix2 p 0) = max1 sA)

include h0

theorem last_max_val : k0_pay13 x0 x1 x2 s0 (ix2 p 0) = max2 sA sT := by
  rw [newMax_apply, h0]
  unfold max2 tileMax
  simp only [hlog]

theorem last_sum_val (h1 : s1 (ix2 p 0) = sum1 sA) : k0_pay16 x0 x1 x2 s0 s1 (ix2 p 0) = sum2 sA sT := by
  rw [newSum_apply, rescale_apply, h0, h1, last_max_val x0 x1 x2 p sT hlog s0 sA h0]
  unfold sum2 tileSum
  refine congrArg (Ideal.exp (max1 sA - max2 sA sT) * sum1 sA + ·) (Finset.sum_congr rfl fun j _ => ?_)
  rw [weights_apply, hlog, last_max_val x0 x1 x2 p sT hlog s0 sA h0]

theorem last_acc_val (d : Fin 1024) (xA xT : Fin 2048 → ℝ) (h2 : s2 (ix2 p d) = acc1 sA xA)
    (hx : ∀ j : Fin 2048, x0 (ix3 0 j d) = (xT j : EReal)) :
    k0_pay1 (k0_pay10 x0) s2 (k0_pay14 x0 x1 x2 s0) (k0_pay17 x0 x1 x2 s0) (ix2 p d) = acc2 sA sT xA xT := by
  rw [newAcc_apply, rescale_apply, h0, h2, last_max_val x0 x1 x2 p sT hlog s0 sA h0]
  unfold acc2 tileAcc
  refine congrArg (Ideal.exp (max1 sA - max2 sA sT) * acc1 sA xA + ·) (Finset.sum_congr rfl fun j _ => ?_)
  rw [weights_narrow_apply, weights_apply, hlog, last_max_val x0 x1 x2 p sT hlog s0 sA h0, features_apply, hx]

end Cert.KernelIdeal.Values

end
-- ==== Proof.LibRelationalArrays.lean ====
/-
  A general fact about a pipelined launch whose proof data CONSTRAIN, rather than name, what the body leaves in the
  staging buffers. An output array ends at its entry contents overwritten, in point order, at each written-back block by
  the moved part of SOME contents the body may have left. If whatever the body may leave at a writing point has, as its
  moved part, that point's block of ONE whole-array contents `G`, then every index covered by some writing point's block
  ends at `G`: a later write-back over the same index writes `G` there again, an earlier one is overwritten. When the
  blocks cover the array, the array ends at `G`.
-/
import Idealize.ShloMosaic.Lib.Pipeline.Value

noncomputable section

namespace Idealize.ShloMosaic.Pipeline

open Idealize.SL Idealize.SL.RA Idealize.SL.BI

variable {nD : Nat} {τ : Topo} {sig : RefSig} {Val : EltTy → Type}
variable {Ix : Type} [DecidableEq Ix] {Name : Type} [DecidableEq Name] {U : Type} [URA U] {Lvl : Type}
variable {Λ₀ : SL.Sem.Labels} {cfg : Cfg sig Λ₀} {c : Dev nD} (rd : RDat τ Val Ix Name U Lvl cfg c)

/-- An index in a written-back block below `n` reads `G` in any contents the array may hold after the write-backs
    below `n`, when every write-back moves its block of `G`. -/
theorem RDat.arrAt_apply_of_mem (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G) :
    ∀ (n : Nat) (F : Buf Val ((cfg.win w).arr.view.loc (c.tc : Thread nD τ))), rd.ArrAt w n F →
      ∀ (t : Fin cfg.N) (i : ((cfg.win w).arr.view.loc (c.tc : Thread nD τ)).2.ty.Idx),
        t.val < n → (cfg.win w).flush t = true → i ∈ ((cfg.win w).blk t).view.set → F i = G i
  | 0, _, _, _, _, ht, _, _ => absurd ht (Nat.not_lt_zero _)
  | n + 1, F, hF, t, i, ht, hf, hi => by
    by_cases hn : n < cfg.N
    swap
    · have e : rd.ArrAt w (n + 1) = rd.ArrAt w n :=
        (rd.ArrAt_stable w (n + 1) (by omega)).trans (rd.ArrAt_stable w n (by omega)).symm
      rw [e] at hF
      exact RDat.arrAt_apply_of_mem w G hG n F hF t i (by have := t.isLt; omega) hf hi
    rw [show n + 1 = (⟨n, hn⟩ : Fin cfg.N).val + 1 from rfl, rd.ArrAt_succ] at hF
    by_cases hfn : (cfg.win w).flush ⟨n, hn⟩ = true
    · rw [if_pos hfn] at hF
      obtain ⟨G₀, X, hG₀, hX, rfl⟩ := hF
      rw [hG _ X hfn hX, View.write_read_eq_piecewise]
      by_cases hin : i ∈ ((cfg.win w).blk ⟨n, hn⟩).view.setOn Finset.univ
      · rw [Finset.piecewise_eq_of_mem _ _ _ hin]
      · rw [Finset.piecewise_eq_of_notMem _ _ _ hin]
        have htn : t.val ≠ n := fun e => hin (by rw [View.setOn_univ]; have : t = ⟨n, hn⟩ := Fin.ext e; exact this ▸ hi)
        exact RDat.arrAt_apply_of_mem w G hG n G₀ hG₀ t i (by omega) hf hi
    · rw [if_neg hfn] at hF
      have htn : t.val ≠ n := fun e => hfn (by have : t = ⟨n, hn⟩ := Fin.ext e; exact this ▸ hf)
      exact RDat.arrAt_apply_of_mem w G hG n F hF t i (by omega) hf hi

/-- When the written-back blocks cover the array and each write-back moves its block of `G`, the array ends at `G`. -/
theorem RDat.arrAt_eq_of_cover (w : Fin cfg.W) (G : Buf Val ((cfg.win w).arr.view.loc (c.tc : Thread nD τ)))
    (hG : ∀ t X, (cfg.win w).flush t = true → rd.Leaves w t X →
      (cfg.win w).cut (cfg.grid.coords t) X = ((cfg.win w).blk t).view.read Val G)
    (hcover : ∀ i : ((cfg.win w).arr.view.loc (c.tc : Thread nD τ)).2.ty.Idx,
      ∃ t : Fin cfg.N, (cfg.win w).flush t = true ∧ i ∈ ((cfg.win w).blk t).view.set)
    (F : Buf Val ((cfg.win w).arr.view.loc (c.tc : Thread nD τ))) (hF : rd.ArrAt w cfg.N F) : F = G :=
  funext fun i => by
    obtain ⟨t, hf, hi⟩ := hcover i
    exact rd.arrAt_apply_of_mem w G hG cfg.N F hF t i t.isLt hf hi

end Idealize.ShloMosaic.Pipeline

end
-- ==== Proof.Spec.lean ====
/-
  The function both programs compute, over the extended reals, index by index. For batch row `bi`, probe `p`, token `t`:
    logit bi t p = (Σ_k x[bi,t,k] · w[p,k]) + b[p]
    rowMax bi p  = max(−∞, max over t of logit bi t p)            (the maximum taken from −∞, as both programs take it)
    weight bi t p = exp(logit bi t p − rowMax bi p)
    denom bi p   = 0 + Σ_t weight bi t p
    attn bi t p  = weight bi t p / denom bi p
  and the two results are
    pooled[bi,p,d] = Σ_t attn bi t p · x[bi,t,d]      and      attention[bi,p,t] = attn bi t p.
  This is the reference's own order of operations, so that the reference meets it by reading indices only; the kernel, which
  takes the softmax in two tiles with a running maximum, meets it by the algebra of `exp` on finite logits.
-/
import Idealize.ShloMosaic.PureOps.Ideal
import Idealize.ShloMosaic.Lib.ValueIdx

noncomputable section

namespace Cert.Spec

open Idealize.ShloMosaic Idealize.ShloMosaic.ValueIdx
open scoped BigOperators

/-- The shapes of the three arguments and the two results. -/
abbrev SX : Shape := ⟨3, ![16, 4096, 1024]⟩
abbrev SW : Shape := ⟨2, ![16, 1024]⟩
abbrev SB : Shape := ⟨1, ![16]⟩
abbrev SPooled : Shape := ⟨3, ![16, 16, 1024]⟩
abbrev SAttn : Shape := ⟨3, ![16, 16, 4096]⟩

variable (x : SX.Idx → EReal) (w : SW.Idx → EReal) (b : SB.Idx → EReal)

/-- The logit of token `t` of batch row `bi` for probe `p`. -/
def logit (bi : Fin 16) (t : Fin 4096) (p : Fin 16) : EReal :=
  (∑ k : Fin 1024, x (ix3 bi t k) * w (ix2 p k)) + b (ix1 p)

/-- The largest logit of a batch row for a probe, taken from −∞. -/
def rowMax (bi : Fin 16) (p : Fin 16) : EReal :=
  max ⊥ ((Finset.univ : Finset (Fin 4096)).fold max ⊥ (fun t => logit x w b bi t p))

/-- The unnormalised softmax weight. -/
def weight (bi : Fin 16) (t : Fin 4096) (p : Fin 16) : EReal := Ideal.exp (logit x w b bi t p - rowMax x w b bi p)

/-- The softmax denominator: the weights summed over the tokens, from zero. -/
def denom (bi : Fin 16) (p : Fin 16) : EReal := 0 + ∑ t : Fin 4096, weight x w b bi t p

/-- The attention weight of token `t`. -/
def attn (bi : Fin 16) (t : Fin 4096) (p : Fin 16) : EReal := Ideal.div (weight x w b bi t p) (denom x w b bi p)

/-- The pooled result: the tokens' features averaged with the attention weights. -/
def pooled : SPooled.Idx → EReal := fun j => ∑ t : Fin 4096, attn x w b (j 0) t (j 1) * x (ix3 (j 0) t (j 2))

/-- The attention result: the weights, probe-major. -/
def attention : SAttn.Idx → EReal := fun j => attn x w b (j 0) (j 2) (j 1)

end Cert.Spec

end
-- ==== Proof.IdealRowValues.lean ====
/-
  The two result arrays of the kernel, at the extended reals, under finite inputs. Every entry of the arguments is a real
  number, so every logit is one; for a batch row and a probe the logits of the row's two tiles are the two halves of one
  family `s` of 4096 real numbers. The first tile leaves the running softmax's first-tile maximum, sum and weighted sum; the
  last tile turns them into the second-tile ones, which are the row's maximum, the one-pass denominator and — divided — the
  attention-weighted sum of the features. The slab holds the row's logits after the last tile's store (the first tile's half
  from the point before, not written back in between), so the normalised weights it is overwritten with are the one-pass
  attention weights. Each batch row's blocks are written back once, after its last tile; together they cover the arrays.
-/
import proofs.«102923_j5901285065163_2_alg».proof.Proof.IdealLeaves
import proofs.«102923_j5901285065163_2_alg».proof.Proof.IdealTileValues
import proofs.«102923_j5901285065163_2_alg».proof.Proof.LibRelationalArrays
import proofs.«102923_j5901285065163_2_alg».proof.Proof.Spec
import Idealize.ShloMosaic.Lib.StableHlo.Run

set_option maxRecDepth 16384

noncomputable section

namespace Cert.KernelIdeal.Values

open Idealize.ShloMosaic Idealize.ShloMosaic.TcCoe Idealize.ShloMosaic.ValueIdx Idealize.SL.Sem
open Idealize.ShloMosaic.Pipeline (RDat)
open Cert.KernelIdeal Cert.KernelIdeal.Gen Cert.KernelIdeal.Tiles
open Cert.KernelIdeal.PayloadsA Cert.KernelIdeal.PayloadsB Cert.Online
open scoped BigOperators

variable (m : (ℓ : Loc nD τ sig) → Buf (Elt Ideal) ℓ) (c : Dev nD)

/-- The three argument arrays on device `c`. -/
abbrev argX : S16x4096x1024.Idx → EReal := m ((c.tc : Thread nD τ).loc main_arg0)
abbrev argW : S16x1024.Idx → EReal := m ((c.tc : Thread nD τ).loc main_arg1)
abbrev argB : S16.Idx → EReal := m ((c.tc : Thread nD τ).loc main_arg2)

/-- The bias column the region finds is the bias vector, reshaped by the host. -/
theorem biasColumn (p : Fin 16) : V m c main_v0 (ix2 p 0) = argB m c (ix1 p) := by
  have e : (V m c main_v0 : S16x1.Idx → EReal) = shapeCast S16x1 (argB m c) shapeCasts_S16_S16x1 := by
    dsimp only [V, hostOps0]; after_results; rfl
  rw [e]
  refine shapeCast_apply _ _ _ _ ?_
  rw [Shape.rowMajor_val_one, Shape.rowMajor_val_two]
  show p.val = p.val * 1 + 0
  omega

variable (hx : ∀ i, ∃ r : ℝ, argX m c i = (r : EReal)) (hw : ∀ i, ∃ r : ℝ, argW m c i = (r : EReal))
  (hb : ∀ i, ∃ r : ℝ, argB m c i = (r : EReal))

/-- The real numbers the entries are. -/
def xr (i : S16x4096x1024.Idx) : ℝ := Classical.choose (hx i)
def wr (i : S16x1024.Idx) : ℝ := Classical.choose (hw i)
def br (i : S16.Idx) : ℝ := Classical.choose (hb i)
theorem xr_spec (i : S16x4096x1024.Idx) : argX m c i = (xr m c hx i : EReal) := Classical.choose_spec (hx i)
theorem wr_spec (i : S16x1024.Idx) : argW m c i = (wr m c hw i : EReal) := Classical.choose_spec (hw i)
theorem br_spec (i : S16.Idx) : argB m c i = (br m c hb i : EReal) := Classical.choose_spec (hb i)

/-- The logits of batch row `bi` for probe `p`, as real numbers. -/
def sr (bi p : Fin 16) (t : Fin (2048 + 2048)) : ℝ :=
  (∑ k : Fin 1024, xr m c hx (ix3 bi t k) * wr m c hw (ix2 p k)) + br m c hb (ix1 p)

theorem logit_real (bi p : Fin 16) (t : Fin (2048 + 2048)) :
    Cert.Spec.logit (argX m c) (argW m c) (argB m c) bi t p = (sr m c hx hw hb bi p t : EReal) := by
  unfold Cert.Spec.logit sr
  rw [EReal.coe_add, coe_sum]
  refine congrArg₂ (· + ·) (Finset.sum_congr rfl fun k _ => ?_) (br_spec m c hb _)
  rw [xr_spec m c hx, wr_spec m c hw, EReal.coe_mul]

/-- A tile's logits are the row's, at the tile's tokens. -/
theorem tile_logit (t : Fin cfg0.N) (p : Fin 16) (j : Fin 2048) (bi : Fin 16) (tt : Fin (2048 + 2048))
    (hbi : bi.val = t.val / 2) (ht : tt.val = t.val % 2 * 2048 + j.val) :
    k0_pay11 (iblk m c 0 t) (iblk m c 1 t) (iblk m c 2 t) (ix2 p j) = (sr m c hx hw hb bi p tt : EReal) := by
  refine (logits_apply (iblk m c 0 t) (iblk m c 1 t) (iblk m c 2 t) p j).trans ?_
  rw [← logit_real m c hx hw hb bi p tt]
  unfold Cert.Spec.logit
  refine congrArg₂ (· + ·) (Finset.sum_congr rfl fun k _ => ?_) ?_
  · rw [xBlock m c t j k bi tt hbi ht, wBlock m c t p k, mul_comm]
  · rw [bBlock m c t p, biasColumn m c p]

/-- A tile's feature column is the row's, at the tile's tokens. -/
theorem tile_feature (t : Fin cfg0.N) (j : Fin 2048) (d : Fin 1024) (bi : Fin 16) (tt : Fin (2048 + 2048))
    (hbi : bi.val = t.val / 2) (ht : tt.val = t.val % 2 * 2048 + j.val) :
    iblk m c 0 t (ix3 0 j d) = (xr m c hx (ix3 bi tt d) : EReal) := by
  rw [xBlock m c t j d bi tt hbi ht]; exact xr_spec m c hx _

section Row

variable (t : Fin cfg0.N) (h1 : t.val % 2 = 1) (bi : Fin 16) (hbi : bi.val = t.val / 2) (p : Fin 16)

include h1 hbi

theorem hbi_prev : bi.val = (prevPt t).val / 2 := by show bi.val = (t.val - 1) / 2; omega

/-- The first tile's logits are the first half of the row's. -/
theorem logA (j : Fin 2048) :
    k0_pay11 (iblk m c 0 (prevPt t)) (iblk m c 1 (prevPt t)) (iblk m c 2 (prevPt t)) (ix2 p j)
      = ((fun j => sr m c hx hw hb bi p (Fin.castAdd 2048 j)) j : EReal) :=
  tile_logit m c hx hw hb (prevPt t) p j bi (Fin.castAdd 2048 j) (hbi_prev t h1 bi hbi) (by
    show j.val = (t.val - 1) % 2 * 2048 + j.val
    have : (t.val - 1) % 2 = 0 := by omega
    rw [this]; omega)

/-- The last tile's logits are the second half. -/
theorem logB (j : Fin 2048) :
    k0_pay11 (iblk m c 0 t) (iblk m c 1 t) (iblk m c 2 t) (ix2 p j)
      = ((fun j => sr m c hx hw hb bi p (Fin.natAdd 2048 j)) j : EReal) :=
  tile_logit m c hx hw hb t p j bi (Fin.natAdd 2048 j) hbi (by
    show 2048 + j.val = t.val % 2 * 2048 + j.val
    rw [h1])

/-- What the first tile of the row leaves in the scratch. -/
theorem carry_max : (carryFirst m c (prevPt t)).1 (ix2 p 0) = max1 (fun j => sr m c hx hw hb bi p (Fin.castAdd 2048 j)) := by
  unfold carryFirst carryFrom; dsimp only
  rw [storedMax_eq]
  exact first_max_val _ _ _ p _ (logA m c hx hw hb t h1 bi hbi p)

theorem carry_sum : (carryFirst m c (prevPt t)).2.1 (ix2 p 0) = sum1 (fun j => sr m c hx hw hb bi p (Fin.castAdd 2048 j)) := by
  unfold carryFirst carryFrom; dsimp only
  rw [storedSum_eq]
  exact first_sum_val _ _ _ p _ (logA m c hx hw hb t h1 bi hbi p)

theorem carry_acc (d : Fin 1024) : (carryFirst m c (prevPt t)).2.2 (ix2 p d)
    = acc1 (fun j => sr m c hx hw hb bi p (Fin.castAdd 2048 j)) (fun j => xr m c hx (ix3 bi (Fin.castAdd 2048 j) d)) := by
  unfold carryFirst carryFrom; dsimp only
  rw [storedAcc_eq]
  exact first_acc_val _ _ _ p _ (logA m c hx hw hb t h1 bi hbi p) d _ (fun j =>
    tile_feature m c hx (prevPt t) j d bi (Fin.castAdd 2048 j) (hbi_prev t h1 bi hbi) (by
      show j.val = (t.val - 1) % 2 * 2048 + j.val
      have : (t.val - 1) % 2 = 0 := by omega
      rw [this]; omega))

/-- The running maximum and sum after the last tile are the row's maximum and one-pass denominator. -/
theorem row_max : k0_pay13 (iblk m c 0 t) (iblk m c 1 t) (iblk m c 2 t) (carryFirst m c (prevPt t)).1 (ix2 p 0)
    = rowMax (sr m c hx hw hb bi p) :=
  (last_max_val _ _ _ p _ (logB m c hx hw hb t h1 bi hbi p) _ _ (carry_max m c hx hw hb t h1 bi hbi p)).trans
    (max2_eq (by norm_num) (sr m c hx hw hb bi p))

theorem row_sum : k0_pay16 (iblk m c 0 t) (iblk m c 1 t) (iblk m c 2 t) (carryFirst m c (prevPt t)).1 (carryFirst m c (prevPt t)).2.1 (ix2 p 0)
    = rowDenom (sr m c hx hw hb bi p) :=
  (last_sum_val _ _ _ p _ (logB m c hx hw hb t h1 bi hbi p) _ _ _ (carry_max m c hx hw hb t h1 bi hbi p)
    (carry_sum m c hx hw hb t h1 bi hbi p)).trans (sum2_eq (by norm_num) (sr m c hx hw hb bi p))

/-- The specification's row maximum and denominator are the one-pass ones of the real logits. -/
theorem spec_rowMax : Cert.Spec.rowMax (argX m c) (argW m c) (argB m c) bi p = rowMax (sr m c hx hw hb bi p) := by
  unfold Cert.Spec.rowMax rowMax
  refine congrArg (max ⊥) (Finset.fold_congr fun t _ => ?_)
  exact logit_real m c hx hw hb bi p t

theorem spec_weight (tt : Fin (2048 + 2048)) : Cert.Spec.weight (argX m c) (argW m c) (argB m c) bi tt p
    = Ideal.exp ((sr m c hx hw hb bi p tt : EReal) - rowMax (sr m c hx hw hb bi p)) := by
  unfold Cert.Spec.weight
  rw [logit_real m c hx hw hb bi p tt, spec_rowMax m c hx hw hb t h1 bi hbi p]

theorem spec_denom : Cert.Spec.denom (argX m c) (argW m c) (argB m c) bi p = rowDenom (sr m c hx hw hb bi p) := by
  unfold Cert.Spec.denom rowDenom
  refine congrArg (0 + ·) (Finset.sum_congr rfl fun tt _ => ?_)
  exact spec_weight m c hx hw hb t h1 bi hbi p tt

include hx hw hb

/-- THE POOLED BLOCK of the row is the specification's. -/
theorem pooled_val (d : Fin 1024) :
    pooledLeft m c t (ix3 0 p d) = Cert.Spec.pooled (argX m c) (argW m c) (argB m c) (ix3 bi p d) := by
  unfold pooledLeft
  refine (pooled_apply _ _ _ _ _ p d).trans ?_
  rw [row_sum m c hx hw hb t h1 bi hbi p]
  rw [last_acc_val _ _ _ p _ (logB m c hx hw hb t h1 bi hbi p) _ _ _ (carry_max m c hx hw hb t h1 bi hbi p) d _
    (fun j => xr m c hx (ix3 bi (Fin.natAdd 2048 j) d)) (carry_acc m c hx hw hb t h1 bi hbi p d)
    (fun j => tile_feature m c hx t j d bi (Fin.natAdd 2048 j) hbi (by show 2048 + j.val = t.val % 2 * 2048 + j.val; rw [h1]))]
  rw [← sum2_eq (by norm_num) (sr m c hx hw hb bi p)]
  refine (acc2_div_eq (by norm_num) (sr m c hx hw hb bi p) (fun tt => xr m c hx (ix3 bi tt d))).trans ?_
  unfold Cert.Spec.pooled Cert.Spec.attn
  refine Finset.sum_congr rfl fun tt _ => ?_
  show _ = Ideal.div (Cert.Spec.weight (argX m c) (argW m c) (argB m c) bi tt p) (Cert.Spec.denom (argX m c) (argW m c) (argB m c) bi p) * argX m c (ix3 bi tt d)
  rw [spec_weight m c hx hw hb t h1 bi hbi p tt, spec_denom m c hx hw hb t h1 bi hbi p, xr_spec m c hx]

/-- After the last tile's store the slab holds the row's logits, whatever it held before the row. -/
theorem slab_logits (Y' : Vec Ideal S1x16x4096 .f32) (tt : Fin (2048 + 2048)) :
    withLogits m c t (withLogits m c (prevPt t) Y') (ix3 0 p tt) = (sr m c hx hw hb bi p tt : EReal) := by
  by_cases hlt : tt.val < 2048
  · rw [withLogits_out m c t _ p tt (by rw [h1]; left; omega)]
    rw [withLogits_in m c (prevPt t) Y' p ⟨tt.val, hlt⟩ tt (by
      show tt.val = 2048 * ((t.val - 1) % 2) + tt.val
      have : (t.val - 1) % 2 = 0 := by omega
      rw [this]; omega)]
    rw [stored_logits_apply]
    exact tile_logit m c hx hw hb (prevPt t) p ⟨tt.val, hlt⟩ bi tt (hbi_prev t h1 bi hbi) (by
      show tt.val = (t.val - 1) % 2 * 2048 + tt.val
      have : (t.val - 1) % 2 = 0 := by omega
      rw [this]; omega)
  · have hge : 2048 ≤ tt.val := by omega
    have hlt' : tt.val - 2048 < 2048 := by have := tt.isLt; omega
    rw [withLogits_in m c t _ p ⟨tt.val - 2048, hlt'⟩ tt (by rw [h1]; show tt.val = 2048 * 1 + (tt.val - 2048); omega)]
    rw [stored_logits_apply]
    exact tile_logit m c hx hw hb t p ⟨tt.val - 2048, hlt'⟩ bi tt hbi (by rw [h1]; show tt.val = 1 * 2048 + (tt.val - 2048); omega)

/-- THE ATTENTION BLOCK of the row is the specification's. -/
theorem attention_val (Y' : Vec Ideal S1x16x4096 .f32) (tt : Fin (2048 + 2048)) :
    slabLeft m c t (slabLeft m c (prevPt t) Y') (ix3 0 p tt)
      = Cert.Spec.attention (argX m c) (argW m c) (argB m c) (ix3 bi p tt) := by
  unfold slabLeft
  rw [if_neg (by omega), if_pos (prev_even t h1)]
  refine (normalised_apply _ _ _ p tt).trans ?_
  rw [slab_logits m c hx hw hb t h1 bi hbi p Y' tt, row_max m c hx hw hb t h1 bi hbi p, row_sum m c hx hw hb t h1 bi hbi p]
  show _ = Cert.Spec.attn (argX m c) (argW m c) (argB m c) bi tt p
  unfold Cert.Spec.attn
  rw [spec_weight m c hx hw hb t h1 bi hbi p tt, spec_denom m c hx hw hb t h1 bi hbi p]

end Row

end Cert.KernelIdeal.Values

end
-- ==== Proof.IdealArrays.lean ====
/-
  The result arrays after the run. What a write-back of the pooled output or of the attention slab moves is, by the proof
  data's relations, what a last tile leaves — the batch row's block of the specification; each batch row is written back once,
  after its last tile, and the sixteen rows' blocks cover each array. So under finite inputs every weakly fair execution of
  the kernel ends with the two result arrays at the specification and the arguments unchanged.
-/
import proofs.«102923_j5901285065163_2_alg».proof.Proof.IdealRowValues

set_option maxRecDepth 16384

noncomputable section

namespace Cert.KernelIdeal.Values

open Idealize.ShloMosaic Idealize.ShloMosaic.TcCoe Idealize.ShloMosaic.ValueIdx Idealize.SL.Sem
open Idealize.ShloMosaic.Pipeline (RDat)
open Cert.KernelIdeal Cert.KernelIdeal.Gen Cert.KernelIdeal.Tiles

variable (m : (ℓ : Loc nD τ sig) → Buf (Elt Ideal) ℓ) (ρ : Dev nD → PrngReg)

section Device

variable (c : Dev nD)
  (hx : ∀ i, ∃ r : ℝ, argX m c i = (r : EReal)) (hw : ∀ i, ∃ r : ℝ, argW m c i = (r : EReal))
  (hb : ∀ i, ∃ r : ℝ, argB m c i = (r : EReal))

include hx hw hb

/-- What a write-back of the pooled output moves is its block of the specification. -/
theorem pooled_blocks (t : Fin cfg0.N) (X : Vec Ideal S1x16x1024 .f32) (hf : (cfg0.win 3).flush t = true)
    (hL : (relational m c).Leaves 3 t X) :
    (cfg0.win 3).cut (cfg0.grid.coords t) X
      = ((cfg0.win 3).blk t).view.read (Elt Ideal) (Cert.Spec.pooled (argX m c) (argW m c) (argB m c)) := by
  have h1 : t.val % 2 = 1 := (flush0_3 t).mp hf
  have hlt : t.val / 2 < 16 := by have : t.val < 32 := lt_of_lt_of_eq t.isLt N_0; omega
  obtain rfl := leaves_pooled m c t h1 X hL
  funext y
  obtain ⟨u, p, d, rfl⟩ : ∃ (u : Fin 1) (p : Fin 16) (d : Fin 1024), y = ix3 u p d := ⟨y 0, y 1, y 2, eq_ix3 (n0 := 1) (n1 := 16) (n2 := 1024) y⟩
  obtain rfl : u = 0 := Subsingleton.elim _ _
  show pooledLeft m c t (ix3 0 p d) = Cert.Spec.pooled (argX m c) (argW m c) (argB m c) (((cfg0.win 3).blk t).view.emb (ix3 0 p d))
  rw [pooledEmb t p d ⟨t.val / 2, hlt⟩ rfl]
  exact pooled_val m c hx hw hb t h1 ⟨t.val / 2, hlt⟩ rfl p d

/-- What a write-back of the attention slab moves is its block of the specification. -/
theorem attention_blocks (t : Fin cfg0.N) (X : Vec Ideal S1x16x4096 .f32) (hf : (cfg0.win 4).flush t = true)
    (hL : (relational m c).Leaves 4 t X) :
    (cfg0.win 4).cut (cfg0.grid.coords t) X
      = ((cfg0.win 4).blk t).view.read (Elt Ideal) (Cert.Spec.attention (argX m c) (argW m c) (argB m c)) := by
  have h1 : t.val % 2 = 1 := (flush0_4 t).mp hf
  have hlt : t.val / 2 < 16 := by have : t.val < 32 := lt_of_lt_of_eq t.isLt N_0; omega
  obtain ⟨Y', rfl⟩ := leaves_slab m c t h1 X hL
  funext y
  obtain ⟨u, p, d, rfl⟩ : ∃ (u : Fin 1) (p : Fin 16) (d : Fin 4096), y = ix3 u p d := ⟨y 0, y 1, y 2, eq_ix3 (n0 := 1) (n1 := 16) (n2 := 4096) y⟩
  obtain rfl : u = 0 := Subsingleton.elim _ _
  show slabLeft m c t (slabLeft m c (prevPt t) Y') (ix3 0 p d) = Cert.Spec.attention (argX m c) (argW m c) (argB m c) (((cfg0.win 4).blk t).view.emb (ix3 0 p d))
  rw [slabEmb t p d ⟨t.val / 2, hlt⟩ rfl]
  exact attention_val m c hx hw hb t h1 ⟨t.val / 2, hlt⟩ rfl p Y' d

end Device

/-- Every entry of the pooled output lies in the block written back after its batch row's last tile. -/
theorem pooled_cover (c : Dev nD) (i : S16x16x1024.Idx) :
    ∃ t : Fin cfg0.N, (cfg0.win 3).flush t = true ∧ i ∈ ((cfg0.win 3).blk t).view.set := by
  have hi : (i 0).val < 16 := (i 0).isLt
  obtain ⟨t, ht⟩ : ∃ t : Fin cfg0.N, t.val = 2 * (i 0).val + 1 := ⟨⟨2 * (i 0).val + 1, by rw [show cfg0.N = 32 from N_0]; omega⟩, rfl⟩
  refine ⟨t, (flush0_3 t).mpr (by omega), ?_⟩
  have e : ((cfg0.win 3).blk t).view.emb (ix3 0 (i 1) (i 2)) = i := by
    rw [pooledEmb t (i 1) (i 2) (i 0) (by omega)]
    exact (eq_ix3 (n0 := 16) (n1 := 16) (n2 := 1024) i).symm
  rw [← e]; exact View.emb_mem_set _ _

/-- Every entry of the attention result lies in the block written back after its batch row's last tile. -/
theorem attention_cover (c : Dev nD) (i : S16x16x4096.Idx) :
    ∃ t : Fin cfg0.N, (cfg0.win 4).flush t = true ∧ i ∈ ((cfg0.win 4).blk t).view.set := by
  have hi : (i 0).val < 16 := (i 0).isLt
  obtain ⟨t, ht⟩ : ∃ t : Fin cfg0.N, t.val = 2 * (i 0).val + 1 := ⟨⟨2 * (i 0).val + 1, by rw [show cfg0.N = 32 from N_0]; omega⟩, rfl⟩
  refine ⟨t, (flush0_4 t).mpr (by omega), ?_⟩
  have e : ((cfg0.win 4).blk t).view.emb (ix3 0 (i 1) (i 2)) = i := by
    rw [slabEmb t (i 1) (i 2) (i 0) (by omega)]
    exact (eq_ix3 (n0 := 16) (n1 := 16) (n2 := 4096) i).symm
  rw [← e]; exact View.emb_mem_set _ _

/-- THE VALUE RUN: under finite inputs every weakly fair execution of the kernel terminates with the pooled result and the
    attention result at the specification and the arguments unchanged. -/
theorem value_run (hx : ∀ c i, ∃ r : ℝ, argX m c i = (r : EReal)) (hw : ∀ c i, ∃ r : ℝ, argW m c i = (r : EReal))
    (hb : ∀ c i, ∃ r : ℝ, argB m c i = (r : EReal)) :
    θ_run defs (onTc (τ := τ) (main (F := Ideal))) ⟨m, fun _ => 0, ρ⟩ (fun r => ∀ c : Dev nD,
      r.2.mem ((c.tc : Thread nD τ).loc main_v1_0) = Cert.Spec.pooled (argX m c) (argW m c) (argB m c)
      ∧ r.2.mem ((c.tc : Thread nD τ).loc main_v1_1) = Cert.Spec.attention (argX m c) (argW m c) (argB m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨RDat.arrAt_eq_of_cover (relational m c) 3 _ (pooled_blocks m c (hx c) (hw c) (hb c)) (pooled_cover c) _ ((h c).1 3),
      RDat.arrAt_eq_of_cover (relational m c) 4 _ (attention_blocks m c (hx c) (hw c) (hb c)) (attention_cover c) _ ((h c).1 4),
      (input_kept m c 0 rfl _ ((h c).1 0)).trans (V_main_arg0 m c),
      (input_kept m c 1 rfl _ ((h c).1 1)).trans (V_main_arg1 m c),
      ((h c).2 main_arg2 (Pipeline.mem_restRefs_of main_arg2 (by decide) (by decide))).trans (V_main_arg2 m c)⟩) (run_main m ρ)

end Cert.KernelIdeal.Values

end
-- ==== Proof.RefSide.lean ====
/-
  The reference program meets the specification, index by index.

  The reference computes, for batch row `bi`, probe `p`, token `t`: the logit `(Σ_k x[bi,t,k] · w[p,k]) + b[p]`; the row
  maximum of the logits over the tokens, taken from −∞ and then once more against −∞; the weight `exp(logit − rowMax)`;
  the denominator `0 + Σ_t weight`; the attention weight `weight / denom`; and from these the pooled result
  `Σ_t attn · x[bi,t,d]` and the attention result, the weights transposed to probe-major order. The specification
  (`Cert.Spec`) is written in that same order of operations, so no law of arithmetic is needed: every operation of the
  reference is read at an index — a pointwise operation at the same index, a broadcast, a transpose or a contraction at
  the index its dimension numbers send it to — and the composed index functions are identified, coordinate by coordinate,
  with the specification's `ix1` / `ix2` / `ix3`. The one operation read by hand is the maximum over the token axis: a
  one-axis reduction is the fold of `max` from the initial value over that axis's coordinates, and the index it inserts
  the coordinate into computes. The word `0xFF800000` is −∞, the lattice's bottom; the word `0x00000000` is `0`.
-/
import proofs.«102923_j5901285065163_2_alg».proof.Proof.Gen.ReferenceIdeal.Read
import proofs.«102923_j5901285065163_2_alg».proof.Proof.Spec
import Idealize.ShloMosaic.Lib.ValueIdx
import Idealize.ShloMosaic.PureOps.Reduce
import Idealize.ShloMosaic.PureOps.Ideal.Laws

noncomputable section

namespace Cert.RefSide

open Idealize.ShloMosaic Idealize.ShloMosaic.ValueIdx Cert.ReferenceIdeal Cert.ReferenceIdeal.Gen
open scoped BigOperators

variable (x0 : (⟨S16x4096x1024, .f32⟩ : BufTy).Contents (Elt Ideal)) (x1 : (⟨S16x1024, .f32⟩ : BufTy).Contents (Elt Ideal))
  (x2 : (⟨S16, .f32⟩ : BufTy).Contents (Elt Ideal))

/-! ## The logit -/

/-- The first contraction reads `x` at (batch row, token, k) … -/
theorem lidx_v0 (bi : Fin 16) (t : Fin 4096) (p : Fin 16) (k : Fin 1024) :
    Read.lidx_main_v0 (ix3 bi t p) k = ix3 bi t k :=
  funext fun a => Fin.ext (by match a with | ⟨0, _⟩ => rfl | ⟨1, _⟩ => rfl | ⟨2, _⟩ => rfl)

/-- … and `w` at (probe, k). -/
theorem ridx_v0 (bi : Fin 16) (t : Fin 4096) (p : Fin 16) (k : Fin 1024) :
    Read.ridx_main_v0 (ix3 bi t p) k = ix2 p k :=
  funext fun a => Fin.ext (by match a with | ⟨0, _⟩ => rfl | ⟨1, _⟩ => rfl)

/-- The bias, broadcast along its last axis twice, is read at the probe. -/
theorem idx_v1v2 (bi : Fin 16) (t : Fin 4096) (p : Fin 16) :
    Read.idx_main_v1 (Read.idx_main_v2 (ix3 bi t p)) = ix1 p :=
  funext fun a => Fin.ext (by match a with | ⟨0, _⟩ => rfl)

/-- The reference's sum of the contraction and the broadcast bias is the specification's logit. -/
theorem logit_eq (bi : Fin 16) (t : Fin 4096) (p : Fin 16) :
    Read.val_main_v3 (F := Ideal) x0 x1 x2 (ix3 bi t p) = Cert.Spec.logit x0 x1 x2 bi t p := by
  rw [Read.val_main_v3_apply, Read.val_main_v0_apply, Read.val_main_v2_apply, Read.val_main_v1_apply]
  simp only [lidx_v0, ridx_v0, idx_v1v2, Ideal.addf_def]
  rfl

/-! ## The row maximum -/

/-- The f32 word of −∞ is the extended reals' bottom. -/
theorem ofBits_neg_inf : Ideal.ofBits .f32 0xFF800000#32 = ⊥ := by simp [Ideal.ofBits, Ideal.ieee]

/-- The reduction over the token axis inserts the token between the batch row and the probe. -/
theorem lift_d1 (h : S16x4096x16.Reduces [1] S16x16) (bi p : Fin 16) (t : Fin 4096) :
    h.lift (ix2 bi p) t = ix3 bi t p :=
  funext fun a => Fin.ext (by match a with | ⟨0, _⟩ => rfl | ⟨1, _⟩ => rfl | ⟨2, _⟩ => rfl)

/-- The reference's maximum over the tokens is the fold of `max` from −∞ over the logits of the row. -/
theorem maxReduce_eq (bi p : Fin 16) :
    Read.val_main_v4 (F := Ideal) x0 x1 x2 (ix2 bi p)
      = (Finset.univ : Finset (Fin 4096)).fold max ⊥ (fun t => Cert.Spec.logit x0 x1 x2 bi t p) := by
  have h : S16x4096x16.Reduces [1] S16x16 := by decide
  unfold Read.val_main_v4
  rw [Host.reduce_eq_fold_single FloatOps.maximumf _ _ reducesTo_S16x4096x16_S16x16_d1 h h_S_, Read.val_main_cst_apply,
    Ideal.ofBits_def, ofBits_neg_inf]
  exact Finset.fold_congr (fun t _ =>
    (congrArg (Read.val_main_v3 (F := Ideal) x0 x1 x2) (lift_d1 h bi p t)).trans (logit_eq x0 x1 x2 bi t p))

/-- Taken once more against the broadcast −∞, it is the specification's row maximum. -/
theorem rowMax_eq (bi p : Fin 16) :
    Read.val_main_v6 (F := Ideal) x0 x1 x2 (ix2 bi p) = Cert.Spec.rowMax x0 x1 x2 bi p := by
  rw [Read.val_main_v6_apply, Read.val_main_v5_apply, Read.val_main_cst_0_apply, maxReduce_eq, Ideal.ofBits_def,
    ofBits_neg_inf, Ideal.maximumf_def]
  rfl

/-! ## The weight, the denominator, the attention weight -/

/-- A per-row value broadcast back over the tokens is read at (batch row, probe). -/
theorem idx_v7v8 (bi : Fin 16) (t : Fin 4096) (p : Fin 16) :
    Read.idx_main_v7 (Read.idx_main_v8 (ix3 bi t p)) = ix2 bi p :=
  funext fun a => Fin.ext (by match a with | ⟨0, _⟩ => rfl | ⟨1, _⟩ => rfl)

/-- The exponential of the logit less the row maximum is the specification's weight. -/
theorem weight_eq (bi : Fin 16) (t : Fin 4096) (p : Fin 16) :
    Read.val_main_v10 (F := Ideal) x0 x1 x2 (ix3 bi t p) = Cert.Spec.weight x0 x1 x2 bi t p := by
  rw [Read.val_main_v10_apply, Read.val_main_v9_apply, Read.val_main_v8_apply, Read.val_main_v7_apply, idx_v7v8,
    logit_eq, rowMax_eq, Ideal.hostUnary_exp_def, Ideal.subf_def]
  rfl

/-- The sum over the token axis reads its operand at (batch row, token, probe). -/
theorem idx_v11 (bi p : Fin 16) (t : Fin 4096) : Read.idx_main_v11 (ix2 bi p) t = ix3 bi t p :=
  funext fun a => Fin.ext (by match a with | ⟨0, _⟩ => rfl | ⟨1, _⟩ => rfl | ⟨2, _⟩ => rfl)

/-- The weights summed over the tokens, from zero, are the specification's denominator. -/
theorem denom_eq (bi p : Fin 16) :
    Read.val_main_v11 (F := Ideal) x0 x1 x2 (ix2 bi p) = Cert.Spec.denom x0 x1 x2 bi p := by
  rw [Read.val_main_v11_apply, Read.val_main_cst_1_apply, Ideal.ofBits_def, Ideal.ofBits_zero_f32]
  simp only [idx_v11, weight_eq]
  rfl

/-- The denominator broadcast back over the tokens is read at (batch row, probe). -/
theorem idx_v12v13 (bi : Fin 16) (t : Fin 4096) (p : Fin 16) :
    Read.idx_main_v12 (Read.idx_main_v13 (ix3 bi t p)) = ix2 bi p :=
  funext fun a => Fin.ext (by match a with | ⟨0, _⟩ => rfl | ⟨1, _⟩ => rfl)

/-- The weight over the denominator is the specification's attention weight. -/
theorem attn_eq (bi : Fin 16) (t : Fin 4096) (p : Fin 16) :
    Read.val_main_v14 (F := Ideal) x0 x1 x2 (ix3 bi t p) = Cert.Spec.attn x0 x1 x2 bi t p := by
  rw [Read.val_main_v14_apply, Read.val_main_v13_apply, Read.val_main_v12_apply, idx_v12v13, weight_eq, denom_eq,
    Ideal.hostDivf_def]
  rfl

/-! ## The two results -/

/-- The second contraction reads the attention weights at (batch row, token, probe) … -/
theorem lidx_v15 (bi p : Fin 16) (d : Fin 1024) (t : Fin 4096) : Read.lidx_main_v15 (ix3 bi p d) t = ix3 bi t p :=
  funext fun a => Fin.ext (by match a with | ⟨0, _⟩ => rfl | ⟨1, _⟩ => rfl | ⟨2, _⟩ => rfl)

/-- … and `x` at (batch row, token, feature). -/
theorem ridx_v15 (bi p : Fin 16) (d : Fin 1024) (t : Fin 4096) : Read.ridx_main_v15 (ix3 bi p d) t = ix3 bi t d :=
  funext fun a => Fin.ext (by match a with | ⟨0, _⟩ => rfl | ⟨1, _⟩ => rfl | ⟨2, _⟩ => rfl)

/-- The reference's first result is the specification's pooled result. -/
theorem pooled_eq : Read.val_main_v15 (F := Ideal) x0 x1 x2 = Cert.Spec.pooled x0 x1 x2 := by
  funext j
  obtain ⟨bi, p, d, rfl⟩ : ∃ (bi : Fin 16) (p : Fin 16) (d : Fin 1024), j = ix3 bi p d := ⟨j 0, j 1, j 2, eq_ix3 j⟩
  rw [Read.val_main_v15_apply]
  simp only [lidx_v15, ridx_v15, attn_eq]
  rfl

/-- The transpose exchanges the token and the probe. -/
theorem idx_v16 (bi p : Fin 16) (t : Fin 4096) : Read.idx_main_v16 (ix3 bi p t) = ix3 bi t p :=
  funext fun a => Fin.ext (by match a with | ⟨0, _⟩ => rfl | ⟨1, _⟩ => rfl | ⟨2, _⟩ => rfl)

/-- The reference's second result is the specification's attention result. -/
theorem attention_eq : Read.val_main_v16 (F := Ideal) x0 x1 x2 = Cert.Spec.attention x0 x1 x2 := by
  funext j
  obtain ⟨bi, p, t, rfl⟩ : ∃ (bi : Fin 16) (p : Fin 16) (t : Fin 4096), j = ix3 bi p t := ⟨j 0, j 1, j 2, eq_ix3 j⟩
  rw [Read.val_main_v16_apply, idx_v16, attn_eq]
  rfl

end Cert.RefSide

end
-- ==== Proof.FiniteInputs.lean ====
/-
  Under the precondition every entry of the three argument arrays is a real number: the precondition says, of each array,
  that every entry's absolute value is below +∞, and an extended real whose absolute value is below +∞ is neither +∞ nor −∞.
-/
import proofs.«102923_j5901285065163_2_alg».proof.Defs
import proofs.«102923_j5901285065163_2_alg».proof.Proof.Gen.Pre_finite_inputs
import Idealize.ShloMosaic.Lib.ReduceAll
import Idealize.ShloMosaic.Lib.ValueIdx

noncomputable section

namespace Cert.Finite

open Idealize.ShloMosaic Idealize.SL.Sem Cert.KernelIdeal

/-- The rank-0 shape has exactly one index. -/
instance : Subsingleton Cert.Pre_finite_inputs.S_.Idx := ⟨fun a b => funext fun d => d.elim0⟩

/-- The f32 pattern 0x7F800000 (all-ones exponent, zero fraction, sign clear) denotes +∞. -/
theorem inf_eq_top : Ideal.ofBits .f32 0x7F800000#32 = (⊤ : EReal) := by
  simp [Ideal.ofBits, Ideal.ieee]

/-- An extended real whose absolute value max x (−x) is below +∞ is a real: +∞ has absolute value +∞, and so has −∞. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word built from a truth value is 1 exactly when the truth value is true. -/
theorem ofBool_eq_one (b : Bool) : BitVec.ofBool b = 1#1 ↔ b = true := by cases b <;> decide

/-- One entry: if the comparison |x| < +∞ came out 1, then x is a real. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_eq_top] at h'
  unfold Ideal.cmp at h'
  rw [ofBool_eq_one] at h'
  exact real_of_abs_lt_top x (of_decide_eq_true h')

/-- One array of any shape: if the conjunction over all entries of "|a i| < +∞" came out 1, every entry is a real. -/
theorem all_real {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf a) (broadcastInDim s ![] hb (constant Cert.Pre_finite_inputs.S_ .f32 0x7F800000#32)))
          (constantI Cert.Pre_finite_inputs.S_ 1 1#1) hr hu ValueIdx.ix0 = 1#1)
    (i : s.Idx) : ∃ r : ℝ, a i = (r : EReal) :=
  real_of_cmp (a i) (Host.reduce_andi_all _ _ hr hu ValueIdx.ix0 e i)

/-- The conjunction of two one-bit arrays, read at an index, is the conjunction of the two words there. -/
theorem andi_apply {s : Shape} {w : Nat} (x y : IVec s w) (j : s.Idx) : andi x y j = IntOp.andi (x j) (y j) := rfl

/-- Every entry of the token features is a real number. -/
theorem x_real (m : (ℓ : Loc nD τ sig) → Buf (Elt Ideal) ℓ)
    (h : Cert.Pre_KernelIdeal (hPre_finite_inputs := Cert.Pre_finite_inputs.Gen.facts) m) (c : Dev nD) (i : S16x4096x1024.Idx) :
    ∃ r : ℝ, m ((c.tc : Thread nD τ).loc main_arg0) i = (r : EReal) := by
  have e := congrFun (h c) ValueIdx.ix0
  dsimp only [Cert.Pre_finite_inputs.fn] at e
  rw [andi_apply, andi_apply, IntOp.andi_eq_one, IntOp.andi_eq_one] at e
  exact all_real _ _ _ _ e.1.1 i

/-- Every entry of the probe weights is a real number. -/
theorem w_real (m : (ℓ : Loc nD τ sig) → Buf (Elt Ideal) ℓ)
    (h : Cert.Pre_KernelIdeal (hPre_finite_inputs := Cert.Pre_finite_inputs.Gen.facts) m) (c : Dev nD) (i : S16x1024.Idx) :
    ∃ r : ℝ, m ((c.tc : Thread nD τ).loc main_arg1) i = (r : EReal) := by
  have e := congrFun (h c) ValueIdx.ix0
  dsimp only [Cert.Pre_finite_inputs.fn] at e
  rw [andi_apply, andi_apply, IntOp.andi_eq_one, IntOp.andi_eq_one] at e
  exact all_real _ _ _ _ e.1.2 i

/-- Every entry of the probe biases is a real number. -/
theorem b_real (m : (ℓ : Loc nD τ sig) → Buf (Elt Ideal) ℓ)
    (h : Cert.Pre_KernelIdeal (hPre_finite_inputs := Cert.Pre_finite_inputs.Gen.facts) m) (c : Dev nD) (i : S16.Idx) :
    ∃ r : ℝ, m ((c.tc : Thread nD τ).loc main_arg2) i = (r : EReal) := by
  have e := congrFun (h c) ValueIdx.ix0
  dsimp only [Cert.Pre_finite_inputs.fn] at e
  rw [andi_apply, andi_apply, IntOp.andi_eq_one, IntOp.andi_eq_one] at e
  exact all_real _ _ _ _ e.2 i

end Cert.Finite

end
-- ==== Proof.lean ====
/-
  The kernel pools a sequence with sixteen attention probes: logits `x·wᵀ + b`, a softmax over the 4096 tokens, and the
  attention-weighted sum of the token features; it returns the pooled features and the attention weights. The reference takes
  the softmax in one pass. The kernel takes it in two tiles of 2048 tokens per batch row with a running maximum, sum and
  weighted sum kept in scratch, stores the raw logits of each tile into a slab resident for the whole batch row, and after the
  last tile divides the weighted sum by the sum and overwrites the slab with `exp (logit − max) / sum`.

  Over the extended reals, with every input entry a real number, the two agree: every logit is real; rescaling by
  `exp (m − m')` turns `Σ exp (s − m)` into `Σ exp (s − m')`, so after the last tile the running maximum is the row's maximum,
  the running sum the one-pass denominator, and the weighted sum over it the attention-weighted sum of the features (a finite
  sum of reals divided by a nonzero real is the sum of the quotients). The changes of float format the kernel makes before
  each matrix product are the identity there, and a matrix product into a zero accumulator is the plain contraction.

  The three frames: each program terminates on every weakly fair execution, without a fault, its arguments unchanged. For the
  kernel (as printed, and idealized) the body is run once per kind of grid point — first tile of a batch row, last tile — and
  the launch's proof data relate what the slab's staging buffer holds before and after a point, since a first tile overwrites
  only half of it; the reference is a straight line of host operations. The kernel's idealization rewrites nothing, so there
  is nothing for it to preserve beyond the text itself.
-/
import proofs.«102923_j5901285065163_2_alg».proof.Defs
import proofs.«102923_j5901285065163_2_alg».proof.Proof.Gen.Kernel
import proofs.«102923_j5901285065163_2_alg».proof.Proof.Gen.KernelIdeal
import proofs.«102923_j5901285065163_2_alg».proof.Proof.Gen.ReferenceIdeal
import proofs.«102923_j5901285065163_2_alg».proof.Proof.Gen.Pre_finite_inputs
import proofs.«102923_j5901285065163_2_alg».proof.Proof.BitsRun
import proofs.«102923_j5901285065163_2_alg».proof.Proof.IdealArrays
import proofs.«102923_j5901285065163_2_alg».proof.Proof.RefSide
import proofs.«102923_j5901285065163_2_alg».proof.Proof.FiniteInputs
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel (hKernel := Cert.Kernel.Gen.facts) (hPre_finite_inputs := Cert.Pre_finite_inputs.Gen.facts) :=
  fun m ρ _ => Cert.Kernel.Tiles.frame (F := Bits) m ρ

/-- The idealized kernel runs and leaves its arguments unchanged. -/
theorem frame_ideal : Cert.frame_KernelIdeal (hKernelIdeal := Cert.KernelIdeal.Gen.facts) (hPre_finite_inputs := Cert.Pre_finite_inputs.Gen.facts) :=
  fun m ρ _ => Cert.KernelIdeal.Tiles.frame (F := Ideal) m ρ

/-- The idealized reference runs and leaves its arguments unchanged: its run, the results dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Value.run (F := Ideal) m ρ)

/-- Over the extended reals, from memories agreeing on finite arguments, the kernel and the reference end with the same pooled
    features and the same attention weights: both are the specification's, the kernel's by the running softmax's algebra, the
    reference's by reading its operations at an index. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.pooled (Cert.KernelIdeal.Values.argX m c) (Cert.KernelIdeal.Values.argW m c) (Cert.KernelIdeal.Values.argB m c),
    fun c => Cert.Spec.attention (Cert.KernelIdeal.Values.argX m c) (Cert.KernelIdeal.Values.argW m c) (Cert.KernelIdeal.Values.argB m c),
    Cert.KernelIdeal.Values.value_run m ρ (Cert.Finite.x_real m hpre) (Cert.Finite.w_real m hpre) (Cert.Finite.b_real m hpre), ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v15_eq, Cert.RefSide.pooled_eq, (hagree c).1, (hagree c).2.1, (hagree c).2.2]
  · rw [(h c).2.1, Cert.ReferenceIdeal.Read.val_main_v16_eq, Cert.RefSide.attention_eq, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
